-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x10000x128 : Shape := ⟨3, ![4, 10000, 128]⟩
abbrev S4x10000x4 : Shape := ⟨3, ![4, 10000, 4]⟩
abbrev S4x100000x2 : Shape := ⟨3, ![4, 100000, 2]⟩
abbrev S264x512 : Shape := ⟨2, ![264, 512]⟩
abbrev S512 : Shape := ⟨1, ![512]⟩
abbrev S512x64 : Shape := ⟨2, ![512, 64]⟩
abbrev S64 : Shape := ⟨1, ![64]⟩
abbrev S_ : Shape := ⟨0, ![]⟩

class Facts : Prop where
  bcast_S_S4x10000x128 : S_.BroadcastsInDim S4x10000x128 (![] : Fin 0 → Fin S4x10000x128.rank)
  reducesTo_S4x10000x128_S_d0_1_2 : S4x10000x128.ReducesTo [0, 1, 2] S_
  h_S_ : 0 < S_.numel
  bcast_S_S4x10000x4 : S_.BroadcastsInDim S4x10000x4 (![] : Fin 0 → Fin S4x10000x4.rank)
  reducesTo_S4x10000x4_S_d0_1_2 : S4x10000x4.ReducesTo [0, 1, 2] S_
  bcast_S_S264x512 : S_.BroadcastsInDim S264x512 (![] : Fin 0 → Fin S264x512.rank)
  reducesTo_S264x512_S_d0_1 : S264x512.ReducesTo [0, 1] S_
  bcast_S_S512 : S_.BroadcastsInDim S512 (![] : Fin 0 → Fin S512.rank)
  reducesTo_S512_S_d0 : S512.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S64 .f32) (main_arg13 : FVec F S64 .f32) (main_arg14 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg8 : FVec F S512 .f32) (main_arg9 : FVec F S512x64 .f32) (main_arg10 : FVec F S64 .f32) (main_arg11 : FVec F S64 .f32) (main_arg12 : FVec F S64 .f32) (main_arg13 : FVec F S64 .f32) (main_arg14 : FVec F S64 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x64 .f32 := Host.absf main_arg9
  let main_cst_14 : FVec F S_ .f32 := constant S_ .f32 0x7F800000#32
  let main_v40 : FVec F S512x64 .f32 := broadcastInDim S512x64 ![] bcast_S_S512x64 main_cst_14
  let main_v41 : IVec S512x64 1 := cmpf .olt main_v39 main_v40
  let main_c_15 : IVec S_ 1 := constantI S_ 1 1#1
  let main_v42 : IVec S_ 1 := (fun x v => Host.reduce IntOp.andi x v reducesTo_S512x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_v48 main_v49 main_v50

def fn_part1 {F : FTy → Type} [FloatOps F] (main_arg5 : FVec F S512 .f32) (main_arg6 : FVec F S512 .f32) (main_arg7 : FVec F S512 .f32) (main_arg8 : FVec F S512 .f32) (main_arg9 : FVec F S512x64 .f32) (main_arg10 : FVec F S64 .f32) (main_arg11 : FVec F S64 .f32) (main_arg12 : FVec F S64 .f32) (main_arg13 : FVec F S64 .f32) (main_arg14 : FVec F S64 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S4x10000x128 .f32) (main_arg1 : FVec F S4x10000x4 .f32) (main_arg2 : IVec S4x100000x2 32) (main_arg3 : FVec F S264x512 .f32) (main_arg4 : FVec F S512 .f32) (main_arg5 : FVec F S512 .f32) (main_arg6 : FVec F S512 .f32) (main_arg7 : FVec F S512 .f32) (main_arg8 : FVec F S512 .f32) (main_arg9 : FVec F S512x64 .f32) (main_arg10 : FVec F S64 .f32) (main_arg11 : FVec F S64 .f32) (main_arg12 : FVec F S64 .f32) (main_arg13 : FVec F S64 .f32) (main_arg14 : FVec F S64 .f32) : IVec S_ 1 :=
  let main_v0 : FVec F S4x10000x128 .f32 := Host.absf main_arg0
  let main_cst : FVec F S_ .f32 := constant S_ .f32 0x7F800000#32
  let main_v1 : FVec F S4x10000x128 .f32 := broadcastInDim S4x10000x128 ![] bcast_S_S4x10000x128 main_cst
  let main_v2 : IVec S4x10000x128 1 := cmpf .olt main_v0 main_v1
  let main_c : IVec S_ 1 := constantI S_ 1 1#1
  let main_v3 : IVec S_ 1 := (fun x v => Host.reduce IntOp.andi x v reducesTo_S4x10000x128_S_d0_1_2 h_S_) main_v2 main_c
  let main_v4 : FVec F S4x10000x4 .f32 := Host.absf main_arg1
  let main_cst_0 : FVec F S_ .f32 := constant S_ .f32 0x7F800000#32
  let main_v5 : FVec F S4x10000x4 .f32 := broadcastInDim S4x10000x4 ![] bcast_S_S4x10000x4 main_cst_0
  let main_v6 : IVec S4x10000x4 1 := cmpf .olt main_v4 main_v5
  let main_c_1 : IVec S_ 1 := constantI S_ 1 1#1
  let main_v7 : IVec S_ 1 := (fun x v => Host.reduce IntOp.andi x v reducesTo_S4x10000x4_S_d0_1_2 h_S_) main_v6 main_c_1
  let main_v8 : IVec S_ 1 := andi main_v3 main_v7
  let main_v9 : FVec F S264x512 .f32 := Host.absf main_arg3
  let main_cst_2 : FVec F S_ .f32 := constant S_ .f32 0x7F800000#32
  let main_v10 : FVec F S264x512 .f32 := broadcastInDim S264x512 ![] bcast_S_S264x512 main_cst_2
  let main_v11 : IVec S264x512 1 := cmpf .olt main_v9 main_v10
  let main_c_3 : IVec S_ 1 := constantI S_ 1 1#1
  let main_v12 : IVec S_ 1 := (fun x v => Host.reduce IntOp.andi x v reducesTo_S264x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_arg8 main_arg9 main_arg10 main_arg11 main_arg12 main_arg13 main_arg14 main_v13 main_v16
-- ==== Kernel.lean ====
abbrev S4x10000x128 : Shape := ⟨3, ![4, 10000, 128]⟩
abbrev S4x10000x4 : Shape := ⟨3, ![4, 10000, 4]⟩
abbrev S4x100000x2 : Shape := ⟨3, ![4, 100000, 2]⟩
abbrev S264x512 : Shape := ⟨2, ![264, 512]⟩
abbrev S512 : Shape := ⟨1, ![512]⟩
abbrev S512x64 : Shape := ⟨2, ![512, 64]⟩
abbrev S64 : Shape := ⟨1, ![64]⟩
abbrev S_ : Shape := ⟨0, ![]⟩
abbrev S4x100352x2 : Shape := ⟨3, ![4, 100352, 2]⟩
abbrev S4x100352x1 : Shape := ⟨3, ![4, 100352, 1]⟩
abbrev S4x100352 : Shape := ⟨2, ![4, 100352]⟩
abbrev S1 : Shape := ⟨1, ![1]⟩
abbrev S1x1x1 : Shape := ⟨3, ![1, 1, 1]⟩
abbrev S4x100352x4 : Shape := ⟨3, ![4, 100352, 4]⟩
abbrev S4x100352x128 : Shape := ⟨3, ![4, 100352, 128]⟩
abbrev S4x100352x8 : Shape := ⟨3, ![4, 100352, 8]⟩
abbrev S401408x8 : Shape := ⟨2, ![401408, 8]⟩
abbrev S401408x128 : Shape := ⟨2, ![401408, 128]⟩
abbrev S401408x1 : Shape := ⟨2, ![401408, 1]⟩
abbrev S2048x8 : Shape := ⟨2, ![2048, 8]⟩
abbrev S2048x128 : Shape := ⟨2, ![2048, 128]⟩
abbrev S2048x1 : Shape := ⟨2, ![2048, 1]⟩
abbrev S8x512 : Shape := ⟨2, ![8, 512]⟩
abbrev S128x512 : Shape := ⟨2, ![128, 512]⟩
abbrev S2048x512 : Shape := ⟨2, ![2048, 512]⟩
abbrev S1x512 : Shape := ⟨2, ![1, 512]⟩
abbrev S2048x64 : Shape := ⟨2, ![2048, 64]⟩
abbrev S1x64 : Shape := ⟨2, ![1, 64]⟩
abbrev S2048 : Shape := ⟨1, ![2048]⟩
abbrev S4x100000 : Shape := ⟨2, ![4, 100000]⟩

abbrev nBuf : Space → Nat
  | .hbm => 121
  | .vmem => 20
  | .smem => 0
  | _ => 0

abbrev bufTy : (tb : Table) → Fin (tcTables nBuf tb) → BufTy
  | .hbm, ⟨0, _⟩ => ⟨S4x10000x128, .f32⟩
  | .hbm, ⟨1, _⟩ => ⟨S4x10000x4, .f32⟩
  | .hbm, ⟨2, _⟩ => ⟨S4x100000x2, .i32⟩
  | .hbm, ⟨3, _⟩ => ⟨S264x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512x64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S_, .i32⟩
  | .hbm, ⟨16, _⟩ => ⟨S_, .i32⟩
  | .hbm, ⟨17, _⟩ => ⟨S4x100352x2, .i32⟩
  | .hbm, ⟨18, _⟩ => ⟨S4x100352x1, .i32⟩
  | .hbm, ⟨19, _⟩ => ⟨S4x100352, .i32⟩
  | .hbm, ⟨20, _⟩ => ⟨S4x100352x1, .i32⟩
  | .hbm, ⟨21, _⟩ => ⟨S4x100352, .i32⟩
  | .hbm, ⟨22, _⟩ => ⟨S4x100352x1, .i32⟩
  | .hbm, ⟨23, _⟩ => ⟨S_, .i32⟩
  | .hbm, ⟨24, _⟩ => ⟨S4x100352x1, .i32⟩
  | .hbm, ⟨25, _⟩ => ⟨S4x100352x1, .i1⟩
  | .hbm, ⟨26, _⟩ => ⟨S_, .i32⟩
  | .hbm, ⟨27, _⟩ => ⟨S4x100352x1, .i32⟩
  | .hbm, ⟨28, _⟩ => ⟨S4x100352x1, .i32⟩
  | .hbm, ⟨29, _⟩ => ⟨S4x100352x1, .i32⟩
  | .hbm, ⟨30, _⟩ => ⟨S1, .i32⟩
  | .hbm, ⟨31, _⟩ => ⟨S_, .i32⟩
  | .hbm, ⟨32, _⟩ => ⟨S4x100352x1, .i32⟩
  | .hbm, ⟨33, _⟩ => ⟨S4x100352x1, .i1⟩
  | .hbm, ⟨34, _⟩ => ⟨S1x1x1, .i32⟩
  | .hbm, ⟨35, _⟩ => ⟨S4x100352x1, .i32⟩
  | .hbm, ⟨36, _⟩ => ⟨S4x100352x1, .i1⟩
  | .hbm, ⟨37, _⟩ => ⟨S4x100352x1, .i1⟩
  | .hbm, ⟨38, _⟩ => ⟨S_, .i1⟩
  | .hbm, ⟨39, _⟩ => ⟨S4x100352, .i1⟩
  | .hbm, ⟨40, _⟩ => ⟨S4x100352x4, .f32⟩
  | .hbm, ⟨41, _⟩ => ⟨S4x100352x4, .i1⟩
  | .hbm, ⟨42, _⟩ => ⟨S_, .f32⟩
  | .hbm, ⟨43, _⟩ => ⟨S4x100352x4, .f32⟩
  | .hbm, ⟨44, _⟩ => ⟨S4x100352x4, .f32⟩
  | .hbm, ⟨45, _⟩ => ⟨S4x100352x1, .i32⟩
  | .hbm, ⟨46, _⟩ => ⟨S_, .i32⟩
  | .hbm, ⟨47, _⟩ => ⟨S4x100352x1, .i32⟩
  | .hbm, ⟨48, _⟩ => ⟨S4x100352x1, .i1⟩
  | .hbm, ⟨49, _⟩ => ⟨S_, .i32⟩
  | .hbm, ⟨50, _⟩ => ⟨S4x100352x1, .i32⟩
  | .hbm, ⟨51, _⟩ => ⟨S4x100352x1, .i32⟩
  | .hbm, ⟨52, _⟩ => ⟨S4x100352x1, .i32⟩
  | .hbm, ⟨53, _⟩ => ⟨S1, .i32⟩
  | .hbm, ⟨54, _⟩ => ⟨S_, .i32⟩
  | .hbm, ⟨55, _⟩ => ⟨S4x100352x1, .i32⟩
  | .hbm, ⟨56, _⟩ => ⟨S4x100352x1, .i1⟩
  | .hbm, ⟨57, _⟩ => ⟨S1x1x1, .i32⟩
  | .hbm, ⟨58, _⟩ => ⟨S4x100352x1, .i32⟩
  | .hbm, ⟨59, _⟩ => ⟨S4x100352x1, .i1⟩
  | .hbm, ⟨60, _⟩ => ⟨S4x100352x1, .i1⟩
  | .hbm, ⟨61, _⟩ => ⟨S_, .i1⟩
  | .hbm, ⟨62, _⟩ => ⟨S4x100352, .i1⟩
  | .hbm, ⟨63, _⟩ => ⟨S4x100352x4, .f32⟩
  | .hbm, ⟨64, _⟩ => ⟨S4x100352x4, .i1⟩
  | .hbm, ⟨65, _⟩ => ⟨S_, .f32⟩
  | .hbm, ⟨66, _⟩ => ⟨S4x100352x4, .f32⟩
  | .hbm, ⟨67, _⟩ => ⟨S4x100352x4, .f32⟩
  | .hbm, ⟨68, _⟩ => ⟨S4x100352x1, .i32⟩
  | .hbm, ⟨69, _⟩ => ⟨S_, .i32⟩
  | .hbm, ⟨70, _⟩ => ⟨S4x100352x1, .i32⟩
  | .hbm, ⟨71, _⟩ => ⟨S4x100352x1, .i1⟩
  | .hbm, ⟨72, _⟩ => ⟨S_, .i32⟩
  | .hbm, ⟨73, _⟩ => ⟨S4x100352x1, .i32⟩
  | .hbm, ⟨74, _⟩ => ⟨S4x100352x1, .i32⟩
  | .hbm, ⟨75, _⟩ => ⟨S4x100352x1, .i32⟩
  | .hbm, ⟨76, _⟩ => ⟨S1, .i32⟩
  | .hbm, ⟨77, _⟩ => ⟨S_, .i32⟩
  | .hbm, ⟨78, _⟩ => ⟨S4x100352x1, .i32⟩
  | .hbm, ⟨79, _⟩ => ⟨S4x100352x1, .i1⟩
  | .hbm, ⟨80, _⟩ => ⟨S1x1x1, .i32⟩
  | .hbm, ⟨81, _⟩ => ⟨S4x100352x1, .i32⟩
  | .hbm, ⟨82, _⟩ => ⟨S4x100352x1, .i1⟩
  | .hbm, ⟨83, _⟩ => ⟨S4x100352x1, .i1⟩
  | .hbm, ⟨84, _⟩ => ⟨S_, .i1⟩
  | .hbm, ⟨85, _⟩ => ⟨S4x100352, .i1⟩
  | .hbm, ⟨86, _⟩ => ⟨S4x100352x128, .f32⟩
  | .hbm, ⟨87, _⟩ => ⟨S4x100352x128, .i1⟩
  | .hbm, ⟨88, _⟩ => ⟨S_, .f32⟩
  | .hbm, ⟨89, _⟩ => ⟨S4x100352x128, .f32⟩
  | .hbm, ⟨90, _⟩ => ⟨S4x100352x128, .f32⟩
  | .hbm, ⟨91, _⟩ => ⟨S4x100352x1, .i32⟩
  | .hbm, ⟨92, _⟩ => ⟨S_, .i32⟩
  | .hbm, ⟨93, _⟩ => ⟨S4x100352x1, .i32⟩
  | .hbm, ⟨94, _⟩ => ⟨S4x100352x1, .i1⟩
  | .hbm, ⟨95, _⟩ => ⟨S_, .i32⟩
  | .hbm, ⟨96, _⟩ => ⟨S4x100352x1, .i32⟩
  | .hbm, ⟨97, _⟩ => ⟨S4x100352x1, .i32⟩
  | .hbm, ⟨98, _⟩ => ⟨S4x100352x1, .i32⟩
  | .hbm, ⟨99, _⟩ => ⟨S1, .i32⟩
  | .hbm, ⟨100, _⟩ => ⟨S_, .i32⟩
  | .hbm, ⟨101, _⟩ => ⟨S4x100352x1, .i32⟩
  | .hbm, ⟨102, _⟩ => ⟨S4x100352x1, .i1⟩
  | .hbm, ⟨103, _⟩ => ⟨S1x1x1, .i32⟩
  | .hbm, ⟨104, _⟩ => ⟨S4x100352x1, .i32⟩
  | .hbm, ⟨105, _⟩ => ⟨S4x100352x1, .i1⟩
  | .hbm, ⟨106, _⟩ => ⟨S4x100352x1, .i1⟩
  | .hbm, ⟨107, _⟩ => ⟨S_, .i1⟩
  | .hbm, ⟨108, _⟩ => ⟨S4x100352, .i1⟩
  | .hbm, ⟨109, _⟩ => ⟨S4x100352x128, .f32⟩
  | .hbm, ⟨110, _⟩ => ⟨S4x100352x128, .i1⟩
  | .hbm, ⟨111, _⟩ => ⟨S_, .f32⟩
  | .hbm, ⟨112, _⟩ => ⟨S4x100352x128, .f32⟩
  | .hbm, ⟨113, _⟩ => ⟨S4x100352x128, .f32⟩
  | .hbm, ⟨114, _⟩ => ⟨S4x100352x8, .f32⟩
  | .hbm, ⟨115, _⟩ => ⟨S401408x8, .f32⟩
  | .hbm, ⟨116, _⟩ => ⟨S401408x128, .f32⟩
  | .hbm, ⟨117, _⟩ => ⟨S401408x128, .f32⟩
  | .hbm, ⟨118, _⟩ => ⟨S401408x1, .f32⟩
  | .hbm, ⟨119, _⟩ => ⟨S4x100352, .f32⟩
  | .hbm, ⟨120, _⟩ => ⟨S4x100000, .f32⟩
  | .local _ .vmem, ⟨0, _⟩ => ⟨S2048x8, .f32⟩
  | .local _ .vmem, ⟨1, _⟩ => ⟨S2048x8, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S264x512, .f32⟩
  | .local _ .vmem, ⟨7, _⟩ => ⟨S512, .f32⟩
  | .local _ .vmem, ⟨8, _⟩ => ⟨S512, .f32⟩
  | .local _ .vmem, ⟨9, _⟩ => ⟨S512, .f32⟩
  | .local _ .vmem, ⟨10, _⟩ => ⟨S512, .f32⟩
  | .local _ .vmem, ⟨11, _⟩ => ⟨S512, .f32⟩
  | .local _ .vmem, ⟨12, _⟩ => ⟨S512x64, .f32⟩
  | .local _ .vmem, ⟨13, _⟩ => ⟨S64, .f32⟩
  | .local _ .vmem, ⟨14, _⟩ => ⟨S64, .f32⟩
  | .local _ .vmem, ⟨15, _⟩ => ⟨S64, .f32⟩
  | .local _ .vmem, ⟨16, _⟩ => ⟨S64, .f32⟩
  | .local _ .vmem, ⟨17, _⟩ => ⟨S64, .f32⟩
  | .local _ .vmem, ⟨18, _⟩ => ⟨S2048x1, .f32⟩
  | .local _ .vmem, ⟨19, _⟩ => ⟨S2048x1, .f32⟩
  | _, _ => ⟨S4x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_call0_v0 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_call1_c : Ref sig .tc := ⟨.hbm, 23, rfl⟩
abbrev main_call1_v0 : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_c_1 : Ref sig .tc := ⟨.hbm, 30, rfl⟩
abbrev main_call1_c_2 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_c_3 : Ref sig .tc := ⟨.hbm, 38, rfl⟩
abbrev main_call1_v11 : Ref sig .tc := ⟨.hbm, 39, rfl⟩
abbrev main_call1_v12 : Ref sig .tc := ⟨.hbm, 40, rfl⟩
abbrev main_call1_v13 : Ref sig .tc := ⟨.hbm, 41, rfl⟩
abbrev main_call1_cst : Ref sig .tc := ⟨.hbm, 42, rfl⟩
abbrev main_call1_v14 : Ref sig .tc := ⟨.hbm, 43, rfl⟩
abbrev main_v6 : Ref sig .tc := ⟨.hbm, 44, rfl⟩
abbrev main_v7 : Ref sig .tc := ⟨.hbm, 45, rfl⟩
abbrev main_call2_c : Ref sig .tc := ⟨.hbm, 46, rfl⟩
abbrev main_call2_v0 : Ref sig .tc := ⟨.hbm, 47, rfl⟩
abbrev main_call2_v1 : Ref sig .tc := ⟨.hbm, 48, rfl⟩
abbrev main_call2_c_0 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_call2_c_1 : Ref sig .tc := ⟨.hbm, 53, rfl⟩
abbrev main_call2_c_2 : Ref sig .tc := ⟨.hbm, 54, rfl⟩
abbrev main_call2_v5 : Ref sig .tc := ⟨.hbm, 55, rfl⟩
abbrev main_call2_v6 : Ref sig .tc := ⟨.hbm, 56, rfl⟩
abbrev main_call2_v7 : Ref sig .tc := ⟨.hbm, 57, rfl⟩
abbrev main_call2_v8 : Ref sig .tc := ⟨.hbm, 58, rfl⟩
abbrev main_call2_v9 : Ref sig .tc := ⟨.hbm, 59, rfl⟩
abbrev main_call2_v10 : Ref sig .tc := ⟨.hbm, 60, rfl⟩
abbrev main_call2_c_3 : Ref sig .tc := ⟨.hbm, 61, rfl⟩
abbrev main_call2_v11 : Ref sig .tc := ⟨.hbm, 62, rfl⟩
abbrev main_call2_v12 : Ref sig .tc := ⟨.hbm, 63, rfl⟩
abbrev main_call2_v13 : Ref sig .tc := ⟨.hbm, 64, rfl⟩
abbrev main_call2_cst : Ref sig .tc := ⟨.hbm, 65, rfl⟩
abbrev main_call2_v14 : Ref sig .tc := ⟨.hbm, 66, rfl⟩
abbrev main_v8 : Ref sig .tc := ⟨.hbm, 67, rfl⟩
abbrev main_v9 : Ref sig .tc := ⟨.hbm, 68, rfl⟩
abbrev main_call3_c : Ref sig .tc := ⟨.hbm, 69, rfl⟩
abbrev main_call3_v0 : Ref sig .tc := ⟨.hbm, 70, rfl⟩
abbrev main_call3_v1 : Ref sig .tc := ⟨.hbm, 71, rfl⟩
abbrev main_call3_c_0 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_call3_c_1 : Ref sig .tc := ⟨.hbm, 76, rfl⟩
abbrev main_call3_c_2 : Ref sig .tc := ⟨.hbm, 77, rfl⟩
abbrev main_call3_v5 : Ref sig .tc := ⟨.hbm, 78, rfl⟩
abbrev main_call3_v6 : Ref sig .tc := ⟨.hbm, 79, rfl⟩
abbrev main_call3_v7 : Ref sig .tc := ⟨.hbm, 80, rfl⟩
abbrev main_call3_v8 : Ref sig .tc := ⟨.hbm, 81, rfl⟩
abbrev main_call3_v9 : Ref sig .tc := ⟨.hbm, 82, rfl⟩
abbrev main_call3_v10 : Ref sig .tc := ⟨.hbm, 83, rfl⟩
abbrev main_call3_c_3 : Ref sig .tc := ⟨.hbm, 84, rfl⟩
abbrev main_call3_v11 : Ref sig .tc := ⟨.hbm, 85, rfl⟩
abbrev main_call3_v12 : Ref sig .tc := ⟨.hbm, 86, rfl⟩
abbrev main_call3_v13 : Ref sig .tc := ⟨.hbm, 87, rfl⟩
abbrev main_call3_cst : Ref sig .tc := ⟨.hbm, 88, rfl⟩
abbrev main_call3_v14 : Ref sig .tc := ⟨.hbm, 89, rfl⟩
abbrev main_v10 : Ref sig .tc := ⟨.hbm, 90, rfl⟩
abbrev main_v11 : Ref sig .tc := ⟨.hbm, 91, rfl⟩
abbrev main_call4_c : Ref sig .tc := ⟨.hbm, 92, rfl⟩
abbrev main_call4_v0 : Ref sig .tc := ⟨.hbm, 93, rfl⟩
abbrev main_call4_v1 : Ref sig .tc := ⟨.hbm, 94, rfl⟩
abbrev main_call4_c_0 : Ref sig .tc := ⟨.hbm, 95, rfl⟩
abbrev main_call4_v2 : Ref sig .tc := ⟨.hbm, 96, rfl⟩
abbrev main_call4_v3 : Ref sig .tc := ⟨.hbm, 97, rfl⟩
abbrev main_call4_v4 : Ref sig .tc := ⟨.hbm, 98, rfl⟩
abbrev main_call4_c_1 : Ref sig .tc := ⟨.hbm, 99, rfl⟩
abbrev main_call4_c_2 : Ref sig .tc := ⟨.hbm, 100, rfl⟩
abbrev main_call4_v5 : Ref sig .tc := ⟨.hbm, 101, rfl⟩
abbrev main_call4_v6 : Ref sig .tc := ⟨.hbm, 102, rfl⟩
abbrev main_call4_v7 : Ref sig .tc := ⟨.hbm, 103, rfl⟩
abbrev main_call4_v8 : Ref sig .tc := ⟨.hbm, 104, rfl⟩
abbrev main_call4_v9 : Ref sig .tc := ⟨.hbm, 105, rfl⟩
abbrev main_call4_v10 : Ref sig .tc := ⟨.hbm, 106, rfl⟩
abbrev main_call4_c_3 : Ref sig .tc := ⟨.hbm, 107, rfl⟩
abbrev main_call4_v11 : Ref sig .tc := ⟨.hbm, 108, rfl⟩
abbrev main_call4_v12 : Ref sig .tc := ⟨.hbm, 109, rfl⟩
abbrev main_call4_v13 : Ref sig .tc := ⟨.hbm, 110, rfl⟩
abbrev main_call4_cst : Ref sig .tc := ⟨.hbm, 111, rfl⟩
abbrev main_call4_v14 : Ref sig .tc := ⟨.hbm, 112, rfl⟩
abbrev main_v12 : Ref sig .tc := ⟨.hbm, 113, rfl⟩
abbrev main_v13 : Ref sig .tc := ⟨.hbm, 114, rfl⟩
abbrev main_v14 : Ref sig .tc := ⟨.hbm, 115, rfl⟩
abbrev main_v15 : Ref sig .tc := ⟨.hbm, 116, rfl⟩
abbrev main_v16 : Ref sig .tc := ⟨.hbm, 117, rfl⟩
abbrev main_v17 : Ref sig .tc := ⟨.hbm, 118, rfl⟩
abbrev main_v18 : Ref sig .tc := ⟨.hbm, 119, rfl⟩
abbrev main_v19 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨1, ![196], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S264x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S2048x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  pads_S4x100000x2_S4x100352x2_000_03520_000 : S4x100000x2.Pads (![0, 0, 0] : Fin 3 → Nat) ![0, 352, 0] ![0, 0, 0] S4x100352x2
  h_S_ : 0 < S_.numel
  slices_S4x100352x2_S4x100352x1_0_0_0 : S4x100352x2.Slices ![0, 0, 0] S4x100352x1
  shapeCasts_S4x100352x1_S4x100352 : S4x100352x1.ShapeCasts S4x100352
  slices_S4x100352x2_S4x100352x1_0_0_1 : S4x100352x2.Slices ![0, 0, 1] S4x100352x1
  bcast_S4x100352_S4x100352x1_0_1 : S4x100352.BroadcastsInDim S4x100352x1 (![0, 1] : Fin 2 → Fin S4x100352x1.rank)
  bcast_S_S4x100352x1 : S_.BroadcastsInDim S4x100352x1 (![] : Fin 0 → Fin S4x100352x1.rank)
  bcast_S1_S1x1x1_2 : S1.BroadcastsInDim S1x1x1 (![2] : Fin 1 → Fin S1x1x1.rank)
  bcast_S1x1x1_S4x100352x1_0_1_2 : S1x1x1.BroadcastsInDim S4x100352x1 (![0, 1, 2] : Fin 3 → Fin S4x100352x1.rank)
  reducesTo_S4x100352x1_S4x100352_d2 : S4x100352x1.ReducesTo [2] S4x100352
  bcast_S4x100352_S4x100352x4_0_1 : S4x100352.BroadcastsInDim S4x100352x4 (![0, 1] : Fin 2 → Fin S4x100352x4.rank)
  bcast_S_S4x100352x4 : S_.BroadcastsInDim S4x100352x4 (![] : Fin 0 → Fin S4x100352x4.rank)
  bcast_S4x100352_S4x100352x128_0_1 : S4x100352.BroadcastsInDim S4x100352x128 (![0, 1] : Fin 2 → Fin S4x100352x128.rank)
  bcast_S_S4x100352x128 : S_.BroadcastsInDim S4x100352x128 (![] : Fin 0 → Fin S4x100352x128.rank)
  concatenates_S4x100352x4_S4x100352x4_S4x100352x8_d2 : Shape.Concatenates [S4x100352x4, S4x100352x4] S4x100352x8 2
  shapeCasts_S4x100352x8_S401408x8 : S4x100352x8.ShapeCasts S401408x8
  shapeCasts_S4x100352x128_S401408x128 : S4x100352x128.ShapeCasts S401408x128
  inb_S2048x8_S2048x8_0_0 : ∀ a, (![0, 0] : Fin 2 → Nat) a + S2048x8.size a ≤ S2048x8.size a
  h_S2048x8 : 0 < S2048x8.numel
  shapeCasts_S2048x8_S2048x8 : S2048x8.ShapeCasts S2048x8
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S264x512_S8x512_0_0 : ∀ a, (![0, 0] : Fin 2 → Nat) a + S8x512.size a ≤ S264x512.size a
  h_S8x512 : 0 < S8x512.numel
  inb_S264x512_S128x512_8_0 : ∀ a, (![8, 0] : Fin 2 → Nat) a + S128x512.size a ≤ S264x512.size a
  h_S128x512 : 0 < S128x512.numel
  inb_S264x512_S128x512_136_0 : ∀ a, (![136, 0] : Fin 2 → Nat) a + S128x512.size a ≤ S264x512.size a
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  inb_S512x64_S512x64_0_0 : ∀ a, (![0, 0] : Fin 2 → Nat) a + S512x64.size a ≤ S512x64.size a
  h_S512x64 : 0 < S512x64.numel
  inb_S64_S64_0 : ∀ a, (![0] : Fin 1 → Nat) a + S64.size a ≤ S64.size a
  h_S64 : 0 < S64.numel
  shapeCasts_S64_S1x64 : S64.ShapeCasts S1x64
  broadcasts_S1x64_S2048x64 : S1x64.Broadcasts S2048x64
  reduces_S2048x64_S2048 : S2048x64.Reduces [1] S2048
  shapeCasts_S2048_S2048x1 : S2048.ShapeCasts S2048x1
  broadcasts_S2048x1_S2048x64 : S2048x1.Broadcasts S2048x64
  inb_S2048x1_S2048x1_0_0 : ∀ a, (![0, 0] : Fin 2 → Nat) a + S2048x1.size a ≤ S2048x1.size a
  h_S2048x1 : 0 < S2048x1.numel
  shapeCasts_S401408x1_S4x100352 : S401408x1.ShapeCasts S4x100352
  slices_S4x100352_S4x100000_0_0 : S4x100352.Slices ![0, 0] S4x100000
  gather_S4x10000x4_S4x100352x1_S4x100352x4_2_1_0_0_1_2_114_wf : GatherDims.WF S4x10000x4 S4x100352x1 S4x100352x4 [2] [1] [0] [1] [0] 2 ![1, 1, 4]
  gather_S4x10000x128_S4x100352x1_S4x100352x128_2_1_0_0_1_2_11128_wf : GatherDims.WF S4x10000x128 S4x100352x1 S4x100352x128 [2] [1] [0] [1] [0] 2 ![1, 1, 128]
  dot_S2048x8_S8x512_S2048x512_1_0_0_1_n_n_wf : DotDims.WF S2048x8 S8x512 S2048x512 [1] [0] [0] [1] [] []
  dot_S2048x128_S128x512_S2048x512_1_0_0_1_n_n_wf : DotDims.WF S2048x128 S128x512 S2048x512 [1] [0] [0] [1] [] []
  dot_S2048x512_S512x64_S2048x64_1_0_0_1_n_n_wf : DotDims.WF S2048x512 S512x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x8.size a ≤ S401408x8.size a
  hwx0_0 : ∀ i : grid0.Coords, EltTy.bits .f32 = 32 ∨ (Rect.block (s := S401408x8) S2048x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S401408x128.size a
  hwx0_1 : ∀ i : grid0.Coords, EltTy.bits .f32 = 32 ∨ (Rect.block (s := S401408x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S401408x128.size a
  hwx0_2 : ∀ i : grid0.Coords, EltTy.bits .f32 = 32 ∨ (Rect.block (s := S401408x128) S2048x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S264x512.size a ≤ S264x512.size a
  hwx0_3 : ∀ i : grid0.Coords, EltTy.bits .f32 = 32 ∨ (Rect.block (s := S264x512) S264x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S512.size a
  hwx0_8 : ∀ i : grid0.Coords, EltTy.bits .f32 = 32 ∨ (Rect.block (s := S512) S512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x64.size a ≤ S512x64.size a
  hwx0_9 : ∀ i : grid0.Coords, EltTy.bits .f32 = 32 ∨ (Rect.block (s := S512x64) S512x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64.size a ≤ S64.size a
  hwx0_10 : ∀ i : grid0.Coords, EltTy.bits .f32 = 32 ∨ (Rect.block (s := S64) S64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64.size a ≤ S64.size a
  hwx0_11 : ∀ i : grid0.Coords, EltTy.bits .f32 = 32 ∨ (Rect.block (s := S64) S64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64.size a ≤ S64.size a
  hwx0_12 : ∀ i : grid0.Coords, EltTy.bits .f32 = 32 ∨ (Rect.block (s := S64) S64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64.size a ≤ S64.size a
  hwx0_13 : ∀ i : grid0.Coords, EltTy.bits .f32 = 32 ∨ (Rect.block (s := S64) S64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S64.size a ≤ S64.size a
  hwx0_14 : ∀ i : grid0.Coords, EltTy.bits .f32 = 32 ∨ (Rect.block (s := S64) S64.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2048x1.size a ≤ S401408x1.size a
  hwx0_15 : ∀ i : grid0.Coords, EltTy.bits .f32 = 32 ∨ (Rect.block (s := S401408x1) S2048x1.size (cc0_transform_15 i) (hinb0_15 i)).WholeWords (EltTy.packing .f32)

variable [Facts₀]

def gather_S4x10000x4_S4x100352x1_S4x100352x4_2_1_0_0_1_2_114 : GatherDims S4x10000x4 S4x100352x1 S4x100352x4 where
  offsetDims := [2]
  collapsedSliceDims := [1]
  operandBatchingDims := [0]
  startIndicesBatchingDims := [0]
  startIndexMap := [1]
  indexVectorDim := 2
  sliceSizes := ![1, 1, 4]
  wf := gather_S4x10000x4_S4x100352x1_S4x100352x4_2_1_0_0_1_2_114_wf
def gather_S4x10000x128_S4x100352x1_S4x100352x128_2_1_0_0_1_2_11128 : GatherDims S4x10000x128 S4x100352x1 S4x100352x128 where
  offsetDims := [2]
  collapsedSliceDims := [1]
  operandBatchingDims := [0]
  startIndicesBatchingDims := [0]
  startIndexMap := [1]
  indexVectorDim := 2
  sliceSizes := ![1, 1, 128]
  wf := gather_S4x10000x128_S4x100352x1_S4x100352x128_2_1_0_0_1_2_11128_wf
def dot_S2048x8_S8x512_S2048x512_1_0_0_1_n_n : DotDims S2048x8 S8x512 S2048x512 where
  lhsContracting := [1]
  rhsContracting := [0]
  lhsNonContracting := [0]
  rhsNonContracting := [1]
  lhsBatch := []
  rhsBatch := []
  wf := dot_S2048x8_S8x512_S2048x512_1_0_0_1_n_n_wf
def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf
def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf

abbrev win0_0 : Pipeline.Window sig grid0 :=
  Pipeline.Window.ofSpec (Memref.whole main_v14) S2048x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S264x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v17) S2048x1.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S4x10000x128 : Shape := ⟨3, ![4, 10000, 128]⟩
abbrev S4x10000x4 : Shape := ⟨3, ![4, 10000, 4]⟩
abbrev S4x100000x2 : Shape := ⟨3, ![4, 100000, 2]⟩
abbrev S264x512 : Shape := ⟨2, ![264, 512]⟩
abbrev S512 : Shape := ⟨1, ![512]⟩
abbrev S512x64 : Shape := ⟨2, ![512, 64]⟩
abbrev S64 : Shape := ⟨1, ![64]⟩
abbrev S4x100000x1 : Shape := ⟨3, ![4, 100000, 1]⟩
abbrev S4x100000 : Shape := ⟨2, ![4, 100000]⟩
abbrev S_ : Shape := ⟨0, ![]⟩
abbrev S1 : Shape := ⟨1, ![1]⟩
abbrev S1x1x1 : Shape := ⟨3, ![1, 1, 1]⟩
abbrev S4x100000x4 : Shape := ⟨3, ![4, 100000, 4]⟩
abbrev S4x100000x128 : Shape := ⟨3, ![4, 100000, 128]⟩
abbrev S4x100000x264 : Shape := ⟨3, ![4, 100000, 264]⟩
abbrev S4x100000x512 : Shape := ⟨3, ![4, 100000, 512]⟩
abbrev S1x1x512 : Shape := ⟨3, ![1, 1, 512]⟩
abbrev S4x100000x64 : Shape := ⟨3, ![4, 100000, 64]⟩
abbrev S1x1x64 : Shape := ⟨3, ![1, 1, 64]⟩

abbrev nBuf : Space → Nat
  | .hbm => 170
  | .vmem => 0
  | .smem => 0
  | _ => 0

abbrev hbmTy0_0 (i : Nat) : BufTy := match i % 128 with
  | 0 => ⟨S4x10000x128, .f32⟩
  | 1 => ⟨S4x10000x4, .f32⟩
  | 2 => ⟨S4x100000x2, .i32⟩
  | 3 => ⟨S264x512, .f32⟩
  | 4 => ⟨S512, .f32⟩
  | 5 => ⟨S512, .f32⟩
  | 6 => ⟨S512, .f32⟩
  | 7 => ⟨S512, .f32⟩
  | 8 => ⟨S512, .f32⟩
  | 9 => ⟨S512x64, .f32⟩
  | 10 => ⟨S64, .f32⟩
  | 11 => ⟨S64, .f32⟩
  | 12 => ⟨S64, .f32⟩
  | 13 => ⟨S64, .f32⟩
  | 14 => ⟨S64, .f32⟩
  | 15 => ⟨S4x100000x1, .i32⟩
  | 16 => ⟨S4x100000, .i32⟩
  | 17 => ⟨S4x100000x1, .i32⟩
  | 18 => ⟨S4x100000, .i32⟩
  | 19 => ⟨S4x100000x1, .i32⟩
  | 20 => ⟨S_, .i32⟩
  | 21 => ⟨S4x100000x1, .i32⟩
  | 22 => ⟨S4x100000x1, .i1⟩
  | 23 => ⟨S_, .i32⟩
  | 24 => ⟨S4x100000x1, .i32⟩
  | 25 => ⟨S4x100000x1, .i32⟩
  | 26 => ⟨S4x100000x1, .i32⟩
  | 27 => ⟨S1, .i32⟩
  | 28 => ⟨S_, .i32⟩
  | 29 => ⟨S4x100000x1, .i32⟩
  | 30 => ⟨S4x100000x1, .i1⟩
  | 31 => ⟨S1x1x1, .i32⟩
  | 32 => ⟨S4x100000x1, .i32⟩
  | 33 => ⟨S4x100000x1, .i1⟩
  | 34 => ⟨S4x100000x1, .i1⟩
  | 35 => ⟨S_, .i1⟩
  | 36 => ⟨S4x100000, .i1⟩
  | 37 => ⟨S4x100000x4, .f32⟩
  | 38 => ⟨S4x100000x4, .i1⟩
  | 39 => ⟨S_, .f32⟩
  | 40 => ⟨S4x100000x4, .f32⟩
  | 41 => ⟨S4x100000x4, .f32⟩
  | 42 => ⟨S4x100000x1, .i32⟩
  | 43 => ⟨S_, .i32⟩
  | 44 => ⟨S4x100000x1, .i32⟩
  | 45 => ⟨S4x100000x1, .i1⟩
  | 46 => ⟨S_, .i32⟩
  | 47 => ⟨S4x100000x1, .i32⟩
  | 48 => ⟨S4x100000x1, .i32⟩
  | 49 => ⟨S4x100000x1, .i32⟩
  | 50 => ⟨S1, .i32⟩
  | 51 => ⟨S_, .i32⟩
  | 52 => ⟨S4x100000x1, .i32⟩
  | 53 => ⟨S4x100000x1, .i1⟩
  | 54 => ⟨S1x1x1, .i32⟩
  | 55 => ⟨S4x100000x1, .i32⟩
  | 56 => ⟨S4x100000x1, .i1⟩
  | 57 => ⟨S4x100000x1, .i1⟩
  | 58 => ⟨S_, .i1⟩
  | 59 => ⟨S4x100000, .i1⟩
  | 60 => ⟨S4x100000x4, .f32⟩
  | 61 => ⟨S4x100000x4, .i1⟩
  | 62 => ⟨S_, .f32⟩
  | 63 => ⟨S4x100000x4, .f32⟩
  | 64 => ⟨S4x100000x4, .f32⟩
  | 65 => ⟨S4x100000x1, .i32⟩
  | 66 => ⟨S_, .i32⟩
  | 67 => ⟨S4x100000x1, .i32⟩
  | 68 => ⟨S4x100000x1, .i1⟩
  | 69 => ⟨S_, .i32⟩
  | 70 => ⟨S4x100000x1, .i32⟩
  | 71 => ⟨S4x100000x1, .i32⟩
  | 72 => ⟨S4x100000x1, .i32⟩
  | 73 => ⟨S1, .i32⟩
  | 74 => ⟨S_, .i32⟩
  | 75 => ⟨S4x100000x1, .i32⟩
  | 76 => ⟨S4x100000x1, .i1⟩
  | 77 => ⟨S1x1x1, .i32⟩
  | 78 => ⟨S4x100000x1, .i32⟩
  | 79 => ⟨S4x100000x1, .i1⟩
  | 80 => ⟨S4x100000x1, .i1⟩
  | 81 => ⟨S_, .i1⟩
  | 82 => ⟨S4x100000, .i1⟩
  | 83 => ⟨S4x100000x128, .f32⟩
  | 84 => ⟨S4x100000x128, .i1⟩
  | 85 => ⟨S_, .f32⟩
  | 86 => ⟨S4x100000x128, .f32⟩
  | 87 => ⟨S4x100000x128, .f32⟩
  | 88 => ⟨S4x100000x1, .i32⟩
  | 89 => ⟨S_, .i32⟩
  | 90 => ⟨S4x100000x1, .i32⟩
  | 91 => ⟨S4x100000x1, .i1⟩
  | 92 => ⟨S_, .i32⟩
  | 93 => ⟨S4x100000x1, .i32⟩
  | 94 => ⟨S4x100000x1, .i32⟩
  | 95 => ⟨S4x100000x1, .i32⟩
  | 96 => ⟨S1, .i32⟩
  | 97 => ⟨S_, .i32⟩
  | 98 => ⟨S4x100000x1, .i32⟩
  | 99 => ⟨S4x100000x1, .i1⟩
  | 100 => ⟨S1x1x1, .i32⟩
  | 101 => ⟨S4x100000x1, .i32⟩
  | 102 => ⟨S4x100000x1, .i1⟩
  | 103 => ⟨S4x100000x1, .i1⟩
  | 104 => ⟨S_, .i1⟩
  | 105 => ⟨S4x100000, .i1⟩
  | 106 => ⟨S4x100000x128, .f32⟩
  | 107 => ⟨S4x100000x128, .i1⟩
  | 108 => ⟨S_, .f32⟩
  | 109 => ⟨S4x100000x128, .f32⟩
  | 110 => ⟨S4x100000x128, .f32⟩
  | 111 => ⟨S4x100000x264, .f32⟩
  | 112 => ⟨S4x100000x512, .f32⟩
  | 113 => ⟨S1x1x512, .f32⟩
  | 114 => ⟨S4x100000x512, .f32⟩
  | 115 => ⟨S4x100000x512, .f32⟩
  | 116 => ⟨S1x1x512, .f32⟩
  | 117 => ⟨S4x100000x512, .f32⟩
  | 118 => ⟨S4x100000x512, .f32⟩
  | 119 => ⟨S_, .f32⟩
  | 120 => ⟨S512, .f32⟩
  | 121 => ⟨S512, .f32⟩
  | 122 => ⟨S512, .f32⟩
  | 123 => ⟨S512, .f32⟩
  | 124 => ⟨S1x1x512, .f32⟩
  | 125 => ⟨S4x100000x512, .f32⟩
  | 126 => ⟨S4x100000x512, .f32⟩
  | 127 => ⟨S1x1x512, .f32⟩
  | _ => ⟨S4x10000x128, .f32⟩

abbrev hbmTy0_1 (i : Nat) : BufTy := match i % 128 with
  | 0 => ⟨S4x100000x512, .f32⟩
  | 1 => ⟨S4x100000x512, .f32⟩
  | 2 => ⟨S_, .f32⟩
  | 3 => ⟨S4x100000x512, .f32⟩
  | 4 => ⟨S4x100000x512, .f32⟩
  | 5 => ⟨S4x100000x64, .f32⟩
  | 6 => ⟨S1x1x64, .f32⟩
  | 7 => ⟨S4x100000x64, .f32⟩
  | 8 => ⟨S4x100000x64, .f32⟩
  | 9 => ⟨S1x1x64, .f32⟩
  | 10 => ⟨S4x100000x64, .f32⟩
  | 11 => ⟨S4x100000x64, .f32⟩
  | 12 => ⟨S_, .f32⟩
  | 13 => ⟨S64, .f32⟩
  | 14 => ⟨S64, .f32⟩
  | 15 => ⟨S64, .f32⟩
  | 16 => ⟨S64, .f32⟩
  | 17 => ⟨S1x1x64, .f32⟩
  | 18 => ⟨S4x100000x64, .f32⟩
  | 19 => ⟨S4x100000x64, .f32⟩
  | 20 => ⟨S1x1x64, .f32⟩
  | 21 => ⟨S4x100000x64, .f32⟩
  | 22 => ⟨S4x100000x64, .f32⟩
  | 23 => ⟨S_, .f32⟩
  | 24 => ⟨S4x100000x64, .f32⟩
  | 25 => ⟨S4x100000x64, .f32⟩
  | 26 => ⟨S_, .f32⟩
  | 27 => ⟨S4x100000, .f32⟩
  | 28 => ⟨S_, .f32⟩
  | 29 => ⟨S4x100000, .f32⟩
  | 30 => ⟨S4x100000, .f32⟩
  | 31 => ⟨S4x100000x1, .f32⟩
  | 32 => ⟨S4x100000x64, .f32⟩
  | 33 => ⟨S4x100000x64, .f32⟩
  | 34 => ⟨S4x100000x64, .f32⟩
  | 35 => ⟨S_, .f32⟩
  | 36 => ⟨S4x100000, .f32⟩
  | 37 => ⟨S4x100000x1, .f32⟩
  | 38 => ⟨S4x100000x64, .f32⟩
  | 39 => ⟨S4x100000x64, .f32⟩
  | 40 => ⟨S_, .f32⟩
  | 41 => ⟨S4x100000, .f32⟩
  | _ => ⟨S4x10000x128, .f32⟩

abbrev hbmTy (i : Nat) : BufTy := match i / 128 with
  | 0 => hbmTy0_0 i
  | 1 => hbmTy0_1 i
  | _ => ⟨S4x10000x128, .f32⟩

abbrev bufTy : (tb : Table) → Fin (tcTables nBuf tb) → BufTy
  | .hbm, ⟨i, _⟩ => hbmTy i
  | _, _ => ⟨S4x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_1 : Ref sig .tc := ⟨.hbm, 27, rfl⟩
abbrev main_call0_c_2 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_c_3 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_cst : Ref sig .tc := ⟨.hbm, 39, rfl⟩
abbrev main_call0_v14 : Ref sig .tc := ⟨.hbm, 40, rfl⟩
abbrev main_v5 : Ref sig .tc := ⟨.hbm, 41, rfl⟩
abbrev main_v6 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_c_1 : Ref sig .tc := ⟨.hbm, 50, rfl⟩
abbrev main_call1_c_2 : Ref sig .tc := ⟨.hbm, 51, rfl⟩
abbrev main_call1_v5 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_c_3 : Ref sig .tc := ⟨.hbm, 58, rfl⟩
abbrev main_call1_v11 : Ref sig .tc := ⟨.hbm, 59, rfl⟩
abbrev main_call1_v12 : Ref sig .tc := ⟨.hbm, 60, rfl⟩
abbrev main_call1_v13 : Ref sig .tc := ⟨.hbm, 61, rfl⟩
abbrev main_call1_cst : Ref sig .tc := ⟨.hbm, 62, rfl⟩
abbrev main_call1_v14 : Ref sig .tc := ⟨.hbm, 63, rfl⟩
abbrev main_v7 : Ref sig .tc := ⟨.hbm, 64, rfl⟩
abbrev main_v8 : Ref sig .tc := ⟨.hbm, 65, rfl⟩
abbrev main_call2_c : Ref sig .tc := ⟨.hbm, 66, rfl⟩
abbrev main_call2_v0 : Ref sig .tc := ⟨.hbm, 67, rfl⟩
abbrev main_call2_v1 : Ref sig .tc := ⟨.hbm, 68, rfl⟩
abbrev main_call2_c_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_c_1 : Ref sig .tc := ⟨.hbm, 73, rfl⟩
abbrev main_call2_c_2 : Ref sig .tc := ⟨.hbm, 74, rfl⟩
abbrev main_call2_v5 : Ref sig .tc := ⟨.hbm, 75, rfl⟩
abbrev main_call2_v6 : Ref sig .tc := ⟨.hbm, 76, rfl⟩
abbrev main_call2_v7 : Ref sig .tc := ⟨.hbm, 77, rfl⟩
abbrev main_call2_v8 : Ref sig .tc := ⟨.hbm, 78, rfl⟩
abbrev main_call2_v9 : Ref sig .tc := ⟨.hbm, 79, rfl⟩
abbrev main_call2_v10 : Ref sig .tc := ⟨.hbm, 80, rfl⟩
abbrev main_call2_c_3 : Ref sig .tc := ⟨.hbm, 81, rfl⟩
abbrev main_call2_v11 : Ref sig .tc := ⟨.hbm, 82, rfl⟩
abbrev main_call2_v12 : Ref sig .tc := ⟨.hbm, 83, rfl⟩
abbrev main_call2_v13 : Ref sig .tc := ⟨.hbm, 84, rfl⟩
abbrev main_call2_cst : Ref sig .tc := ⟨.hbm, 85, rfl⟩
abbrev main_call2_v14 : Ref sig .tc := ⟨.hbm, 86, rfl⟩
abbrev main_v9 : Ref sig .tc := ⟨.hbm, 87, rfl⟩
abbrev main_v10 : Ref sig .tc := ⟨.hbm, 88, rfl⟩
abbrev main_call3_c : Ref sig .tc := ⟨.hbm, 89, rfl⟩
abbrev main_call3_v0 : Ref sig .tc := ⟨.hbm, 90, rfl⟩
abbrev main_call3_v1 : Ref sig .tc := ⟨.hbm, 91, rfl⟩
abbrev main_call3_c_0 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_c_1 : Ref sig .tc := ⟨.hbm, 96, rfl⟩
abbrev main_call3_c_2 : Ref sig .tc := ⟨.hbm, 97, rfl⟩
abbrev main_call3_v5 : Ref sig .tc := ⟨.hbm, 98, rfl⟩
abbrev main_call3_v6 : Ref sig .tc := ⟨.hbm, 99, rfl⟩
abbrev main_call3_v7 : Ref sig .tc := ⟨.hbm, 100, rfl⟩
abbrev main_call3_v8 : Ref sig .tc := ⟨.hbm, 101, rfl⟩
abbrev main_call3_v9 : Ref sig .tc := ⟨.hbm, 102, rfl⟩
abbrev main_call3_v10 : Ref sig .tc := ⟨.hbm, 103, rfl⟩
abbrev main_call3_c_3 : Ref sig .tc := ⟨.hbm, 104, rfl⟩
abbrev main_call3_v11 : Ref sig .tc := ⟨.hbm, 105, rfl⟩
abbrev main_call3_v12 : Ref sig .tc := ⟨.hbm, 106, rfl⟩
abbrev main_call3_v13 : Ref sig .tc := ⟨.hbm, 107, rfl⟩
abbrev main_call3_cst : Ref sig .tc := ⟨.hbm, 108, rfl⟩
abbrev main_call3_v14 : Ref sig .tc := ⟨.hbm, 109, rfl⟩
abbrev main_v11 : Ref sig .tc := ⟨.hbm, 110, rfl⟩
abbrev main_v12 : Ref sig .tc := ⟨.hbm, 111, rfl⟩
abbrev main_v13 : Ref sig .tc := ⟨.hbm, 112, rfl⟩
abbrev main_v14 : Ref sig .tc := ⟨.hbm, 113, rfl⟩
abbrev main_v15 : Ref sig .tc := ⟨.hbm, 114, rfl⟩
abbrev main_v16 : Ref sig .tc := ⟨.hbm, 115, rfl⟩
abbrev main_v17 : Ref sig .tc := ⟨.hbm, 116, rfl⟩
abbrev main_v18 : Ref sig .tc := ⟨.hbm, 117, rfl⟩
abbrev main_v19 : Ref sig .tc := ⟨.hbm, 118, rfl⟩
abbrev main_cst : Ref sig .tc := ⟨.hbm, 119, rfl⟩
abbrev main_v20 : Ref sig .tc := ⟨.hbm, 120, rfl⟩
abbrev main_v21 : Ref sig .tc := ⟨.hbm, 121, rfl⟩
abbrev main_v22 : Ref sig .tc := ⟨.hbm, 122, rfl⟩
abbrev main_v23 : Ref sig .tc := ⟨.hbm, 123, rfl⟩
abbrev main_v24 : Ref sig .tc := ⟨.hbm, 124, rfl⟩
abbrev main_v25 : Ref sig .tc := ⟨.hbm, 125, rfl⟩
abbrev main_v26 : Ref sig .tc := ⟨.hbm, 126, rfl⟩
abbrev main_v27 : Ref sig .tc := ⟨.hbm, 127, rfl⟩
abbrev main_v28 : Ref sig .tc := ⟨.hbm, 128, rfl⟩
abbrev main_v29 : Ref sig .tc := ⟨.hbm, 129, rfl⟩
abbrev main_call4_cst : Ref sig .tc := ⟨.hbm, 130, rfl⟩
abbrev main_call4_v0 : Ref sig .tc := ⟨.hbm, 131, rfl⟩
abbrev main_v30 : Ref sig .tc := ⟨.hbm, 132, rfl⟩
abbrev main_v31 : Ref sig .tc := ⟨.hbm, 133, rfl⟩
abbrev main_v32 : Ref sig .tc := ⟨.hbm, 134, rfl⟩
abbrev main_v33 : Ref sig .tc := ⟨.hbm, 135, rfl⟩
abbrev main_v34 : Ref sig .tc := ⟨.hbm, 136, rfl⟩
abbrev main_v35 : Ref sig .tc := ⟨.hbm, 137, rfl⟩
abbrev main_v36 : Ref sig .tc := ⟨.hbm, 138, rfl⟩
abbrev main_v37 : Ref sig .tc := ⟨.hbm, 139, rfl⟩
abbrev main_cst_0 : Ref sig .tc := ⟨.hbm, 140, rfl⟩
abbrev main_v38 : Ref sig .tc := ⟨.hbm, 141, rfl⟩
abbrev main_v39 : Ref sig .tc := ⟨.hbm, 142, rfl⟩
abbrev main_v40 : Ref sig .tc := ⟨.hbm, 143, rfl⟩
abbrev main_v41 : Ref sig .tc := ⟨.hbm, 144, rfl⟩
abbrev main_v42 : Ref sig .tc := ⟨.hbm, 145, rfl⟩
abbrev main_v43 : Ref sig .tc := ⟨.hbm, 146, rfl⟩
abbrev main_v44 : Ref sig .tc := ⟨.hbm, 147, rfl⟩
abbrev main_v45 : Ref sig .tc := ⟨.hbm, 148, rfl⟩
abbrev main_v46 : Ref sig .tc := ⟨.hbm, 149, rfl⟩
abbrev main_v47 : Ref sig .tc := ⟨.hbm, 150, rfl⟩
abbrev main_call5_cst : Ref sig .tc := ⟨.hbm, 151, rfl⟩
abbrev main_call5_v0 : Ref sig .tc := ⟨.hbm, 152, rfl⟩
abbrev main_v48 : Ref sig .tc := ⟨.hbm, 153, rfl⟩
abbrev main_cst_1 : Ref sig .tc := ⟨.hbm, 154, rfl⟩
abbrev main_v49 : Ref sig .tc := ⟨.hbm, 155, rfl⟩
abbrev main_cst_2 : Ref sig .tc := ⟨.hbm, 156, rfl⟩
abbrev main_v50 : Ref sig .tc := ⟨.hbm, 157, rfl⟩
abbrev main_v51 : Ref sig .tc := ⟨.hbm, 158, rfl⟩
abbrev main_v52 : Ref sig .tc := ⟨.hbm, 159, rfl⟩
abbrev main_v53 : Ref sig .tc := ⟨.hbm, 160, rfl⟩
abbrev main_v54 : Ref sig .tc := ⟨.hbm, 161, rfl⟩
abbrev main_v55 : Ref sig .tc := ⟨.hbm, 162, rfl⟩
abbrev main_cst_3 : Ref sig .tc := ⟨.hbm, 163, rfl⟩
abbrev main_v56 : Ref sig .tc := ⟨.hbm, 164, rfl⟩
abbrev main_v57 : Ref sig .tc := ⟨.hbm, 165, rfl⟩
abbrev main_v58 : Ref sig .tc := ⟨.hbm, 166, rfl⟩
abbrev main_v59 : Ref sig .tc := ⟨.hbm, 167, rfl⟩
abbrev main_cst_4 : Ref sig .tc := ⟨.hbm, 168, rfl⟩
abbrev main_v60 : Ref sig .tc := ⟨.hbm, 169, rfl⟩

abbrev nD : Nat := 1
abbrev τ : Topo := Topo.v7x

variable {F : FTy → Type} [FloatOps F]

class Facts₀ : Prop where
  slices_S4x100000x2_S4x100000x1_0_0_0 : S4x100000x2.Slices ![0, 0, 0] S4x100000x1
  shapeCasts_S4x100000x1_S4x100000 : S4x100000x1.ShapeCasts S4x100000
  slices_S4x100000x2_S4x100000x1_0_0_1 : S4x100000x2.Slices ![0, 0, 1] S4x100000x1
  bcast_S4x100000_S4x100000x1_0_1 : S4x100000.BroadcastsInDim S4x100000x1 (![0, 1] : Fin 2 → Fin S4x100000x1.rank)
  bcast_S_S4x100000x1 : S_.BroadcastsInDim S4x100000x1 (![] : Fin 0 → Fin S4x100000x1.rank)
  bcast_S1_S1x1x1_2 : S1.BroadcastsInDim S1x1x1 (![2] : Fin 1 → Fin S1x1x1.rank)
  bcast_S1x1x1_S4x100000x1_0_1_2 : S1x1x1.BroadcastsInDim S4x100000x1 (![0, 1, 2] : Fin 3 → Fin S4x100000x1.rank)
  reducesTo_S4x100000x1_S4x100000_d2 : S4x100000x1.ReducesTo [2] S4x100000
  h_S_ : 0 < S_.numel
  bcast_S4x100000_S4x100000x4_0_1 : S4x100000.BroadcastsInDim S4x100000x4 (![0, 1] : Fin 2 → Fin S4x100000x4.rank)
  bcast_S_S4x100000x4 : S_.BroadcastsInDim S4x100000x4 (![] : Fin 0 → Fin S4x100000x4.rank)
  bcast_S4x100000_S4x100000x128_0_1 : S4x100000.BroadcastsInDim S4x100000x128 (![0, 1] : Fin 2 → Fin S4x100000x128.rank)
  bcast_S_S4x100000x128 : S_.BroadcastsInDim S4x100000x128 (![] : Fin 0 → Fin S4x100000x128.rank)
  concatenates_S4x100000x4_S4x100000x4_S4x100000x128_S4x100000x128_S4x100000x264_d2 : Shape.Concatenates [S4x100000x4, S4x100000x4, S4x100000x128, S4x100000x128] S4x100000x264 2
  bcast_S512_S1x1x512_2 : S512.BroadcastsInDim S1x1x512 (![2] : Fin 1 → Fin S1x1x512.rank)
  bcast_S1x1x512_S4x100000x512_0_1_2 : S1x1x512.BroadcastsInDim S4x100000x512 (![0, 1, 2] : Fin 3 → Fin S4x100000x512.rank)
  bcast_S_S512 : S_.BroadcastsInDim S512 (![] : Fin 0 → Fin S512.rank)
  bcast_S_S4x100000x512 : S_.BroadcastsInDim S4x100000x512 (![] : Fin 0 → Fin S4x100000x512.rank)
  bcast_S64_S1x1x64_2 : S64.BroadcastsInDim S1x1x64 (![2] : Fin 1 → Fin S1x1x64.rank)
  bcast_S1x1x64_S4x100000x64_0_1_2 : S1x1x64.BroadcastsInDim S4x100000x64 (![0, 1, 2] : Fin 3 → Fin S4x100000x64.rank)
  bcast_S_S64 : S_.BroadcastsInDim S64 (![] : Fin 0 → Fin S64.rank)
  bcast_S_S4x100000x64 : S_.BroadcastsInDim S4x100000x64 (![] : Fin 0 → Fin S4x100000x64.rank)
  reducesTo_S4x100000x64_S4x100000_d2 : S4x100000x64.ReducesTo [2] S4x100000
  bcast_S_S4x100000 : S_.BroadcastsInDim S4x100000 (![] : Fin 0 → Fin S4x100000.rank)
  bcast_S4x100000x1_S4x100000x64_0_1_2 : S4x100000x1.BroadcastsInDim S4x100000x64 (![0, 1, 2] : Fin 3 → Fin S4x100000x64.rank)
  gather_S4x10000x4_S4x100000x1_S4x100000x4_2_1_0_0_1_2_114_wf : GatherDims.WF S4x10000x4 S4x100000x1 S4x100000x4 [2] [1] [0] [1] [0] 2 ![1, 1, 4]
  gather_S4x10000x128_S4x100000x1_S4x100000x128_2_1_0_0_1_2_11128_wf : GatherDims.WF S4x10000x128 S4x100000x1 S4x100000x128 [2] [1] [0] [1] [0] 2 ![1, 1, 128]
  dot_S4x100000x264_S264x512_S4x100000x512_2_0_01_1_n_n_wf : DotDims.WF S4x100000x264 S264x512 S4x100000x512 [2] [0] [0, 1] [1] [] []
  dot_S4x100000x512_S512x64_S4x100000x64_2_0_01_1_n_n_wf : DotDims.WF S4x100000x512 S512x64 S4x100000x64 [2] [0] [0, 1] [1] [] []

variable [Facts₀]

def gather_S4x10000x4_S4x100000x1_S4x100000x4_2_1_0_0_1_2_114 : GatherDims S4x10000x4 S4x100000x1 S4x100000x4 where
  offsetDims := [2]
  collapsedSliceDims := [1]
  operandBatchingDims := [0]
  startIndicesBatchingDims := [0]
  startIndexMap := [1]
  indexVectorDim := 2
  sliceSizes := ![1, 1, 4]
  wf := gather_S4x10000x4_S4x100000x1_S4x100000x4_2_1_0_0_1_2_114_wf
def gather_S4x10000x128_S4x100000x1_S4x100000x128_2_1_0_0_1_2_11128 : GatherDims S4x10000x128 S4x100000x1 S4x100000x128 where
  offsetDims := [2]
  collapsedSliceDims := [1]
  operandBatchingDims := [0]
  startIndicesBatchingDims := [0]
  startIndexMap := [1]
  indexVectorDim := 2
  sliceSizes := ![1, 1, 128]
  wf := gather_S4x10000x128_S4x100000x1_S4x100000x128_2_1_0_0_1_2_11128_wf
def dot_S4x100000x264_S264x512_S4x100000x512_2_0_01_1_n_n : DotDims S4x100000x264 S264x512 S4x100000x512 where
  lhsContracting := [2]
  rhsContracting := [0]
  lhsNonContracting := [0, 1]
  rhsNonContracting := [1]
  lhsBatch := []
  rhsBatch := []
  wf := dot_S4x100000x264_S264x512_S4x100000x512_2_0_01_1_n_n_wf
def dot_S4x100000x512_S512x64_S4x100000x64_2_0_01_1_n_n : DotDims S4x100000x512 S512x64 S4x100000x64 where
  lhsContracting := [2]
  rhsContracting := [0]
  lhsNonContracting := [0, 1]
  rhsNonContracting := [1]
  lhsBatch := []
  rhsBatch := []
  wf := dot_S4x100000x512_S512x64_S4x100000x64_2_0_01_1_n_n_wf

class Facts : Prop extends Facts₀ where

variable [Facts]
-- ==== Proof.LibRowwise.lean ====
/-
  Matrices read row by row, at the exact instance and for any extents.

  Two layout operations in their column forms — a vector made a one-column matrix (`[a] → [a, 1]`, what a sum that keeps
  its axis prints) and a one-column matrix repeated along its rows (`[a, 1] → [a, b]`) — read at an index written by
  coordinates, beside the library's row forms, so that "a per-row quantity broadcast over the row" and "a per-column
  quantity broadcast down the column" are each one rewrite.

  And the reductions of a matrix over its LAST axis read at a row: a sum is the sum over the row's entries, a maximum
  the fold of `max` over them from the starting value, on the vector unit (`multiReduction`) and on the host
  (`Host.reduceAdd`, `Host.reduce`) alike. The reduced index with a coordinate put back on the dropped axis is
  (row, coordinate): `lift_lastAxis`.
-/
import Idealize.ShloMosaic.Lib.ValueLayout
import Idealize.ShloMosaic.Lib.IdealHost
import Idealize.ShloMosaic.PureOps.Ideal.Laws

noncomputable section

namespace Cert.LibRowwise

open Idealize.ShloMosaic Idealize.ShloMosaic.ValueIdx
open scoped BigOperators

variable {α : Type}

/-! ## Column layouts -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-row quantity `x : [a]`, kept as a column and repeated along the rows, reads `x p` everywhere in row `p`. -/
theorem perRow_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- A per-column quantity `x : [b]`, laid as one row and repeated down the rows, reads `x c` everywhere in column `c`. -/
theorem perColumn_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

/-! ## Reductions over the last axis, at a row -/

/-- Row `p` with the coordinate `k` put back on the dropped last axis is the matrix index `(p, k)`. -/
theorem lift_lastAxis {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = _
  unfold Shape.Reduces.liftVal
  match c with
  | ⟨0, _⟩ => exact (dif_neg (show ¬((0 : ℕ) = 1) by omega)).trans (dif_pos (show (0 : ℕ) < 1 by omega))
  | ⟨1, _⟩ => exact dif_pos (show (1 : ℕ) = 1 from rfl)

/-- The vector unit's sum of a matrix over its last axis, at row `p`: the sum of the row's entries. -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_lastAxis h p k))

/-- The vector unit's maximum of a matrix over its last axis, at row `p`: the fold of `max` over the row's entries,
    from the accumulator's value. -/
theorem rowMax_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => (Finset.univ : Finset (Fin b)).fold max (Ideal.ofBits φ acc) f)
      (funext fun k => congrArg src (lift_lastAxis h p k)))

/-- The host's sum of a matrix over its last axis, at row `p`: the initial value plus the sum of the row's entries. -/
theorem hostRowSum_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) :=
  (hostReduceAdd_apply x init h' hu (ix1 p)).trans
    ((Ideal.hostReduceAdd_single h' h x _ (ix1 p)).trans
      (congrArg (init (Shape.Idx.first hu) + ·) (Finset.sum_congr rfl fun k _ => congrArg x (lift_lastAxis h p k))))

/-- The host's maximum of a matrix over its last axis, at row `p`: the fold of `max` over the row's entries, from the
    initial value. -/
theorem hostRowMax_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f => (Finset.univ : Finset (Fin b)).fold max (init (Shape.Idx.first hu)) f)
      (funext fun k => congrArg x (lift_lastAxis h p k)))

end Cert.LibRowwise

end
-- ==== Proof.LibRowSoftmax.lean ====
/-
  Row softmax on extended reals, for any extents: the specification and the vector unit's spelling of it.

  For a matrix L with a rows and b columns: M(p) is the maximum of row p (a fold of max from the word that denotes −∞),
  N(p,q) = exp(L(p,q) − M(p)), and the normalised entry is N(p,q) divided by the sum over q' of N(p,q'). An entry
  depends on its own row only (`softmaxAt_congr`): a matrix normalised band of rows by band of rows is the whole
  matrix normalised.
  The vector unit's spelling — a maximum over the last axis from −∞, laid out as a column and repeated along the rows,
  subtracted, exponentiated; a sum over the last axis from zero, laid out and repeated the same way; a division —
  read at (r, q) is that entry (`vecSoftmax_apply`).
-/
import Idealize.ShloMosaic.Lib.ValueIdx
import Idealize.ShloMosaic.PureOps.Ideal.Laws
import proofs.«165707_j13941463842948_1_alg».proof.Proof.LibRowwise

noncomputable section

namespace Cert.LibRowSoftmax

open Idealize.ShloMosaic Idealize.ShloMosaic.ValueIdx
open scoped BigOperators

/-- The word of −∞: the starting value of a row maximum. -/
def negInf : EReal := Ideal.ofBits .f32 0xFF800000#32

variable {a b : ℕ}

/-- The maximum of row `p`. -/
def rowMax (L : (⟨2, ![a, b]⟩ : Shape).Idx → EReal) (p : Fin a) : EReal :=
  (Finset.univ : Finset (Fin b)).fold max negInf (fun q => L (ix2 p q))

/-- The numerator exp(L(p,q) − M(p)). -/
def rowNum (L : (⟨2, ![a, b]⟩ : Shape).Idx → EReal) (p : Fin a) (q : Fin b) : EReal :=
  Ideal.exp (L (ix2 p q) - rowMax L p)

/-- Entry (p, q) of the row-normalised matrix. -/
def softmaxAt (L : (⟨2, ![a, b]⟩ : Shape).Idx → EReal) (p : Fin a) (q : Fin b) : EReal :=
  Ideal.div (rowNum L p q) (∑ q' : Fin b, rowNum L p q')

/-- An entry of the normalised matrix depends on its own row only. -/
theorem softmaxAt_congr {a' : ℕ} (L : (⟨2, ![a, b]⟩ : Shape).Idx → EReal) (L' : (⟨2, ![a', b]⟩ : Shape).Idx → EReal)
    (p : Fin a) (p' : Fin a') (h : ∀ q : Fin b, L (ix2 p q) = L' (ix2 p' q)) (q : Fin b) :
    softmaxAt L p q = softmaxAt L' p' q := by
  have hM : rowMax L p = rowMax L' p' := by
    unfold rowMax; rw [show (fun q => L (ix2 p q)) = (fun q => L' (ix2 p' q)) from funext h]
  have hN : ∀ q : Fin b, rowNum L p q = rowNum L' p' q := fun q => by
    unfold rowNum; rw [h q, hM]
  unfold softmaxAt
  rw [hN q, Finset.sum_congr rfl fun q' _ => hN q']

/-- The vector unit's row softmax, read at (r, q). -/
theorem vecSoftmax_apply (v : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hφ : FKind.Formats .f32)
    (h1 : (0xFF800000#32 : BitVec (FTy.bits .f32)) = FKind.maximumf.neutral .f32 hφ)
    (h2 : (0x00000000#32 : BitVec (FTy.bits .f32)) = FKind.add.neutral .f32 hφ) (r : Fin a) (q : Fin b) :
    divf (exp (subf v (broadcastTo ⟨2, ![a, b]⟩ (shapeCast ⟨2, ![a, 1]⟩
          (multiReduction (F := Ideal) .maximumf [1] ⟨1, ![a]⟩ v 0xFF800000#32 hr hφ h1) hc) hb)))
        (broadcastTo ⟨2, ![a, b]⟩ (shapeCast ⟨2, ![a, 1]⟩
          (multiReduction (F := Ideal) .add [1] ⟨1, ![a]⟩
            (exp (subf v (broadcastTo ⟨2, ![a, b]⟩ (shapeCast ⟨2, ![a, 1]⟩
              (multiReduction (F := Ideal) .maximumf [1] ⟨1, ![a]⟩ v 0xFF800000#32 hr hφ h1) hc) hb)))
            0x00000000#32 hr hφ h2) hc) hb) (ix2 r q)
      = softmaxAt v r q := by
  have hmax : ∀ q' : Fin b,
      broadcastTo ⟨2, ![a, b]⟩ (shapeCast ⟨2, ![a, 1]⟩
        (multiReduction (F := Ideal) .maximumf [1] ⟨1, ![a]⟩ v 0xFF800000#32 hr hφ h1) hc) hb (ix2 r q') = rowMax v r := fun q' =>
    (Cert.LibRowwise.perRow_apply _ hc hb r q').trans (Cert.LibRowwise.rowMax_apply v 0xFF800000#32 hr hφ h1 r)
  have hnum : ∀ q' : Fin b,
      exp (subf v (broadcastTo ⟨2, ![a, b]⟩ (shapeCast ⟨2, ![a, 1]⟩
        (multiReduction (F := Ideal) .maximumf [1] ⟨1, ![a]⟩ v 0xFF800000#32 hr hφ h1) hc) hb)) (ix2 r q') = rowNum v r q' := fun q' => by
    show Ideal.exp (v (ix2 r q') - _) = _
    rw [hmax q']; rfl
  refine (divf_apply _ _ _).trans ?_
  unfold softmaxAt
  refine congrArg₂ Ideal.div (hnum q) ?_
  refine (Cert.LibRowwise.perRow_apply _ hc hb r q).trans ?_
  refine (Cert.LibRowwise.rowSum_apply _ 0x00000000#32 hr hφ h2 r).trans ?_
  exact Finset.sum_congr rfl fun k _ => hnum k

end Cert.LibRowSoftmax

end
-- ==== Proof.LibBatchedRowGather.lean ====
/-
  A batched lookup of rows, read at an entry.

  `jnp.take_along_axis(x, idx[:, :, None], axis = 1)` for a stack `x : [B, N, C]` of tables of N rows and a stack
  `idx : [B, T]` of row numbers is, on the host, a gather with the stack axis as batching axis, the row axis collapsed
  and the column axis kept: result entry (b, t, k) is entry k of the row of table b that `idx (b, t)` names — the row
  number read signed and clamped into [0, N − 1], as every start index of a gather is. This file states that reading
  for any extents and any index width, for the dimension record written over the extents; a printed program's own
  record with the same seven fields is equal to it by `rfl` (its well-formedness field is a proposition).
-/
import Idealize.ShloMosaic.Lib.ValueIdx
import Idealize.ShloMosaic.Lib.Pipeline.Value

noncomputable section

namespace Cert.LibBatchedRowGather

open Idealize.ShloMosaic Idealize.ShloMosaic.ValueIdx

variable {α : Type}

/-- The dimension numbers of the batched row lookup for an operand [B, N, C], row numbers [B, T, 1] and result
    [B, T, C]; their conditions `wf` are decided on a program's literal shapes. -/
abbrev rowsDims (B N T C : Nat)
    (wf : GatherDims.WF ⟨3, ![B, N, C]⟩ ⟨3, ![B, T, 1]⟩ ⟨3, ![B, T, C]⟩ [2] [1] [0] [1] [0] 2 ![1, 1, C]) :
    GatherDims ⟨3, ![B, N, C]⟩ ⟨3, ![B, T, 1]⟩ ⟨3, ![B, T, C]⟩ where
  offsetDims := [2]
  collapsedSliceDims := [1]
  operandBatchingDims := [0]
  startIndicesBatchingDims := [0]
  startIndexMap := [1]
  indexVectorDim := 2
  sliceSizes := ![1, 1, C]
  wf := wf

/-- THE LOOKUP READ AT (b, t, k): table b at the row `idx (b, t, 0)` names (signed, clamped into [0, N − 1]), column k. -/
theorem gather_rows_apply {B N T C w : Nat} (hN : 0 < N)
    (wf : GatherDims.WF ⟨3, ![B, N, C]⟩ ⟨3, ![B, T, 1]⟩ ⟨3, ![B, T, C]⟩ [2] [1] [0] [1] [0] 2 ![1, 1, C])
    (x : (⟨3, ![B, N, C]⟩ : Shape).Idx → α) (idx : IVec ⟨3, ![B, T, 1]⟩ w) (b : Fin B) (t : Fin T) (k : Fin C) :
    Host.gather (rowsDims B N T C wf) x idx (ix3 b t k)
      = x (ix3 b ⟨min (idx (ix3 b t (0 : Fin 1))).toInt.toNat (N - 1), by omega⟩ k) := by
  unfold Host.gather
  congr 1
  funext a
  refine Fin.ext ?_
  show (rowsDims B N T C wf).start (ix3 b t k) idx a + (rowsDims B N T C wf).batchCoord (ix3 b t k) a
    + (rowsDims B N T C wf).offCoord (ix3 b t k) a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    unfold GatherDims.batchCoord
    rw [dif_pos (show (⟨0, by decide⟩ : Fin 3) ∈ (rowsDims B N T C wf).operandBatchingDims from List.mem_singleton.mpr rfl)]
    rfl
  | ⟨1, _⟩ =>
    rw [GatherDims.batchCoord_eq_zero _ _ _ (fun h => by simp [Fin.ext_iff] at h),
      GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin 3) ∈ (rowsDims B N T C wf).startIndexMap from List.mem_singleton.mpr rfl)]
    have hsi : (rowsDims B N T C wf).siIdx (ix3 b t k) ⟨List.idxOf (⟨1, by decide⟩ : Fin 3) (rowsDims B N T C wf).startIndexMap,
        List.idxOf_lt_length_iff.2 (List.mem_singleton.mpr rfl)⟩ = ix3 b t (0 : Fin 1) := by
      funext c; refine Fin.ext ?_
      match c with
      | ⟨0, _⟩ => rfl
      | ⟨1, _⟩ => rfl
      | ⟨2, _⟩ => rfl
    rw [hsi]
    rfl
  | ⟨2, h2⟩ =>
    rw [GatherDims.batchCoord_eq_zero _ _ _ (fun h => by simp [Fin.ext_iff] at h)]
    simp only [Nat.add_zero]
    unfold GatherDims.start
    rw [dif_neg (fun h => by simp [Fin.ext_iff] at h)]
    unfold GatherDims.offCoord
    rw [dif_pos ((GatherDims.mem_sKept _ _).mpr ⟨fun h => by simp [Fin.ext_iff] at h, fun h => by simp [Fin.ext_iff] at h⟩)]
    simp only [Nat.zero_add]
    rfl

end Cert.LibBatchedRowGather

end
-- ==== Proof.LibLastAxis3.lean ====
/-
  A rank-three array reduced over its LAST axis by the host, read at an index, at the exact instance and for any extents.

  The host's `stablehlo.reduce` with a maximum body over the last axis of an `[a, b, n]` array is, at `(p, q)`, the fold
  of `max` over the `n` entries `x (p, q, k)` from the initial value's element. The reduced index with a coordinate put
  back on the dropped axis is `(p, q, k)`: `lift_lastAxis3`. (For a matrix the same facts are one rank lower; the sum
  over the last axis of a rank-three array is read by the generated read-at-an-index lemmas and needs nothing here.)
-/
import Idealize.ShloMosaic.Lib.ValueIdx
import Idealize.ShloMosaic.PureOps.Ideal.Laws

noncomputable section

namespace Cert.LibLastAxis3

open Idealize.ShloMosaic Idealize.ShloMosaic.ValueIdx

/-- The index `(p, q)` with the coordinate `k` put back on the dropped last axis is `(p, q, k)`. -/
theorem lift_lastAxis3 {a b n : ℕ} (h : (⟨3, ![a, b, n]⟩ : Shape).Reduces [2] ⟨2, ![a, b]⟩) (p : Fin a) (q : Fin b) (k : Fin n) :
    h.lift (ix2 p q) k = ix3 p q k := by
  funext c
  apply Fin.ext
  show h.liftVal (ix2 p q) k.val c = _
  unfold Shape.Reduces.liftVal
  match c with
  | ⟨0, _⟩ => exact (dif_neg (show ¬((0 : ℕ) = 2) by omega)).trans (dif_pos (show (0 : ℕ) < 2 by omega))
  | ⟨1, _⟩ => exact (dif_neg (show ¬((1 : ℕ) = 2) by omega)).trans (dif_pos (show (1 : ℕ) < 2 by omega))
  | ⟨2, _⟩ => exact dif_pos (show (2 : ℕ) = 2 from rfl)

/-- The host's maximum of an `[a, b, n]` array over its last axis, at `(p, q)`: the fold of `max` over the entries
    `x (p, q, k)`, from the initial value. -/
theorem hostMax_lastAxis3_apply {φ : FTy} {a b n : ℕ} {u : Shape} (x : FVec Ideal ⟨3, ![a, b, n]⟩ φ) (init : u.Idx → Ideal φ)
    (h' : (⟨3, ![a, b, n]⟩ : Shape).ReducesTo [2] ⟨2, ![a, b]⟩) (h : (⟨3, ![a, b, n]⟩ : Shape).Reduces [2] ⟨2, ![a, b]⟩)
    (hu : 0 < u.numel) (p : Fin a) (q : Fin b) :
    Host.reduce (FloatOps.maximumf (F := Ideal) (φ := φ)) x init h' hu (ix2 p q)
      = (Finset.univ : Finset (Fin n)).fold max (init (Shape.Idx.first hu)) (fun k => x (ix3 p q k)) :=
  (Host.reduce_eq_fold_single (FloatOps.maximumf (F := Ideal) (φ := φ)) x init h' h hu (ix2 p q)).trans
    (congrArg (fun f => (Finset.univ : Finset (Fin n)).fold max (init (Shape.Idx.first hu)) f)
      (funext fun k => congrArg x (lift_lastAxis3 h p q k)))

end Cert.LibLastAxis3

end
-- ==== Proof.LibTakeAlong.lean ====
/-
  `jnp.take_along_axis(x, idx[:, :, None], axis = 1)` in the host's spelling, read at an entry.

  For a stack `x : [B, N, C]` of tables and row numbers `idx : [B, T, 1]` the host first normalises the row numbers
  (a negative one counts from the end: `j = if i < 0 then i + N else i`), looks the rows up by a gather (which clamps the
  number into [0, N − 1]), and replaces by a fill value every row whose normalised number is not in [0, N − 1] (the mask
  is a conjunction of two comparisons, and-reduced over the index vector's axis of extent one, and repeated along the
  columns). `takeAlong` is that line of operations as one function of `x` and `idx`, over any extents, with the side
  conditions of its layout operations as parameters; `takeAlong_apply` reads it at (b, t, k): the entry depends on the
  tables and on the ONE row number `idx (b, t, 0)`, and on nothing else — in particular not on T, so a lookup driven by a
  longer list of row numbers agrees with the shorter one wherever the two lists agree.
-/
import Idealize.ShloMosaic.Lib.ValueIdx
import Idealize.ShloMosaic.Lib.Pipeline.Value
import Idealize.ShloMosaic.Lib.IdealHost
import Idealize.ShloMosaic.PureOps.Reduce
import proofs.«165707_j13941463842948_1_alg».proof.Proof.LibBatchedRowGather
import proofs.«165707_j13941463842948_1_alg».proof.Proof.LibLastAxis3

noncomputable section

namespace Cert.LibTakeAlong

open Idealize.ShloMosaic Idealize.ShloMosaic.ValueIdx Cert.LibBatchedRowGather

variable {α : Type} {B N T C : ℕ}

/-- A row number as normalised: a negative one counts from the end of the table (`nW` is the table's length as a word). -/
def wrapRow (nW i : BitVec 32) : BitVec 32 := Scalar.select (IntOp.cmpi .slt i 0#32) (IntOp.addi i nW) i

/-- Whether a normalised row number names a row (`lastW` is the last row's number as a word). -/
def inTable (lastW j : BitVec 32) : BitVec 1 := IntOp.andi (IntOp.cmpi .sge j 0#32) (IntOp.cmpi .sle j lastW)

/-- The looked-up entry as a function of the ONE row number `i`: entry k of the row of table b that `i` names after
    normalisation (clamped into the table), or the fill value when the normalised number names no row. -/
def lookup (hN : 0 < N) (nW lastW : BitVec 32) (fill : α) (x : (⟨3, ![B, N, C]⟩ : Shape).Idx → α) (i : BitVec 32)
    (b : Fin B) (k : Fin C) : α :=
  Scalar.select (inTable lastW (wrapRow nW i))
    (x (ix3 b ⟨min (wrapRow nW i).toInt.toNat (N - 1), by omega⟩ k)) fill

/-- The normalised row numbers, as the host spells them. -/
def wrapRows (h0 : (⟨0, ![]⟩ : Shape).BroadcastsInDim ⟨3, ![B, T, 1]⟩ ![]) (nW : BitVec 32) (idx : IVec ⟨3, ![B, T, 1]⟩ 32) :
    IVec ⟨3, ![B, T, 1]⟩ 32 :=
  select (cmpi .slt idx (broadcastInDim ⟨3, ![B, T, 1]⟩ ![] h0 (constantI ⟨0, ![]⟩ 32 0#32)))
    (addi idx (broadcastInDim ⟨3, ![B, T, 1]⟩ ![] h0 (constantI ⟨0, ![]⟩ 32 nW))) idx

/-- The whole lookup, as the host spells it. -/
def takeAlong (D : GatherDims ⟨3, ![B, N, C]⟩ ⟨3, ![B, T, 1]⟩ ⟨3, ![B, T, C]⟩)
    (h0 : (⟨0, ![]⟩ : Shape).BroadcastsInDim ⟨3, ![B, T, 1]⟩ ![])
    (h7 : (⟨1, ![1]⟩ : Shape).BroadcastsInDim ⟨3, ![1, 1, 1]⟩ (![2] : Fin 1 → Fin (⟨3, ![1, 1, 1]⟩ : Shape).rank))
    (h8 : (⟨3, ![1, 1, 1]⟩ : Shape).BroadcastsInDim ⟨3, ![B, T, 1]⟩ (![0, 1, 2] : Fin 3 → Fin (⟨3, ![B, T, 1]⟩ : Shape).rank))
    (hred : (⟨3, ![B, T, 1]⟩ : Shape).ReducesTo [2] ⟨2, ![B, T]⟩) (hu : 0 < (⟨0, ![]⟩ : Shape).numel)
    (h13 : (⟨2, ![B, T]⟩ : Shape).BroadcastsInDim ⟨3, ![B, T, C]⟩ (![0, 1] : Fin 2 → Fin (⟨3, ![B, T, C]⟩ : Shape).rank))
    (h14 : (⟨0, ![]⟩ : Shape).BroadcastsInDim ⟨3, ![B, T, C]⟩ ![])
    (nW lastW : BitVec 32) (fill : (⟨0, ![]⟩ : Shape).Idx → α)
    (x : (⟨3, ![B, N, C]⟩ : Shape).Idx → α) (idx : IVec ⟨3, ![B, T, 1]⟩ 32) : (⟨3, ![B, T, C]⟩ : Shape).Idx → α :=
  select (broadcastInDim ⟨3, ![B, T, C]⟩ ![0, 1] h13
      (Host.reduce IntOp.andi
        (andi (cmpi .sge (wrapRows h0 nW idx) (broadcastInDim ⟨3, ![B, T, 1]⟩ ![] h0 (constantI ⟨0, ![]⟩ 32 0#32)))
          (cmpi .sle (wrapRows h0 nW idx) (broadcastInDim ⟨3, ![B, T, 1]⟩ ![0, 1, 2] h8
            (broadcastInDim ⟨3, ![1, 1, 1]⟩ ![2] h7 (constantI ⟨1, ![1]⟩ 32 lastW)))))
        (constantI ⟨0, ![]⟩ 1 1#1) hred hu))
    (Host.gather D x (wrapRows h0 nW idx)) (broadcastInDim ⟨3, ![B, T, C]⟩ ![] h14 fill)

theorem andi_one (x : BitVec 1) : IntOp.andi x 1#1 = x := by revert x; decide

/-- An and-fold from 1 over an index set of one element is the one word. -/
theorem fold_andi_single {n : ℕ} (hn : n = 1) (f : Fin n → BitVec 1) :
    (Finset.univ : Finset (Fin n)).fold IntOp.andi 1#1 f = f ⟨0, by omega⟩ := by
  subst hn
  rw [show (Finset.univ : Finset (Fin 1)) = {0} from rfl, Finset.fold_singleton, andi_one]
  rfl

/-- The mask of the lookup at (b, t): whether the normalised row number there names a row. -/
theorem mask_apply (h0 : (⟨0, ![]⟩ : Shape).BroadcastsInDim ⟨3, ![B, T, 1]⟩ ![])
    (h7 : (⟨1, ![1]⟩ : Shape).BroadcastsInDim ⟨3, ![1, 1, 1]⟩ (![2] : Fin 1 → Fin (⟨3, ![1, 1, 1]⟩ : Shape).rank))
    (h8 : (⟨3, ![1, 1, 1]⟩ : Shape).BroadcastsInDim ⟨3, ![B, T, 1]⟩ (![0, 1, 2] : Fin 3 → Fin (⟨3, ![B, T, 1]⟩ : Shape).rank))
    (hred : (⟨3, ![B, T, 1]⟩ : Shape).ReducesTo [2] ⟨2, ![B, T]⟩) (hr : (⟨3, ![B, T, 1]⟩ : Shape).Reduces [2] ⟨2, ![B, T]⟩)
    (hu : 0 < (⟨0, ![]⟩ : Shape).numel) (nW lastW : BitVec 32) (idx : IVec ⟨3, ![B, T, 1]⟩ 32) (b : Fin B) (t : Fin T) :
    Host.reduce IntOp.andi
        (andi (cmpi .sge (wrapRows h0 nW idx) (broadcastInDim ⟨3, ![B, T, 1]⟩ ![] h0 (constantI ⟨0, ![]⟩ 32 0#32)))
          (cmpi .sle (wrapRows h0 nW idx) (broadcastInDim ⟨3, ![B, T, 1]⟩ ![0, 1, 2] h8
            (broadcastInDim ⟨3, ![1, 1, 1]⟩ ![2] h7 (constantI ⟨1, ![1]⟩ 32 lastW)))))
        (constantI ⟨0, ![]⟩ 1 1#1) hred hu (ix2 b t)
      = inTable lastW (wrapRow nW (idx (ix3 b t (0 : Fin 1)))) := by
  rw [Host.reduce_eq_fold_single IntOp.andi _ _ hred hr hu (ix2 b t)]
  refine (fold_andi_single (n := (⟨3, ![B, T, 1]⟩ : Shape).size 2)
    (show (⟨3, ![B, T, 1]⟩ : Shape).size 2 = 1 from rfl) _).trans ?_
  refine (congrArg _ (Cert.LibLastAxis3.lift_lastAxis3 hr b t (⟨0, by decide⟩ : Fin 1))).trans ?_
  rfl

/-- THE LOOKUP READ AT (b, t, k). -/
theorem takeAlong_apply (hN : 0 < N)
    (wf : GatherDims.WF ⟨3, ![B, N, C]⟩ ⟨3, ![B, T, 1]⟩ ⟨3, ![B, T, C]⟩ [2] [1] [0] [1] [0] 2 ![1, 1, C])
    (h0 : (⟨0, ![]⟩ : Shape).BroadcastsInDim ⟨3, ![B, T, 1]⟩ ![])
    (h7 : (⟨1, ![1]⟩ : Shape).BroadcastsInDim ⟨3, ![1, 1, 1]⟩ (![2] : Fin 1 → Fin (⟨3, ![1, 1, 1]⟩ : Shape).rank))
    (h8 : (⟨3, ![1, 1, 1]⟩ : Shape).BroadcastsInDim ⟨3, ![B, T, 1]⟩ (![0, 1, 2] : Fin 3 → Fin (⟨3, ![B, T, 1]⟩ : Shape).rank))
    (hred : (⟨3, ![B, T, 1]⟩ : Shape).ReducesTo [2] ⟨2, ![B, T]⟩) (hr : (⟨3, ![B, T, 1]⟩ : Shape).Reduces [2] ⟨2, ![B, T]⟩)
    (hu : 0 < (⟨0, ![]⟩ : Shape).numel)
    (h13 : (⟨2, ![B, T]⟩ : Shape).BroadcastsInDim ⟨3, ![B, T, C]⟩ (![0, 1] : Fin 2 → Fin (⟨3, ![B, T, C]⟩ : Shape).rank))
    (h14 : (⟨0, ![]⟩ : Shape).BroadcastsInDim ⟨3, ![B, T, C]⟩ ![])
    (nW lastW : BitVec 32) (fill : (⟨0, ![]⟩ : Shape).Idx → α)
    (x : (⟨3, ![B, N, C]⟩ : Shape).Idx → α) (idx : IVec ⟨3, ![B, T, 1]⟩ 32) (b : Fin B) (t : Fin T) (k : Fin C) :
    takeAlong (rowsDims B N T C wf) h0 h7 h8 hred hu h13 h14 nW lastW fill x idx (ix3 b t k)
      = lookup hN nW lastW (fill ix0) x (idx (ix3 b t (0 : Fin 1))) b k := by
  unfold takeAlong lookup
  rw [select_apply, gather_rows_apply hN wf, broadcastInDim_scalar_apply]
  rw [broadcastInDim_apply (![0, 1] : Fin 2 → Fin (⟨3, ![B, T, C]⟩ : Shape).rank) h13 _ (ix3 b t k) (ix2 b t) (fun a => by
    match a with
    | ⟨0, _⟩ =>
      show b.val = if B = 1 then 0 else b.val
      have := b.isLt; split <;> omega
    | ⟨1, _⟩ =>
      show t.val = if T = 1 then 0 else t.val
      have := t.isLt; split <;> omega)]
  rw [mask_apply h0 h7 h8 hred hr hu nW lastW idx b t]
  rfl

end Cert.LibTakeAlong

end
-- ==== Proof.Spec.lean ====
/-
  The mathematics of the edge scorer, with no program in sight.

  An edge of the graph carries a feature row x ∈ E^264 (E the extended reals): the two endpoint boxes (4 + 4 numbers)
  followed by the two endpoint vectors (128 + 128 numbers). The scorer is a two-layer perceptron, each layer a linear map
  followed by an inference-mode batch normalisation and a rectifier,

      unit s b μ γ σ² β = max (((s + b) − μ) · (γ · rsqrt (σ² + ε)) + β) 0,
      hiddenAct x j = unit (∑ₖ x k · W₁(k, j)) …        (j < 512),
      logits h q  = unit (∑ⱼ h j · W₂(j, q)) …        (q < 64),

  and the score of the edge is the largest entry of the softmax of its 64 logits.

  One program feeds the first layer the whole row; the other feeds it three pieces — the eight box numbers, the source
  vector, the target vector — against the three corresponding bands of rows of W₁ and adds the three partial products.
  `sum_join` is the law that joins them: a sum over 264 = 8 + 128 + 128 positions is the sum of the three consecutive
  runs. It is a regrouping of one finite sum, valid in any commutative additive monoid, so it holds on the extended
  reals with no finiteness assumption.
-/
import Idealize.ShloMosaic.Lib.ValueIdx
import Idealize.ShloMosaic.PureOps.Ideal.Laws
import proofs.«165707_j13941463842948_1_alg».proof.Proof.LibRowSoftmax
import proofs.«165707_j13941463842948_1_alg».proof.Proof.LibTakeAlong

noncomputable section

namespace Cert.EdgeScore

open Idealize.ShloMosaic Idealize.ShloMosaic.ValueIdx Cert.LibRowSoftmax Cert.LibTakeAlong
open scoped BigOperators

/-- The variance offset ε of the normalisation: the single-precision word nearest 10⁻³ that both programs carry. -/
def eps : EReal := Ideal.ofBits .f32 0x3A83126F#32

/-- The rectifier's floor, the word of +0. -/
def zero32 : EReal := Ideal.ofBits .f32 0x00000000#32

/-- One normalised, rectified unit from its pre-activation sum `s`, bias `b`, running mean `mu`, scale `g`, running
    variance `var` and shift `be`. -/
def unit (s b mu g var be : EReal) : EReal :=
  max (((s + b) - mu) * (g * Ideal.rsqrt (var + eps)) + be) zero32

/-- The hidden activations of an edge with feature row `x`. -/
def hiddenAct (x : Fin 264 → EReal) (W1 : (⟨2, ![264, 512]⟩ : Shape).Idx → EReal)
    (b1 g1 be1 m1 v1 : (⟨1, ![512]⟩ : Shape).Idx → EReal) (j : Fin 512) : EReal :=
  unit (∑ k : Fin 264, x k * W1 (ix2 k j)) (b1 (ix1 j)) (m1 (ix1 j)) (g1 (ix1 j)) (v1 (ix1 j)) (be1 (ix1 j))

/-- The logits from the hidden activations `h`. -/
def logits (h : Fin 512 → EReal) (W2 : (⟨2, ![512, 64]⟩ : Shape).Idx → EReal)
    (b2 g2 be2 m2 v2 : (⟨1, ![64]⟩ : Shape).Idx → EReal) (q : Fin 64) : EReal :=
  unit (∑ j : Fin 512, h j * W2 (ix2 j q)) (b2 (ix1 q)) (m2 (ix1 q)) (g2 (ix1 q)) (v2 (ix1 q)) (be2 (ix1 q))

/-- A row of 64 numbers as a one-row matrix, the form the row-softmax is stated over. -/
def asRow (y : Fin 64 → EReal) : (⟨2, ![1, 64]⟩ : Shape).Idx → EReal := fun i => y (i 1)

/-- The largest softmax probability of a row of logits. -/
def topProb (y : Fin 64 → EReal) : EReal :=
  (Finset.univ : Finset (Fin 64)).fold max negInf (fun q => softmaxAt (asRow y) (0 : Fin 1) q)

/-- The score of an edge with feature row `x`. -/
def score (x : Fin 264 → EReal) (W1 : (⟨2, ![264, 512]⟩ : Shape).Idx → EReal)
    (b1 g1 be1 m1 v1 : (⟨1, ![512]⟩ : Shape).Idx → EReal) (W2 : (⟨2, ![512, 64]⟩ : Shape).Idx → EReal)
    (b2 g2 be2 m2 v2 : (⟨1, ![64]⟩ : Shape).Idx → EReal) : EReal :=
  topProb (logits (hiddenAct x W1 b1 g1 be1 m1 v1) W2 b2 g2 be2 m2 v2)

/-- The feature row assembled from its three pieces: eight box numbers, then the source vector, then the target vector. -/
def joinRow (xb : Fin 8 → EReal) (xs xo : Fin 128 → EReal) : Fin 264 → EReal := fun k =>
  if h : k.val < 8 then xb ⟨k.val, h⟩
  else if h2 : k.val < 136 then xs ⟨k.val - 8, by omega⟩
  else xo ⟨k.val - 136, by omega⟩

/-- A sum over the 264 positions of a joined row against weights `w` is the sum of the three consecutive runs. -/
theorem sum_join (xb : Fin 8 → EReal) (xs xo : Fin 128 → EReal) (w : Fin 264 → EReal) :
    ∑ k : Fin 264, joinRow xb xs xo k * w k
      = (∑ k : Fin 8, xb k * w ⟨k.val, by omega⟩ + ∑ k : Fin 128, xs k * w ⟨8 + k.val, by omega⟩)
        + ∑ k : Fin 128, xo k * w ⟨136 + k.val, by omega⟩ := by
  have h1 := Fin.sum_univ_add (fun k : Fin (8 + 128 + 128) => joinRow xb xs xo k * w k)
  have h2 := Fin.sum_univ_add
    (fun k : Fin (8 + 128) => joinRow xb xs xo (Fin.castAdd 128 k : Fin (8 + 128 + 128)) * w (Fin.castAdd 128 k : Fin (8 + 128 + 128)))
  refine h1.trans ?_
  rw [h2]
  have e1 : ∀ k : Fin 8, joinRow xb xs xo (Fin.castAdd 128 (Fin.castAdd 128 k) : Fin (8 + 128 + 128))
      * w (Fin.castAdd 128 (Fin.castAdd 128 k) : Fin (8 + 128 + 128)) = xb k * w ⟨k.val, by omega⟩ := fun k => by
    have hk : k.val < 8 := k.isLt
    show joinRow xb xs xo (⟨k.val, by omega⟩ : Fin 264) * w (⟨k.val, by omega⟩ : Fin 264) = _
    unfold joinRow
    rw [dif_pos hk]
  have e2 : ∀ k : Fin 128, joinRow xb xs xo (Fin.castAdd 128 (Fin.natAdd 8 k) : Fin (8 + 128 + 128))
      * w (Fin.castAdd 128 (Fin.natAdd 8 k) : Fin (8 + 128 + 128)) = xs k * w ⟨8 + k.val, by omega⟩ := fun k => by
    have hk : k.val < 128 := k.isLt
    show joinRow xb xs xo (⟨8 + k.val, by omega⟩ : Fin 264) * w (⟨8 + k.val, by omega⟩ : Fin 264) = _
    unfold joinRow
    rw [dif_neg (show ¬ (8 + k.val < 8) by omega), dif_pos (show 8 + k.val < 136 by omega)]
    rw [show (⟨8 + k.val - 8, by omega⟩ : Fin 128) = k from Fin.ext (by show 8 + k.val - 8 = k.val; omega)]
  have e3 : ∀ k : Fin 128, joinRow xb xs xo (Fin.natAdd (8 + 128) k : Fin (8 + 128 + 128))
      * w (Fin.natAdd (8 + 128) k : Fin (8 + 128 + 128)) = xo k * w ⟨136 + k.val, by omega⟩ := fun k => by
    have hk : k.val < 128 := k.isLt
    show joinRow xb xs xo (⟨136 + k.val, by omega⟩ : Fin 264) * w (⟨136 + k.val, by omega⟩ : Fin 264) = _
    unfold joinRow
    rw [dif_neg (show ¬ (136 + k.val < 8) by omega), dif_neg (show ¬ (136 + k.val < 136) by omega)]
    rw [show (⟨136 + k.val - 136, by omega⟩ : Fin 128) = k from Fin.ext (by show 136 + k.val - 136 = k.val; omega)]
  rw [Finset.sum_congr rfl (fun k _ => e1 k), Finset.sum_congr rfl (fun k _ => e2 k), Finset.sum_congr rfl (fun k _ => e3 k)]

/-! ## The whole computation, edge by edge

  Edge t of graph b has a source and a target node, `edges (b, t, 0)` and `edges (b, t, 1)`. Its feature row is the source
  node's box, the target node's box, the source node's vector and the target node's vector, each looked up in graph b's
  table by node number as `jnp.take_along_axis` looks rows up (a negative number counts from the end; a number that then
  still names no row yields the not-a-number word, which both programs carry unevaluated). -/

/-- The fill value of a lookup that names no row: the quiet not-a-number word. -/
def fillWord : EReal := Ideal.ofBits .f32 0x7FC00000#32

/-- A row of graph b's table `x` (10000 rows) looked up by node number `i`. -/
def nodeRow {C : ℕ} (x : (⟨3, ![4, 10000, C]⟩ : Shape).Idx → EReal) (i : BitVec 32) (b : Fin 4) (k : Fin C) : EReal :=
  lookup (N := 10000) (by decide) 10000#32 9999#32 fillWord x i b k

/-- The eight box numbers of an edge: the source node's box, then the target node's. -/
def boxes (box : (⟨3, ![4, 10000, 4]⟩ : Shape).Idx → EReal) (s o : BitVec 32) (b : Fin 4) : Fin 8 → EReal := fun k =>
  if h : k.val < 4 then nodeRow box s b ⟨k.val, h⟩ else nodeRow box o b ⟨k.val - 4, by omega⟩

/-- The feature row of edge (b, t). -/
def featRow (obj : (⟨3, ![4, 10000, 128]⟩ : Shape).Idx → EReal) (box : (⟨3, ![4, 10000, 4]⟩ : Shape).Idx → EReal)
    (edges : (⟨3, ![4, 100000, 2]⟩ : Shape).Idx → BitVec 32) (b : Fin 4) (t : Fin 100000) : Fin 264 → EReal :=
  joinRow (boxes box (edges (ix3 b t (0 : Fin 2))) (edges (ix3 b t (1 : Fin 2))) b)
    (fun k => nodeRow obj (edges (ix3 b t (0 : Fin 2))) b k) (fun k => nodeRow obj (edges (ix3 b t (1 : Fin 2))) b k)

/-- THE RESULT both programs compute at (b, t): the score of edge (b, t). -/
def edgeScore (obj : (⟨3, ![4, 10000, 128]⟩ : Shape).Idx → EReal) (box : (⟨3, ![4, 10000, 4]⟩ : Shape).Idx → EReal)
    (edges : (⟨3, ![4, 100000, 2]⟩ : Shape).Idx → BitVec 32) (W1 : (⟨2, ![264, 512]⟩ : Shape).Idx → EReal)
    (b1 g1 be1 m1 v1 : (⟨1, ![512]⟩ : Shape).Idx → EReal) (W2 : (⟨2, ![512, 64]⟩ : Shape).Idx → EReal)
    (b2 g2 be2 m2 v2 : (⟨1, ![64]⟩ : Shape).Idx → EReal) : (⟨2, ![4, 100000]⟩ : Shape).Idx → EReal := fun i =>
  score (featRow obj box edges (i 0) (i 1)) W1 b1 g1 be1 m1 v1 W2 b2 g2 be2 m2 v2

end Cert.EdgeScore

end
-- ==== Proof.LibMatmul2d.lean ====
/-
  A matrix product of the exact instance read at an index, for two-dimensional operands.

  At the exact instance a product into a zero accumulator is, at the output index (i, j), the sum over the
  contraction index of the operands' products. The contraction index is a one-axis multi-index; the operands are
  addressed through the dimension record's index maps. This file turns that into the textbook form

      (A · B) (i, j) = Σ_{k < K} A (i, k) · B (k, j)            (M×K by K×N),
      (A · Bᵀ) (i, j) = Σ_{k < K} A (i, k) · B (j, k)           (M×K by N×K),

  with the sum over `Fin K` and every index written by coordinates, for the library's two canonical dimension
  records. A printed program's own record with the same six index lists is equal to the canonical one by `rfl`
  (its well-formedness field is a proposition), so `rw [show dot_… = DotDims.plain M K N from rfl]` brings a printed
  product under these lemmas.
-/
import Idealize.ShloMosaic.Lib.ValueIdx
import Idealize.ShloMosaic.PureOps.Ideal.Laws

noncomputable section

namespace Cert.LibMatmul2d

open Idealize.ShloMosaic Idealize.ShloMosaic.ValueIdx
open scoped BigOperators

variable {M K N : ℕ}

/-! ## M×K by K×N -/

section Plain

local notation "D" => DotDims.plain M K N

theorem plain_rank : (D).contr.rank = 1 := rfl
theorem plain_size : (D).contr.size ⟨0, by rw [plain_rank]; exact Nat.one_pos⟩ = K := rfl

/-- The left operand's row is the output's row. -/
theorem plain_lhs_row (i : Fin M) (j : Fin N) (k : (D).contr.Idx) : (D).lhsIdx (ix2 i j) k (0 : Fin 2) = i := by
  unfold DotDims.lhsIdx
  simp [DotDims.plain]
  first | rfl | exact Fin.ext rfl | (apply Fin.ext; simp)

/-- The right operand's column is the output's column. -/
theorem plain_rhs_col (i : Fin M) (j : Fin N) (k : (D).contr.Idx) : (D).rhsIdx (ix2 i j) k (1 : Fin 2) = j := by
  unfold DotDims.rhsIdx
  simp [DotDims.plain]
  first | rfl | exact Fin.ext rfl | (apply Fin.ext; simp)

/-- The product of an M×K by a K×N operand into a zero accumulator, at (i, j). -/
theorem matmul_plain_apply {φ₁ φ₂ : FTy} (a : FVec Ideal ⟨2, ![M, K]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 i k) * b (ix2 k j) := by
  rw [Ideal.matmul_constant_zero_apply, ← Equiv.sum_comp (contrEquiv1 (D) K plain_rank plain_size).symm]
  refine Finset.sum_congr rfl fun k _ => ?_
  have hl : (D).lhsIdx (ix2 i j) ((contrEquiv1 (D) K plain_rank plain_size).symm k) = ix2 i k := by
    funext ax
    match ax with
    | ⟨0, _⟩ => exact plain_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K plain_rank plain_size k
  have hr : (D).rhsIdx (ix2 i j) ((contrEquiv1 (D) K plain_rank plain_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K plain_rank plain_size k
    | ⟨1, _⟩ => exact plain_rhs_col i j _
  rw [hl, hr]

end Plain

/-! ## M×K by N×K: the right operand contracted on its last axis -/

section TransposedRhs

local notation "D" => DotDims.transposedRhs M K N

theorem trhs_rank : (D).contr.rank = 1 := rfl
theorem trhs_size : (D).contr.size ⟨0, by rw [trhs_rank]; exact Nat.one_pos⟩ = K := rfl

theorem trhs_lhs_row (i : Fin M) (j : Fin N) (k : (D).contr.Idx) : (D).lhsIdx (ix2 i j) k (0 : Fin 2) = i := by
  unfold DotDims.lhsIdx
  simp [DotDims.transposedRhs]
  first | rfl | exact Fin.ext rfl | (apply Fin.ext; simp)

theorem trhs_rhs_row (i : Fin M) (j : Fin N) (k : (D).contr.Idx) : (D).rhsIdx (ix2 i j) k (0 : Fin 2) = j := by
  unfold DotDims.rhsIdx
  simp [DotDims.transposedRhs]
  first | rfl | exact Fin.ext rfl | (apply Fin.ext; simp)

/-- The product of an M×K operand with the transpose of an N×K operand into a zero accumulator, at (i, j). -/
theorem matmul_transposedRhs_apply {φ₁ φ₂ : FTy} (a : FVec Ideal ⟨2, ![M, K]⟩ φ₁) (b : FVec Ideal ⟨2, ![N, K]⟩ φ₂)
    (i : Fin M) (j : Fin N) :
    FloatOps.matmul (D) none a b (constant ⟨2, ![M, N]⟩ .f32 0x00000000#32) (ix2 i j)
      = ∑ k : Fin K, a (ix2 i k) * b (ix2 j k) := by
  rw [Ideal.matmul_constant_zero_apply, ← Equiv.sum_comp (contrEquiv1 (D) K trhs_rank trhs_size).symm]
  refine Finset.sum_congr rfl fun k _ => ?_
  have hl : (D).lhsIdx (ix2 i j) ((contrEquiv1 (D) K trhs_rank trhs_size).symm k) = ix2 i k := by
    funext ax
    match ax with
    | ⟨0, _⟩ => exact trhs_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K trhs_rank trhs_size k
  have hr : (D).rhsIdx (ix2 i j) ((contrEquiv1 (D) K trhs_rank trhs_size).symm k) = ix2 j k := by
    funext ax
    match ax with
    | ⟨0, _⟩ => exact trhs_rhs_row i j _
    | ⟨1, _⟩ =>
      refine Fin.ext ?_
      rw [show (⟨1, by decide⟩ : Fin 2) = (1 : Fin 2) from rfl, DotDims.rhsIdx_val_of_single (D) (cr := (1 : Fin 2)) rfl]
      exact contrEquiv1_symm_val (D) K trhs_rank trhs_size k
  rw [hl, hr]

end TransposedRhs

/-! ## K×M by K×N: both operands contracted on their first axis -/

/-- `<[0], [0], [1], [1], [0, 1, 1, 1], [], []>`: the transpose of a K×M operand by a K×N operand. -/
def transposedLhs (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section TransposedLhs

local notation "D" => transposedLhs K M N

theorem tlhs_rank : (D).contr.rank = 1 := rfl
theorem tlhs_size : (D).contr.size ⟨0, by rw [tlhs_rank]; exact Nat.one_pos⟩ = K := rfl

theorem tlhs_lhs_col (i : Fin M) (j : Fin N) (k : (D).contr.Idx) : (D).lhsIdx (ix2 i j) k (1 : Fin 2) = i := by
  unfold DotDims.lhsIdx
  simp [transposedLhs]
  first | rfl | exact Fin.ext rfl | (apply Fin.ext; simp)

theorem tlhs_rhs_col (i : Fin M) (j : Fin N) (k : (D).contr.Idx) : (D).rhsIdx (ix2 i j) k (1 : Fin 2) = j := by
  unfold DotDims.rhsIdx
  simp [transposedLhs]
  first | rfl | exact Fin.ext rfl | (apply Fin.ext; simp)

/-- The product of the transpose of a K×M operand with a K×N operand into a zero accumulator, at (i, j). -/
theorem matmul_transposedLhs_apply {φ₁ φ₂ : FTy} (a : FVec Ideal ⟨2, ![K, M]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 k i) * b (ix2 k j) := by
  rw [Ideal.matmul_constant_zero_apply, ← Equiv.sum_comp (contrEquiv1 (D) K tlhs_rank tlhs_size).symm]
  refine Finset.sum_congr rfl fun k _ => ?_
  have hl : (D).lhsIdx (ix2 i j) ((contrEquiv1 (D) K tlhs_rank tlhs_size).symm k) = ix2 k i := by
    funext ax
    match ax with
    | ⟨0, _⟩ =>
      refine Fin.ext ?_
      rw [show (⟨0, by decide⟩ : Fin 2) = (0 : Fin 2) from rfl, DotDims.lhsIdx_val_of_single (D) (cl := (0 : Fin 2)) rfl]
      exact contrEquiv1_symm_val (D) K tlhs_rank tlhs_size k
    | ⟨1, _⟩ => exact tlhs_lhs_col i j _
  have hr : (D).rhsIdx (ix2 i j) ((contrEquiv1 (D) K tlhs_rank tlhs_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K tlhs_rank tlhs_size k
    | ⟨1, _⟩ => exact tlhs_rhs_col i j _
  rw [hl, hr]

end TransposedLhs

end Cert.LibMatmul2d

end
-- ==== Proof.LibMaxAxes.lean ====
/-
  Maxima of an array along an axis that is not the last, at the exact instance and for any extents.

  On the extended reals a maximum-reduction is the fold of `max` from the starting value over the coordinates of the
  reduced axis. Read at an index written by coordinates: the vector unit's maximum of a matrix over its FIRST axis at
  a column (a maximum down the rows), and the host's maximum of a rank-three array over its MIDDLE axis at `(p, q)`.
  The reduced index with a coordinate put back on the dropped axis is `(coordinate, column)`, respectively
  `(p, coordinate, q)`. And one order fact: taking the maximum of a fold of `max` with its own starting value changes
  nothing, since the starting value is below the fold.
-/
import Idealize.ShloMosaic.Lib.ValueIdx
import Idealize.ShloMosaic.PureOps.Ideal.Laws

noncomputable section

namespace Cert.LibMaxAxes

open Idealize.ShloMosaic Idealize.ShloMosaic.ValueIdx

/-- Column `c` with the coordinate `k` put back on the dropped first axis is the matrix index `(k, c)`. -/
theorem lift_firstAxis {a b : ℕ} (h : (⟨2, ![a, b]⟩ : Shape).Reduces [0] ⟨1, ![b]⟩) (c : Fin b) (k : Fin a) :
    h.lift (ix1 c) k = ix2 k c := by
  funext d
  apply Fin.ext
  show h.liftVal (ix1 c) k.val d = _
  unfold Shape.Reduces.liftVal
  match d with
  | ⟨0, _⟩ => exact dif_pos (show (0 : ℕ) = 0 from rfl)
  | ⟨1, _⟩ => exact (dif_neg (show ¬((1 : ℕ) = 0) by omega)).trans (dif_neg (show ¬((1 : ℕ) < 0) by omega))

/-- The index `(p, q)` with the coordinate `k` put back on the dropped middle axis is `(p, k, q)`. -/
theorem lift_midAxis3 {a n b : ℕ} (h : (⟨3, ![a, n, b]⟩ : Shape).Reduces [1] ⟨2, ![a, b]⟩) (p : Fin a) (q : Fin b) (k : Fin n) :
    h.lift (ix2 p q) k = ix3 p k q := by
  funext c
  apply Fin.ext
  show h.liftVal (ix2 p q) k.val c = _
  unfold Shape.Reduces.liftVal
  match c with
  | ⟨0, _⟩ => exact (dif_neg (show ¬((0 : ℕ) = 1) by omega)).trans (dif_pos (show (0 : ℕ) < 1 by omega))
  | ⟨1, _⟩ => exact dif_pos (show (1 : ℕ) = 1 from rfl)
  | ⟨2, _⟩ => exact (dif_neg (show ¬((2 : ℕ) = 1) by omega)).trans (dif_neg (show ¬((2 : ℕ) < 1) by omega))

/-- The vector unit's maximum of a matrix over its FIRST axis, at column `c`: the fold of `max` over the column's
    entries, from the accumulator's value. -/
theorem colMax_apply {φ : FTy} {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (c : Fin b) :
    multiReduction .maximumf [0] ⟨1, ![b]⟩ src acc h hφ hacc (ix1 c)
      = (Finset.univ : Finset (Fin a)).fold max (Ideal.ofBits φ acc) (fun k => src (ix2 k c)) :=
  (Ideal.multiReduction_maximumf_single src acc h hφ hacc (ix1 c)).trans
    (congrArg (fun f => (Finset.univ : Finset (Fin a)).fold max (Ideal.ofBits φ acc) f)
      (funext fun k => congrArg src (lift_firstAxis h c k)))

/-- The host's maximum of an `[a, n, b]` array over its middle axis, at `(p, q)`: the fold of `max` over the entries
    `x (p, k, q)`, from the initial value. -/
theorem hostMax_midAxis3_apply {φ : FTy} {a n b : ℕ} {u : Shape} (x : FVec Ideal ⟨3, ![a, n, b]⟩ φ) (init : u.Idx → Ideal φ)
    (h' : (⟨3, ![a, n, b]⟩ : Shape).ReducesTo [1] ⟨2, ![a, b]⟩) (h : (⟨3, ![a, n, b]⟩ : Shape).Reduces [1] ⟨2, ![a, b]⟩)
    (hu : 0 < u.numel) (p : Fin a) (q : Fin b) :
    Host.reduce (FloatOps.maximumf (F := Ideal) (φ := φ)) x init h' hu (ix2 p q)
      = (Finset.univ : Finset (Fin n)).fold max (init (Shape.Idx.first hu)) (fun k => x (ix3 p k q)) :=
  (Host.reduce_eq_fold_single (FloatOps.maximumf (F := Ideal) (φ := φ)) x init h' h hu (ix2 p q)).trans
    (congrArg (fun f => (Finset.univ : Finset (Fin n)).fold max (init (Shape.Idx.first hu)) f)
      (funext fun k => congrArg x (lift_midAxis3 h p q k)))

/-- The starting value of a fold of `max` is below the fold, so taking the maximum with it again changes nothing. -/
theorem max_fold_max_self {ι : Type*} (s : Finset ι) (b : EReal) (f : ι → EReal) :
    max b (s.fold max b f) = s.fold max b f :=
  max_eq_right (Finset.le_fold_max (b := b) (f := f) (s := s) b |>.mpr (Or.inl le_rfl))

end Cert.LibMaxAxes

end
-- ==== Proof.LibSoftmaxGuarded.lean ====
/-
  A row softmax on the vector unit whose row maximum is taken once more against the −∞ word.

  jax's softmax computes the row maximum by a reduction that starts from −∞ and then takes the maximum of the result
  with −∞ again (its `initial=` argument). The second maximum changes nothing: the starting value of a fold of
  `max` is below the fold. So this spelling, read at (r, q), is the same entry of the row-normalised matrix as the
  plain spelling: exp(v(r,q) − M(r)) over the row's sum, M(r) the fold of max over the row from −∞.
-/
import Idealize.ShloMosaic.Lib.ValueIdx
import Idealize.ShloMosaic.PureOps.Ideal.Laws
import proofs.«165707_j13941463842948_1_alg».proof.Proof.LibRowSoftmax
import proofs.«165707_j13941463842948_1_alg».proof.Proof.LibMaxAxes

noncomputable section

namespace Cert.LibSoftmaxGuarded

open Idealize.ShloMosaic Idealize.ShloMosaic.ValueIdx Cert.LibRowSoftmax
open scoped BigOperators

variable {a b : ℕ}

/-- The row maximum, taken once more against the −∞ word, is the row maximum. -/
theorem guardedMax_apply (v : FVec Ideal ⟨2, ![a, b]⟩ .f32)
    (hr : (⟨2, ![a, b]⟩ : Shape).Reduces [1] ⟨1, ![a]⟩) (hφ : FKind.Formats .f32)
    (h1 : (0xFF800000#32 : BitVec (FTy.bits .f32)) = FKind.maximumf.neutral .f32 hφ) (r : Fin a) :
    maximumf (broadcast ⟨1, ![a]⟩ (Scalar.ofBits (F := Ideal) .f32 0xFF800000#32))
        (multiReduction (F := Ideal) .maximumf [1] ⟨1, ![a]⟩ v 0xFF800000#32 hr hφ h1) (ix1 r) = rowMax v r := by
  show max (Ideal.ofBits .f32 0xFF800000#32) (multiReduction (F := Ideal) .maximumf [1] ⟨1, ![a]⟩ v 0xFF800000#32 hr hφ h1 (ix1 r)) = _
  refine (congrArg (max (Ideal.ofBits .f32 0xFF800000#32)) (Cert.LibRowwise.rowMax_apply v 0xFF800000#32 hr hφ h1 r)).trans ?_
  exact Cert.LibMaxAxes.max_fold_max_self _ _ _

/-- The vector unit's row softmax with the guarded maximum, read at (r, q). -/
theorem vecSoftmaxGuarded_apply (v : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hφ : FKind.Formats .f32)
    (h1 : (0xFF800000#32 : BitVec (FTy.bits .f32)) = FKind.maximumf.neutral .f32 hφ)
    (h2 : (0x00000000#32 : BitVec (FTy.bits .f32)) = FKind.add.neutral .f32 hφ) (r : Fin a) (q : Fin b) :
    divf (exp (subf v (broadcastTo ⟨2, ![a, b]⟩ (shapeCast ⟨2, ![a, 1]⟩
          (maximumf (broadcast ⟨1, ![a]⟩ (Scalar.ofBits (F := Ideal) .f32 0xFF800000#32))
            (multiReduction (F := Ideal) .maximumf [1] ⟨1, ![a]⟩ v 0xFF800000#32 hr hφ h1)) hc) hb)))
        (broadcastTo ⟨2, ![a, b]⟩ (shapeCast ⟨2, ![a, 1]⟩
          (multiReduction (F := Ideal) .add [1] ⟨1, ![a]⟩
            (exp (subf v (broadcastTo ⟨2, ![a, b]⟩ (shapeCast ⟨2, ![a, 1]⟩
              (maximumf (broadcast ⟨1, ![a]⟩ (Scalar.ofBits (F := Ideal) .f32 0xFF800000#32))
                (multiReduction (F := Ideal) .maximumf [1] ⟨1, ![a]⟩ v 0xFF800000#32 hr hφ h1)) hc) hb)))
            0x00000000#32 hr hφ h2) hc) hb) (ix2 r q)
      = softmaxAt v r q := by
  have hmax : ∀ q' : Fin b,
      broadcastTo ⟨2, ![a, b]⟩ (shapeCast ⟨2, ![a, 1]⟩
        (maximumf (broadcast ⟨1, ![a]⟩ (Scalar.ofBits (F := Ideal) .f32 0xFF800000#32))
          (multiReduction (F := Ideal) .maximumf [1] ⟨1, ![a]⟩ v 0xFF800000#32 hr hφ h1)) hc) hb (ix2 r q') = rowMax v r := fun q' =>
    (Cert.LibRowwise.perRow_apply _ hc hb r q').trans (guardedMax_apply v hr hφ h1 r)
  have hnum : ∀ q' : Fin b,
      exp (subf v (broadcastTo ⟨2, ![a, b]⟩ (shapeCast ⟨2, ![a, 1]⟩
        (maximumf (broadcast ⟨1, ![a]⟩ (Scalar.ofBits (F := Ideal) .f32 0xFF800000#32))
          (multiReduction (F := Ideal) .maximumf [1] ⟨1, ![a]⟩ v 0xFF800000#32 hr hφ h1)) hc) hb)) (ix2 r q') = rowNum v r q' := fun q' => by
    show Ideal.exp (v (ix2 r q') - _) = _
    rw [hmax q']; rfl
  refine (divf_apply _ _ _).trans ?_
  unfold softmaxAt
  refine congrArg₂ Ideal.div (hnum q) ?_
  refine (Cert.LibRowwise.perRow_apply _ hc hb r q).trans ?_
  refine (Cert.LibRowwise.rowSum_apply _ 0x00000000#32 hr hφ h2 r).trans ?_
  exact Finset.sum_congr rfl fun k _ => hnum k

end Cert.LibSoftmaxGuarded

end
-- ==== Proof.KernelRow.lean ====
/-
  What the kernel body computes, read one edge (one row of its blocks) at a time.

  The body receives a block of 2048 edges as three matrices — the box numbers (2048 × 8), the source vectors and the
  target vectors (2048 × 128 each) — and the weights whole. Its first stage forms, for row p and hidden unit j,

      ((Σ_{k<8} box(p,k)·A(k,j) + Σ_{k<128} src(p,k)·B(k,j)) + Σ_{k<128} dst(p,k)·C(k,j) + b₁ j − μ₁ j) · (γ₁ j · rsqrt(σ₁² j + ε)),

  with A, B, C the three bands of rows of W₁; the second stage adds β₁, rectifies, multiplies by W₂, normalises and
  rectifies again, takes the softmax of the 64 logits of the row and keeps its largest entry. Every step acts on row p
  alone: a matrix product reads row p of its left factor, a per-column vector is repeated down the rows, the softmax and
  the two maxima run along the row. So entry (p, 0) of the result is `score` of the row joined from row p of the three
  input blocks (`sum_join` regroups the three partial products into the one sum over 264 positions).
-/
import proofs.«165707_j13941463842948_1_alg».proof.Proof.KernelIdealFrameP
import proofs.«165707_j13941463842948_1_alg».proof.Proof.Spec
import proofs.«165707_j13941463842948_1_alg».proof.Proof.LibMatmul2d
import proofs.«165707_j13941463842948_1_alg».proof.Proof.LibRowwise
import proofs.«165707_j13941463842948_1_alg».proof.Proof.LibSoftmaxGuarded

noncomputable section

namespace Cert.KernelIdeal.RowValue

open Cert.KernelIdeal Cert.KernelIdeal.Gen Cert.KernelIdeal.GenP Idealize.ShloMosaic Idealize.ShloMosaic.ValueIdx
open Cert.EdgeScore Cert.LibRowSoftmax Cert.LibRowwise Cert.LibMatmul2d Cert.LibSoftmaxGuarded
open scoped BigOperators

/-- The first stage at (p, j): the three partial products added, the bias added, the mean taken off, the scale applied. -/
theorem pay1_apply (v0 : Vec Ideal S2048x8 .f32) (v3 v6 : Vec Ideal S2048x128 .f32) (v9 : Vec Ideal S8x512 .f32)
    (v11 v13 : Vec Ideal S128x512 .f32) (v20 v24 v25 v30 : Vec Ideal S512 .f32) (p : Fin 2048) (j : Fin 512) :
    k0_pay1 (F := Ideal) v0 v3 v6 v9 v11 v13 v20 v24 v25 v30 (ix2 p j)
      = (((((∑ k : Fin 8, v0 (ix2 p k) * v9 (ix2 k j)) + ∑ k : Fin 128, v3 (ix2 p k) * v11 (ix2 k j))
            + ∑ k : Fin 128, v6 (ix2 p k) * v13 (ix2 k j)) + v20 (ix1 j)) - v30 (ix1 j))
          * (v24 (ix1 j) * Ideal.rsqrt (v25 (ix1 j) + eps)) := by
  unfold k0_pay1
  simp only [mulf_apply, subf_apply, addf_apply]
  rw [perColumn_apply, perColumn_apply, perColumn_apply]
  rw [show dot_S2048x8_S8x512_S2048x512_1_0_0_1_n_n = DotDims.plain 2048 8 512 from rfl,
    show dot_S2048x128_S128x512_S2048x512_1_0_0_1_n_n = DotDims.plain 2048 128 512 from rfl]
  simp only [Idealize.ShloMosaic.matmul]
  rw [matmul_plain_apply, matmul_plain_apply, matmul_plain_apply]
  simp only [truncf_apply, shapeCast_self, mulf_apply, addf_apply]
  rfl

/-- The second stage at row p: the shift added and the rectifier applied to the first stage, the second layer's product,
    normalisation and rectifier, and the largest softmax probability of the row's 64 logits. -/
theorem pay2_apply (v36 : FVec Ideal S2048x512 .f32) (v37 : Vec Ideal S512 .f32) (v44 : Vec Ideal S512x64 .f32)
    (v47 v51 v52 v57 v64 : Vec Ideal S64 .f32) (p : Fin 2048) (u : Fin 1) :
    k0_pay2 (F := Ideal) v36 v37 v44 v47 v51 v52 v57 v64 (ix2 p u)
      = topProb (fun q => max ((((∑ j : Fin 512, max (v36 (ix2 p j) + v37 (ix1 j)) zero32 * v44 (ix2 j q)) + v47 (ix1 q))
            - v57 (ix1 q)) * (v51 (ix1 q) * Ideal.rsqrt (v52 (ix1 q) + eps)) + v64 (ix1 q)) zero32) := by
  unfold k0_pay2
  rw [shapeCast_a_a1_apply]
  refine (rowMax_apply _ _ _ _ _ p).trans ?_
  unfold topProb
  refine congrArg (fun f => Finset.fold max negInf f Finset.univ) (funext fun k => ?_)
  refine (vecSoftmaxGuarded_apply _ _ _ _ _ _ _ p k).trans ?_
  refine softmaxAt_congr _ _ p (0 : Fin 1) (fun q => ?_) k
  show _ = max _ zero32
  simp only [maximumf_apply, addf_apply, mulf_apply, subf_apply]
  rw [perColumn_apply, perColumn_apply, perColumn_apply, perColumn_apply]
  rw [show dot_S2048x512_S512x64_S2048x64_1_0_0_1_n_n = DotDims.plain 2048 512 64 from rfl]
  simp only [Idealize.ShloMosaic.matmul]
  rw [matmul_plain_apply]
  simp only [truncf_apply, maximumf_apply, addf_apply, mulf_apply, perColumn_apply]
  rfl

/-- The three bands of rows of the first layer's weights, as the body loads them, read by coordinates. -/
theorem band0_apply (x3 : Vec Ideal S264x512 .f32) (k : Fin 8) (j : Fin 512) :
    View.ld x3 r0_2 (ix2 k j) = x3 (ix2 (⟨k.val, by omega⟩ : Fin 264) j) :=
  congrArg x3 (funext fun a => Fin.ext (by
    match a with
    | ⟨0, _⟩ => show 0 + 1 * k.val = k.val; omega
    | ⟨1, _⟩ => show 0 + 1 * j.val = j.val; omega))

theorem band1_apply (x3 : Vec Ideal S264x512 .f32) (k : Fin 128) (j : Fin 512) :
    View.ld x3 r0_3 (ix2 k j) = x3 (ix2 (⟨8 + k.val, by omega⟩ : Fin 264) j) :=
  congrArg x3 (funext fun a => Fin.ext (by
    match a with
    | ⟨0, _⟩ => show 8 + 1 * k.val = 8 + k.val; omega
    | ⟨1, _⟩ => show 0 + 1 * j.val = j.val; omega))

theorem band2_apply (x3 : Vec Ideal S264x512 .f32) (k : Fin 128) (j : Fin 512) :
    View.ld x3 r0_4 (ix2 k j) = x3 (ix2 (⟨136 + k.val, by omega⟩ : Fin 264) j) :=
  congrArg x3 (funext fun a => Fin.ext (by
    match a with
    | ⟨0, _⟩ => show 136 + 1 * k.val = 136 + k.val; omega
    | ⟨1, _⟩ => show 0 + 1 * j.val = j.val; omega))

/-- WHAT THE BODY LEAVES AT ROW p of its output block: the score of the edge whose feature row is joined from row p of
    the three input blocks. -/
theorem out_row (x0 : Vec Ideal S2048x8 .f32) (x1 x2 : Vec Ideal S2048x128 .f32) (x3 : Vec Ideal S264x512 .f32)
    (x4 x5 x6 x7 x8 : Vec Ideal S512 .f32) (x9 : Vec Ideal S512x64 .f32) (x10 x11 x12 x13 x14 : Vec Ideal S64 .f32)
    (p : Fin 2048) (u : Fin 1) :
    out0_15 (F := Ideal) x0 x1 x2 x3 x4 x5 x6 x7 x8 x9 x10 x11 x12 x13 x14 (ix2 p u)
      = score (joinRow (fun k => x0 (ix2 p k)) (fun k => x1 (ix2 p k)) (fun k => x2 (ix2 p k)))
          x3 x4 x5 x6 x7 x8 x9 x10 x11 x12 x13 x14 := by
  have hz : (![0, 0] : Fin 2 → Nat) = fun _ => 0 := funext fun a => by fin_cases a <;> rfl
  have hz1 : (![0] : Fin 1 → Nat) = fun _ => 0 := funext fun a => by fin_cases a <;> rfl
  unfold out0_15
  rw [View.canon_unit_zero hz]
  simp only [View.ld_unit_zero (S := S2048x8) hz, View.ld_unit_zero (S := S2048x128) hz, View.ld_unit_zero (S := S512) hz1,
    View.ld_unit_zero (S := S512x64) hz, View.ld_unit_zero (S := S64) hz1]
  rw [pay2_apply]
  unfold score logits hiddenAct unit
  refine congrArg topProb (funext fun q => ?_)
  have hA := band0_apply x3
  have hB := band1_apply x3
  have hC := band2_apply x3
  simp only [pay1_apply, hA, hB, hC]
  simp only [sum_join]

end Cert.KernelIdeal.RowValue

end
-- ==== Proof.KernelPoints.lean ====
/-
  Where each window of the kernel's pipeline sits at each of the 196 grid points: the three row-blocked inputs and the
  output column are at block t along the rows, every weight and parameter array at block 0. Decided once, by
  evaluating the printed index maps at every point.
-/
import proofs.«165707_j13941463842948_1_alg».proof.Proof.KernelIdealFrameP

set_option maxRecDepth 16384

noncomputable section

namespace Cert.KernelIdeal.ArrayValue

open Cert.KernelIdeal Cert.KernelIdeal.Gen Idealize.ShloMosaic

/-- The printed index maps, decided once over the grid: the three row-blocked inputs and the output move with the point
    along the rows, every other window stays at block 0. -/
theorem index_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 1) = 0
    ∧ win0_5.index t (0 : Fin 1) = 0
    ∧ win0_6.index t (0 : Fin 1) = 0
    ∧ win0_7.index t (0 : Fin 1) = 0
    ∧ win0_8.index t (0 : Fin 1) = 0
    ∧ win0_9.index t (0 : Fin 2) = 0
    ∧ win0_9.index t (1 : Fin 2) = 0
    ∧ win0_10.index t (0 : Fin 1) = 0
    ∧ win0_11.index t (0 : Fin 1) = 0
    ∧ win0_12.index t (0 : Fin 1) = 0
    ∧ win0_13.index t (0 : Fin 1) = 0
    ∧ win0_14.index t (0 : Fin 1) = 0
    ∧ win0_15.index t (0 : Fin 2) = t.val
    ∧ win0_15.index t (1 : Fin 2) = 0 :=
  (by decide +kernel : ∀ t : Fin grid0.N, _)

end Cert.KernelIdeal.ArrayValue

end
-- ==== Proof.KernelBlocks.lean ====
/-
  A window's block at a grid point, read off ANY contents of its array: row p of a row-blocked input at point t is row
  2048 t + p of the array, and a weight or parameter window reads the whole array back.
-/
import proofs.«165707_j13941463842948_1_alg».proof.Proof.KernelPoints
import Idealize.ShloMosaic.Lib.ValueIdx

set_option maxRecDepth 16384

noncomputable section

namespace Cert.KernelIdeal.ArrayValue

open Cert.KernelIdeal Cert.KernelIdeal.Gen
open Idealize.ShloMosaic Idealize.ShloMosaic.ValueIdx Idealize.ShloMosaic.TcCoe Idealize.SL.Sem
open Idealize.ShloMosaic.Pipeline (Dat Cfg Window)

theorem row0 (A : S401408x8.Idx → Ideal .f32) (t : Fin cfg0.N) (p : Fin 2048) (k : Fin 8) :
    ((cfg0.win 0).blk t).view.read (Elt Ideal) A (ix2 p k)
      = A (ix2 (⟨t.val * 2048 + p.val, by have := t.isLt; have := p.isLt; show _ < 401408; change t.val < 196 at *; omega⟩ : Fin 401408) k) := by
  obtain ⟨f0, f1, f2, f3, f4, f5, f6, f7, f8, f9, f10, f11, f12, f13, f14, f15, f16, f17, f18, f19, f20, f21⟩ := index_facts t
  show A (((cfg0.win 0).blk t).view.emb (ix2 p k)) = _
  refine congrArg A (funext fun a => Fin.ext ?_)
  match a with
  | ⟨0, _⟩ => show win0_0.index t (0 : Fin 2) * 2048 + 1 * p.val = t.val * 2048 + p.val; omega
  | ⟨1, _⟩ => show win0_0.index t (1 : Fin 2) * 8 + 1 * k.val = k.val; omega

theorem row1 (A : S401408x128.Idx → Ideal .f32) (t : Fin cfg0.N) (p : Fin 2048) (k : Fin 128) :
    ((cfg0.win 1).blk t).view.read (Elt Ideal) A (ix2 p k)
      = A (ix2 (⟨t.val * 2048 + p.val, by have := t.isLt; have := p.isLt; show _ < 401408; change t.val < 196 at *; omega⟩ : Fin 401408) k) := by
  obtain ⟨f0, f1, f2, f3, f4, f5, f6, f7, f8, f9, f10, f11, f12, f13, f14, f15, f16, f17, f18, f19, f20, f21⟩ := index_facts t
  show A (((cfg0.win 1).blk t).view.emb (ix2 p k)) = _
  refine congrArg A (funext fun a => Fin.ext ?_)
  match a with
  | ⟨0, _⟩ => show win0_1.index t (0 : Fin 2) * 2048 + 1 * p.val = t.val * 2048 + p.val; omega
  | ⟨1, _⟩ => show win0_1.index t (1 : Fin 2) * 128 + 1 * k.val = k.val; omega

theorem row2 (A : S401408x128.Idx → Ideal .f32) (t : Fin cfg0.N) (p : Fin 2048) (k : Fin 128) :
    ((cfg0.win 2).blk t).view.read (Elt Ideal) A (ix2 p k)
      = A (ix2 (⟨t.val * 2048 + p.val, by have := t.isLt; have := p.isLt; show _ < 401408; change t.val < 196 at *; omega⟩ : Fin 401408) k) := by
  obtain ⟨f0, f1, f2, f3, f4, f5, f6, f7, f8, f9, f10, f11, f12, f13, f14, f15, f16, f17, f18, f19, f20, f21⟩ := index_facts t
  show A (((cfg0.win 2).blk t).view.emb (ix2 p k)) = _
  refine congrArg A (funext fun a => Fin.ext ?_)
  match a with
  | ⟨0, _⟩ => show win0_2.index t (0 : Fin 2) * 2048 + 1 * p.val = t.val * 2048 + p.val; omega
  | ⟨1, _⟩ => show win0_2.index t (1 : Fin 2) * 128 + 1 * k.val = k.val; omega

theorem blk3 (A : S264x512.Idx → Ideal .f32) (t : Fin cfg0.N) : ((cfg0.win 3).blk t).view.read (Elt Ideal) A = A := by
  obtain ⟨f0, f1, f2, f3, f4, f5, f6, f7, f8, f9, f10, f11, f12, f13, f14, f15, f16, f17, f18, f19, f20, f21⟩ := index_facts t
  funext y
  show A (((cfg0.win 3).blk t).view.emb y) = A y
  refine congrArg A (funext fun a => Fin.ext ?_)
  match a with
  | ⟨0, _⟩ => show win0_3.index t (0 : Fin 2) * 264 + 1 * (y 0).val = (y 0).val; omega
  | ⟨1, _⟩ => show win0_3.index t (1 : Fin 2) * 512 + 1 * (y 1).val = (y 1).val; omega

theorem blk4 (A : S512.Idx → Ideal .f32) (t : Fin cfg0.N) : ((cfg0.win 4).blk t).view.read (Elt Ideal) A = A := by
  obtain ⟨f0, f1, f2, f3, f4, f5, f6, f7, f8, f9, f10, f11, f12, f13, f14, f15, f16, f17, f18, f19, f20, f21⟩ := index_facts t
  funext y
  show A (((cfg0.win 4).blk t).view.emb y) = A y
  refine congrArg A (funext fun a => Fin.ext ?_)
  match a with
  | ⟨0, _⟩ => show win0_4.index t (0 : Fin 1) * 512 + 1 * (y 0).val = (y 0).val; omega

theorem blk5 (A : S512.Idx → Ideal .f32) (t : Fin cfg0.N) : ((cfg0.win 5).blk t).view.read (Elt Ideal) A = A := by
  obtain ⟨f0, f1, f2, f3, f4, f5, f6, f7, f8, f9, f10, f11, f12, f13, f14, f15, f16, f17, f18, f19, f20, f21⟩ := index_facts t
  funext y
  show A (((cfg0.win 5).blk t).view.emb y) = A y
  refine congrArg A (funext fun a => Fin.ext ?_)
  match a with
  | ⟨0, _⟩ => show win0_5.index t (0 : Fin 1) * 512 + 1 * (y 0).val = (y 0).val; omega

theorem blk6 (A : S512.Idx → Ideal .f32) (t : Fin cfg0.N) : ((cfg0.win 6).blk t).view.read (Elt Ideal) A = A := by
  obtain ⟨f0, f1, f2, f3, f4, f5, f6, f7, f8, f9, f10, f11, f12, f13, f14, f15, f16, f17, f18, f19, f20, f21⟩ := index_facts t
  funext y
  show A (((cfg0.win 6).blk t).view.emb y) = A y
  refine congrArg A (funext fun a => Fin.ext ?_)
  match a with
  | ⟨0, _⟩ => show win0_6.index t (0 : Fin 1) * 512 + 1 * (y 0).val = (y 0).val; omega

theorem blk7 (A : S512.Idx → Ideal .f32) (t : Fin cfg0.N) : ((cfg0.win 7).blk t).view.read (Elt Ideal) A = A := by
  obtain ⟨f0, f1, f2, f3, f4, f5, f6, f7, f8, f9, f10, f11, f12, f13, f14, f15, f16, f17, f18, f19, f20, f21⟩ := index_facts t
  funext y
  show A (((cfg0.win 7).blk t).view.emb y) = A y
  refine congrArg A (funext fun a => Fin.ext ?_)
  match a with
  | ⟨0, _⟩ => show win0_7.index t (0 : Fin 1) * 512 + 1 * (y 0).val = (y 0).val; omega

theorem blk8 (A : S512.Idx → Ideal .f32) (t : Fin cfg0.N) : ((cfg0.win 8).blk t).view.read (Elt Ideal) A = A := by
  obtain ⟨f0, f1, f2, f3, f4, f5, f6, f7, f8, f9, f10, f11, f12, f13, f14, f15, f16, f17, f18, f19, f20, f21⟩ := index_facts t
  funext y
  show A (((cfg0.win 8).blk t).view.emb y) = A y
  refine congrArg A (funext fun a => Fin.ext ?_)
  match a with
  | ⟨0, _⟩ => show win0_8.index t (0 : Fin 1) * 512 + 1 * (y 0).val = (y 0).val; omega

theorem blk9 (A : S512x64.Idx → Ideal .f32) (t : Fin cfg0.N) : ((cfg0.win 9).blk t).view.read (Elt Ideal) A = A := by
  obtain ⟨f0, f1, f2, f3, f4, f5, f6, f7, f8, f9, f10, f11, f12, f13, f14, f15, f16, f17, f18, f19, f20, f21⟩ := index_facts t
  funext y
  show A (((cfg0.win 9).blk t).view.emb y) = A y
  refine congrArg A (funext fun a => Fin.ext ?_)
  match a with
  | ⟨0, _⟩ => show win0_9.index t (0 : Fin 2) * 512 + 1 * (y 0).val = (y 0).val; omega
  | ⟨1, _⟩ => show win0_9.index t (1 : Fin 2) * 64 + 1 * (y 1).val = (y 1).val; omega

theorem blk10 (A : S64.Idx → Ideal .f32) (t : Fin cfg0.N) : ((cfg0.win 10).blk t).view.read (Elt Ideal) A = A := by
  obtain ⟨f0, f1, f2, f3, f4, f5, f6, f7, f8, f9, f10, f11, f12, f13, f14, f15, f16, f17, f18, f19, f20, f21⟩ := index_facts t
  funext y
  show A (((cfg0.win 10).blk t).view.emb y) = A y
  refine congrArg A (funext fun a => Fin.ext ?_)
  match a with
  | ⟨0, _⟩ => show win0_10.index t (0 : Fin 1) * 64 + 1 * (y 0).val = (y 0).val; omega

theorem blk11 (A : S64.Idx → Ideal .f32) (t : Fin cfg0.N) : ((cfg0.win 11).blk t).view.read (Elt Ideal) A = A := by
  obtain ⟨f0, f1, f2, f3, f4, f5, f6, f7, f8, f9, f10, f11, f12, f13, f14, f15, f16, f17, f18, f19, f20, f21⟩ := index_facts t
  funext y
  show A (((cfg0.win 11).blk t).view.emb y) = A y
  refine congrArg A (funext fun a => Fin.ext ?_)
  match a with
  | ⟨0, _⟩ => show win0_11.index t (0 : Fin 1) * 64 + 1 * (y 0).val = (y 0).val; omega

theorem blk12 (A : S64.Idx → Ideal .f32) (t : Fin cfg0.N) : ((cfg0.win 12).blk t).view.read (Elt Ideal) A = A := by
  obtain ⟨f0, f1, f2, f3, f4, f5, f6, f7, f8, f9, f10, f11, f12, f13, f14, f15, f16, f17, f18, f19, f20, f21⟩ := index_facts t
  funext y
  show A (((cfg0.win 12).blk t).view.emb y) = A y
  refine congrArg A (funext fun a => Fin.ext ?_)
  match a with
  | ⟨0, _⟩ => show win0_12.index t (0 : Fin 1) * 64 + 1 * (y 0).val = (y 0).val; omega

theorem blk13 (A : S64.Idx → Ideal .f32) (t : Fin cfg0.N) : ((cfg0.win 13).blk t).view.read (Elt Ideal) A = A := by
  obtain ⟨f0, f1, f2, f3, f4, f5, f6, f7, f8, f9, f10, f11, f12, f13, f14, f15, f16, f17, f18, f19, f20, f21⟩ := index_facts t
  funext y
  show A (((cfg0.win 13).blk t).view.emb y) = A y
  refine congrArg A (funext fun a => Fin.ext ?_)
  match a with
  | ⟨0, _⟩ => show win0_13.index t (0 : Fin 1) * 64 + 1 * (y 0).val = (y 0).val; omega

theorem blk14 (A : S64.Idx → Ideal .f32) (t : Fin cfg0.N) : ((cfg0.win 14).blk t).view.read (Elt Ideal) A = A := by
  obtain ⟨f0, f1, f2, f3, f4, f5, f6, f7, f8, f9, f10, f11, f12, f13, f14, f15, f16, f17, f18, f19, f20, f21⟩ := index_facts t
  funext y
  show A (((cfg0.win 14).blk t).view.emb y) = A y
  refine congrArg A (funext fun a => Fin.ext ?_)
  match a with
  | ⟨0, _⟩ => show win0_14.index t (0 : Fin 1) * 64 + 1 * (y 0).val = (y 0).val; omega

end Cert.KernelIdeal.ArrayValue

end
-- ==== Proof.KernelArray.lean ====
/-
  From the blocks the kernel writes to its whole output array.

  The kernel runs on a grid of 196 points; point t is handed rows [2048 t, 2048 t + 2048) of the three input arrays and
  the weights whole, and writes rows [2048 t, 2048 t + 2048) of the output column. What it writes at row p of its block is
  the score of the edge in row 2048 t + p of the inputs (the row function of the body), so what point t writes back is
  block t of ONE function of the whole arrays: `rowScores`, the score of every row. The 196 blocks tile the 401408 rows,
  so after the run the output array is `rowScores` of the arrays the kernel was launched on.
-/
import proofs.«165707_j13941463842948_1_alg».proof.Proof.KernelRow
import proofs.«165707_j13941463842948_1_alg».proof.Proof.KernelBlocks
import Idealize.ShloMosaic.Lib.Pipeline.Value

set_option maxRecDepth 16384

noncomputable section

namespace Cert.KernelIdeal.ArrayValue

open Cert.KernelIdeal Cert.KernelIdeal.Gen Cert.KernelIdeal.GenP Cert.KernelIdeal.RowValue Cert.EdgeScore
open Idealize.ShloMosaic Idealize.ShloMosaic.ValueIdx Idealize.ShloMosaic.TcCoe Idealize.SL.Sem
open Idealize.ShloMosaic.Pipeline (Dat Cfg Window)

/-- The score of every row of the three flattened input arrays. -/
def rowScores (X0 : S401408x8.Idx → EReal) (X1 X2 : S401408x128.Idx → EReal) (W1 : S264x512.Idx → EReal)
    (b1 g1 be1 m1 v1 : S512.Idx → EReal) (W2 : S512x64.Idx → EReal) (b2 g2 be2 m2 v2 : S64.Idx → EReal) :
    S401408x1.Idx → EReal := fun i =>
  score (joinRow (fun k => X0 (ix2 (⟨(i 0).val, idx2_lt0 i⟩ : Fin 401408) k)) (fun k => X1 (ix2 (⟨(i 0).val, idx2_lt0 i⟩ : Fin 401408) k))
    (fun k => X2 (ix2 (⟨(i 0).val, idx2_lt0 i⟩ : Fin 401408) k))) W1 b1 g1 be1 m1 v1 W2 b2 g2 be2 m2 v2

/-! ## What a point writes back -/

/-- The body's row function at any index of its output block. -/
theorem out_at (x0 : Vec Ideal S2048x8 .f32) (x1 x2 : Vec Ideal S2048x128 .f32) (x3 : Vec Ideal S264x512 .f32)
    (x4 x5 x6 x7 x8 : Vec Ideal S512 .f32) (x9 : Vec Ideal S512x64 .f32) (x10 x11 x12 x13 x14 : Vec Ideal S64 .f32)
    (j : S2048x1.Idx) :
    out0_15 (F := Ideal) x0 x1 x2 x3 x4 x5 x6 x7 x8 x9 x10 x11 x12 x13 x14 j
      = score (joinRow (fun k => x0 (ix2 (⟨(j 0).val, idx2_lt0 j⟩ : Fin 2048) k)) (fun k => x1 (ix2 (⟨(j 0).val, idx2_lt0 j⟩ : Fin 2048) k))
          (fun k => x2 (ix2 (⟨(j 0).val, idx2_lt0 j⟩ : Fin 2048) k))) x3 x4 x5 x6 x7 x8 x9 x10 x11 x12 x13 x14 := by
  obtain ⟨p, u, rfl⟩ : ∃ (p : Fin 2048) (u : Fin 1), j = ix2 p u := ⟨j 0, j 1, eq_ix2 j⟩
  exact out_row x0 x1 x2 x3 x4 x5 x6 x7 x8 x9 x10 x11 x12 x13 x14 p u

/-- Equal rows and equal parameters have equal scores. -/
theorem score_congr {x x' : Fin 264 → EReal} {W1 W1' : S264x512.Idx → EReal} {b1 b1' g1 g1' be1 be1' m1 m1' v1 v1' : S512.Idx → EReal}
    {W2 W2' : S512x64.Idx → EReal} {b2 b2' g2 g2' be2 be2' m2 m2' v2 v2' : S64.Idx → EReal}
    (hx : x = x') (h3 : W1 = W1') (h4 : b1 = b1') (h5 : g1 = g1') (h6 : be1 = be1') (h7 : m1 = m1') (h8 : v1 = v1')
    (h9 : W2 = W2') (h10 : b2 = b2') (h11 : g2 = g2') (h12 : be2 = be2') (h13 : m2 = m2') (h14 : v2 = v2') :
    score x W1 b1 g1 be1 m1 v1 W2 b2 g2 be2 m2 v2 = score x' W1' b1' g1' be1' m1' v1' W2' b2' g2' be2' m2' v2' := by
  subst hx h3 h4 h5 h6 h7 h8 h9 h10 h11 h12 h13 h14
  rfl

/-- Equal pieces join to equal rows. -/
theorem joinRow_congr {xb xb' : Fin 8 → EReal} {xs xs' xo xo' : Fin 128 → EReal} (hb : xb = xb') (hs : xs = xs') (ho : xo = xo') :
    joinRow xb xs xo = joinRow xb' xs' xo' := by
  subst hb hs ho
  rfl

/-- On the blocks of ANY arrays at point t, the body leaves block t of `rowScores` of those arrays. -/
theorem canonBlock (A0 : S401408x8.Idx → Ideal .f32) (A1 A2 : S401408x128.Idx → Ideal .f32) (A3 : S264x512.Idx → Ideal .f32) (A4 A5 A6 A7 A8 : S512.Idx → Ideal .f32) (A9 : S512x64.Idx → Ideal .f32) (A10 A11 A12 A13 A14 : S64.Idx → Ideal .f32) (t : Fin cfg0.N) (j : S2048x1.Idx) :
    out0_15 (F := Ideal) (((cfg0.win 0).blk t).view.read (Elt Ideal) A0) (((cfg0.win 1).blk t).view.read (Elt Ideal) A1) (((cfg0.win 2).blk t).view.read (Elt Ideal) A2) (((cfg0.win 3).blk t).view.read (Elt Ideal) A3) (((cfg0.win 4).blk t).view.read (Elt Ideal) A4) (((cfg0.win 5).blk t).view.read (Elt Ideal) A5) (((cfg0.win 6).blk t).view.read (Elt Ideal) A6) (((cfg0.win 7).blk t).view.read (Elt Ideal) A7) (((cfg0.win 8).blk t).view.read (Elt Ideal) A8) (((cfg0.win 9).blk t).view.read (Elt Ideal) A9) (((cfg0.win 10).blk t).view.read (Elt Ideal) A10) (((cfg0.win 11).blk t).view.read (Elt Ideal) A11) (((cfg0.win 12).blk t).view.read (Elt Ideal) A12) (((cfg0.win 13).blk t).view.read (Elt Ideal) A13) (((cfg0.win 14).blk t).view.read (Elt Ideal) A14) j
      = rowScores A0 A1 A2 A3 A4 A5 A6 A7 A8 A9 A10 A11 A12 A13 A14 (((cfg0.win 15).blk t).view.emb j) := by
  refine (out_at _ _ _ _ _ _ _ _ _ _ _ _ _ _ _ j).trans ?_
  unfold rowScores
  obtain ⟨f0, f1, f2, f3, f4, f5, f6, f7, f8, f9, f10, f11, f12, f13, f14, f15, f16, f17, f18, f19, f20, f21⟩ := index_facts t
  have hrow : (⟨t.val * 2048 + (j 0).val, by have := t.isLt; have := idx2_lt0 j; show _ < 401408; change t.val < 196 at *; omega⟩ : Fin 401408)
      = ⟨((((cfg0.win 15).blk t).view.emb j) 0).val, idx2_lt0 _⟩ :=
    Fin.ext (by show t.val * 2048 + (j 0).val = win0_15.index t (0 : Fin 2) * 2048 + 1 * (j 0).val; omega)
  refine score_congr (joinRow_congr (funext fun k => ?_) (funext fun k => ?_) (funext fun k => ?_))
    (blk3 A3 t) (blk4 A4 t) (blk5 A5 t) (blk6 A6 t) (blk7 A7 t) (blk8 A8 t) (blk9 A9 t) (blk10 A10 t) (blk11 A11 t)
    (blk12 A12 t) (blk13 A13 t) (blk14 A14 t)
  · exact (row0 A0 t ⟨(j 0).val, idx2_lt0 j⟩ k).trans (congrArg (fun r => A0 (ix2 r k)) hrow)
  · exact (row1 A1 t ⟨(j 0).val, idx2_lt0 j⟩ k).trans (congrArg (fun r => A1 (ix2 r k)) hrow)
  · exact (row2 A2 t ⟨(j 0).val, idx2_lt0 j⟩ k).trans (congrArg (fun r => A2 (ix2 r k)) hrow)

variable (m : (ℓ : Loc nD τ sig) → Buf (Elt Ideal) ℓ)

/-- WHAT POINT t WRITES BACK is block t of `rowScores` of the arrays the kernel is launched on. -/
theorem flushed_eq (c : Dev nD) (t : Fin cfg0.N) :
    (dats m 0 c).flushed 15 t = ((cfg0.win 15).blk t).view.read (Elt Ideal)
      (rowScores (V m c main_v14) (V m c main_v15) (V m c main_v16) (V m c main_arg3) (V m c main_arg4) (V m c main_arg5) (V m c main_arg6) (V m c main_arg7) (V m c main_arg8) (V m c main_arg9) (V m c main_arg10) (V m c main_arg11) (V m c main_arg12) (V m c main_arg13) (V m c main_arg14)) := by
  show (cfg0.win 15).cut (grid0.coords t) ((dats m 0 c).after 15 t) = _
  rw [after0_15]
  funext j
  exact canonBlock (V m c main_v14) (V m c main_v15) (V m c main_v16) (V m c main_arg3) (V m c main_arg4) (V m c main_arg5) (V m c main_arg6) (V m c main_arg7) (V m c main_arg8) (V m c main_arg9) (V m c main_arg10) (V m c main_arg11) (V m c main_arg12) (V m c main_arg13) (V m c main_arg14) t j

/-! ## The cover and the whole array -/

/-- An index of the output column is in point t's block iff its row is in the block's range. -/
theorem mem_blk (t : Fin cfg0.N) (i : S401408x1.Idx) :
    i ∈ ((cfg0.win 15).blk t).view.set ↔ ∀ a : Fin 2, win0_15.index t a * S2048x1.size a ≤ (i a).val
      ∧ (i a).val < win0_15.index t a * S2048x1.size a + S2048x1.size a := by
  show i ∈ ((View.whole main_v17).slice (win0_15.rect t)).set ↔ _
  rw [View.set_slice_whole, Rect.mem_set_unit]
  exact Iff.rfl

/-- Every row is in the block of the point its number divided by 2048 names. -/
theorem cover (i : S401408x1.Idx) : ∃ t : Fin cfg0.N, (cfg0.win 15).flush t = true ∧ i ∈ ((cfg0.win 15).blk t).view.set := by
  have hi0 : (i 0).val < 401408 := idx2_lt0 i
  have hi1 : (i 1).val < 1 := idx2_lt1 i
  let t : Fin cfg0.N := ⟨(i 0).val / 2048, by show _ < 196; omega⟩
  refine ⟨t, flush0_15 t, ?_⟩
  obtain ⟨f0, f1, f2, f3, f4, f5, f6, f7, f8, f9, f10, f11, f12, f13, f14, f15, f16, f17, f18, f19, f20, f21⟩ := index_facts t
  rw [mem_blk]
  intro a
  match a with
  | ⟨0, _⟩ =>
    show win0_15.index t (0 : Fin 2) * 2048 ≤ (i 0).val ∧ (i 0).val < win0_15.index t (0 : Fin 2) * 2048 + 2048
    have : t.val = (i 0).val / 2048 := rfl
    omega
  | ⟨1, _⟩ =>
    show win0_15.index t (1 : Fin 2) * 1 ≤ (i 1).val ∧ (i 1).val < win0_15.index t (1 : Fin 2) * 1 + 1
    omega

/-- THE OUTPUT ARRAY after the run. -/
theorem final (c : Dev nD) :
    (dats m 0 c).arrAt 15 cfg0.N = rowScores (V m c main_v14) (V m c main_v15) (V m c main_v16) (V m c main_arg3) (V m c main_arg4) (V m c main_arg5) (V m c main_arg6) (V m c main_arg7) (V m c main_arg8) (V m c main_arg9) (V m c main_arg10) (V m c main_arg11) (V m c main_arg12) (V m c main_arg13) (V m c main_arg14) :=
  (dats m 0 c).arrAt_eq_of_cover 15 _ (fun t _ => flushed_eq m c t) cover

end Cert.KernelIdeal.ArrayValue

end
-- ==== Proof.LibTypedRead.lean ====
/-
  Reading a valuation at a typed reference, with no transport left behind.

  A host operation of a module-local function names its operands and its result by typed references: a buffer together
  with the value type its contents have. The operation's function works on values of those types, and the buffer's own
  contents type is reached by a transport along the equation between the two (the identity, once the types are
  computed). Reading the result of a line of such operations buffer by buffer leaves a pair of transports at every
  producer–consumer edge. Here the contents of a buffer are read AT THE VALUE TYPE (`get`): then every edge's pair is
  cancelled where it arises, by lemmas proved once for arbitrary typed references, and the terms that come out are the
  operations' functions applied to one another and nothing else.

      get y ((unary x y f).result V) = f (get x V)              get z ((unary x y f).result V) = get z V   (z ≠ y)

  and the same for operations of no, two and three operands and for a reshape. `get_after` reads a whole line.
-/
import Idealize.ShloMosaic.Lib.StableHlo.Run

noncomputable section

namespace Cert.LibTypedRead

open Idealize.ShloMosaic Idealize.ShloMosaic.StableHlo

variable {τ : Topo} {sig : RefSig} {Val : EltTy → Type}
variable {T Tx Ta Tb Tc Ty : BufTy}

/-- The contents of a typed reference's buffer, at the reference's value type. -/
def get (x : TRef sig T) (V : Valuation τ sig Val) : T.Contents Val :=
  x.ofBuf (V (Proc.devRef .tc x.ref))

/-- To the buffer's type and back is the identity … -/
theorem ofBuf_toBuf (x : TRef sig T) (v : T.Contents Val) : x.ofBuf (x.toBuf v) = v := by
  obtain ⟨r, h, hd, hu⟩ := x
  subst h
  rfl

/-- … and so is back and forth. -/
theorem toBuf_ofBuf (x : TRef sig T) (v : x.ref.ty.Contents Val) : x.toBuf (x.ofBuf v) = v := by
  obtain ⟨r, h, hd, hu⟩ := x
  subst h
  rfl

/-- A buffer's contents from its typed reading. -/
theorem eq_toBuf_of_get (x : TRef sig T) (V : Valuation τ sig Val) (v : T.Contents Val) (h : get x V = v) :
    V (Proc.devRef .tc x.ref) = x.toBuf v := by
  rw [← h]; exact (toBuf_ofBuf x _).symm

/-! ## The written buffer -/

theorem get_nullary (y : TRef sig Ty) (v : Ty.Contents Val) (V : Valuation τ sig Val) :
    get y ((TRef.nullary y v : HloOp τ sig Val).result V) = v := by
  unfold get TRef.nullary
  rw [nullary_result]
  exact ofBuf_toBuf y v

theorem get_unary (x : TRef sig Tx) (y : TRef sig Ty) (f : Tx.Contents Val → Ty.Contents Val) (V : Valuation τ sig Val) :
    get y ((TRef.unary x y f : HloOp τ sig Val).result V) = f (get x V) := by
  unfold get TRef.unary
  rw [unary_result]
  exact ofBuf_toBuf y _

theorem get_binary (a : TRef sig Ta) (b : TRef sig Tb) (y : TRef sig Ty)
    (f : Ta.Contents Val → Tb.Contents Val → Ty.Contents Val) (V : Valuation τ sig Val) :
    get y ((TRef.binary a b y f : HloOp τ sig Val).result V) = f (get a V) (get b V) := by
  unfold get TRef.binary
  rw [binary_result]
  exact ofBuf_toBuf y _

theorem get_ternary (c : TRef sig Tc) (a : TRef sig Ta) (b : TRef sig Tb) (y : TRef sig Ty)
    (f : Tc.Contents Val → Ta.Contents Val → Tb.Contents Val → Ty.Contents Val) (V : Valuation τ sig Val) :
    get y ((TRef.ternary c a b y f : HloOp τ sig Val).result V) = f (get c V) (get a V) (get b V) := by
  unfold get TRef.ternary
  rw [ternary_result]
  exact ofBuf_toBuf y _

theorem get_reshape (x : TRef sig Tx) (y : TRef sig Ty) (he : Tx.elt = Ty.elt) (hn : Tx.shape.ShapeCasts Ty.shape)
    (V : Valuation τ sig Val) :
    get y ((TRef.reshape x y he hn : HloOp τ sig Val).result V) = fun i => he ▸ shapeCast Ty.shape (get x V) hn i := by
  obtain ⟨xr, hx, hxd, hxu⟩ := x
  obtain ⟨yr, hy, hyd, hyu⟩ := y
  subst hx hy
  unfold get TRef.reshape
  rw [reshape_result]
  rfl

/-! ## Any other buffer -/

theorem get_nullary_ne (z : TRef sig T) (y : TRef sig Ty) (v : Ty.Contents Val) (V : Valuation τ sig Val) (h : z.ref ≠ y.ref) :
    get z ((TRef.nullary y v : HloOp τ sig Val).result V) = get z V := by
  unfold get TRef.nullary
  exact congrArg _ (nullary_result_ne _ _ _ _ h)

theorem get_unary_ne (z : TRef sig T) (x : TRef sig Tx) (y : TRef sig Ty) (f : Tx.Contents Val → Ty.Contents Val)
    (V : Valuation τ sig Val) (h : z.ref ≠ y.ref) :
    get z ((TRef.unary x y f : HloOp τ sig Val).result V) = get z V := by
  unfold get TRef.unary
  exact congrArg _ (unary_result_ne _ _ _ _ _ _ h)

theorem get_binary_ne (z : TRef sig T) (a : TRef sig Ta) (b : TRef sig Tb) (y : TRef sig Ty)
    (f : Ta.Contents Val → Tb.Contents Val → Ty.Contents Val) (V : Valuation τ sig Val) (h : z.ref ≠ y.ref) :
    get z ((TRef.binary a b y f : HloOp τ sig Val).result V) = get z V := by
  unfold get TRef.binary
  exact congrArg _ (binary_result_ne _ _ _ _ _ _ _ _ h)

theorem get_ternary_ne (z : TRef sig T) (c : TRef sig Tc) (a : TRef sig Ta) (b : TRef sig Tb) (y : TRef sig Ty)
    (f : Tc.Contents Val → Ta.Contents Val → Tb.Contents Val → Ty.Contents Val) (V : Valuation τ sig Val) (h : z.ref ≠ y.ref) :
    get z ((TRef.ternary c a b y f : HloOp τ sig Val).result V) = get z V := by
  unfold get TRef.ternary
  exact congrArg _ (ternary_result_ne _ _ _ _ _ _ _ _ _ _ h)

theorem get_reshape_ne (z : TRef sig T) (x : TRef sig Tx) (y : TRef sig Ty) (he : Tx.elt = Ty.elt)
    (hn : Tx.shape.ShapeCasts Ty.shape) (V : Valuation τ sig Val) (h : z.ref ≠ y.ref) :
    get z ((TRef.reshape x y he hn : HloOp τ sig Val).result V) = get z V := by
  unfold get TRef.reshape
  exact congrArg _ (reshape_result_ne _ _ _ _ _ _ _ h)

/-! ## A line of operations -/

theorem get_after_nil (z : TRef sig T) (V : Valuation τ sig Val) : get z (after [] V) = get z V := rfl

theorem get_after_cons (z : TRef sig T) (op : HloOp τ sig Val) (ops : List (HloOp τ sig Val)) (V : Valuation τ sig Val) :
    get z (after (op :: ops) V) = get z (after ops (op.result V)) := rfl

end Cert.LibTypedRead

end
-- ==== Proof.KernelHost.lean ====
/-
  What the kernel's entry point computes on the host before it launches the kernel: the arrays the kernel is launched on.

  The entry point pads the list of edges of each graph with 352 zero rows (to a multiple of the block length), splits
  it into the source and the target node numbers, looks up the boxes and the vectors of both endpoints of every edge
  (four lookups of rows along axis 1), joins the two boxes of an edge into eight numbers, and flattens the batch and
  edge axes into one axis of 4 · 100352 rows. Here that line of operations is read a stretch at a time — the stretches
  are the entry point's own lines and the four lookups —, each stretch as a function of the contents it finds, and a
  buffer a stretch does not write keeps its contents.
-/
import proofs.«165707_j13941463842948_1_alg».proof.Proof.KernelIdealFrameP
import proofs.«165707_j13941463842948_1_alg».proof.Proof.LibTypedRead
import proofs.«165707_j13941463842948_1_alg».proof.Proof.LibTakeAlong
import Idealize.ShloMosaic.Lib.StableHlo.Run

noncomputable section

namespace Cert.KernelIdeal.HostValue

open Cert.KernelIdeal Cert.KernelIdeal.Gen Cert.KernelIdeal.GenP Idealize.ShloMosaic Idealize.ShloMosaic.StableHlo
open Idealize.ShloMosaic.TcCoe Idealize.SL.Sem Cert.LibTakeAlong Cert.LibTypedRead

/-- A line of operations run after another is the two run in turn. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op ops ih => exact ih _

/-! ## Each stretch as a function of the contents it finds -/

theorem sourceBoxes (V' : Valuation τ sig (Elt Ideal)) :
    (after (hostOps0_3 (F := Ideal)) V' (Proc.devRef .tc main_v6) : S4x100352x4.Idx → Ideal .f32)
      = takeAlong gather_S4x10000x4_S4x100352x1_S4x100352x4_2_1_0_0_1_2_114 bcast_S_S4x100352x1 bcast_S1_S1x1x1_2
          bcast_S1x1x1_S4x100352x1_0_1_2 reducesTo_S4x100352x1_S4x100352_d2 h_S_ bcast_S4x100352_S4x100352x4_0_1 bcast_S_S4x100352x4
          10000#32 9999#32 (constant (F := Ideal) S_ .f32 0x7FC00000#32)
          (V' (Proc.devRef .tc main_arg1) : S4x10000x4.Idx → Ideal .f32) (V' (Proc.devRef .tc main_v5) : S4x100352x1.Idx → BitVec 32) := by
  show get (TRef.of main_v6 : TRef sig ⟨S4x100352x4, .f32⟩) (after (hostOps0_3 (F := Ideal)) V')
      = takeAlong gather_S4x10000x4_S4x100352x1_S4x100352x4_2_1_0_0_1_2_114 bcast_S_S4x100352x1 bcast_S1_S1x1x1_2
          bcast_S1x1x1_S4x100352x1_0_1_2 reducesTo_S4x100352x1_S4x100352_d2 h_S_ bcast_S4x100352_S4x100352x4_0_1 bcast_S_S4x100352x4
          10000#32 9999#32 (constant (F := Ideal) S_ .f32 0x7FC00000#32)
          (get (TRef.of main_arg1 : TRef sig ⟨S4x10000x4, .f32⟩) V') (get (TRef.of main_v5 : TRef sig ⟨S4x100352x1, .i32⟩) V')
  simp (disch := decide) only [get_after_cons, get_after_nil, get_nullary, get_unary, get_binary, get_ternary,
    get_nullary_ne, get_unary_ne, get_binary_ne, get_ternary_ne]
  rfl

theorem targetBoxes (V' : Valuation τ sig (Elt Ideal)) :
    (after (hostOps0_5 (F := Ideal)) V' (Proc.devRef .tc main_v8) : S4x100352x4.Idx → Ideal .f32)
      = takeAlong gather_S4x10000x4_S4x100352x1_S4x100352x4_2_1_0_0_1_2_114 bcast_S_S4x100352x1 bcast_S1_S1x1x1_2
          bcast_S1x1x1_S4x100352x1_0_1_2 reducesTo_S4x100352x1_S4x100352_d2 h_S_ bcast_S4x100352_S4x100352x4_0_1 bcast_S_S4x100352x4
          10000#32 9999#32 (constant (F := Ideal) S_ .f32 0x7FC00000#32)
          (V' (Proc.devRef .tc main_arg1) : S4x10000x4.Idx → Ideal .f32) (V' (Proc.devRef .tc main_v7) : S4x100352x1.Idx → BitVec 32) := by
  show get (TRef.of main_v8 : TRef sig ⟨S4x100352x4, .f32⟩) (after (hostOps0_5 (F := Ideal)) V')
      = takeAlong gather_S4x10000x4_S4x100352x1_S4x100352x4_2_1_0_0_1_2_114 bcast_S_S4x100352x1 bcast_S1_S1x1x1_2
          bcast_S1x1x1_S4x100352x1_0_1_2 reducesTo_S4x100352x1_S4x100352_d2 h_S_ bcast_S4x100352_S4x100352x4_0_1 bcast_S_S4x100352x4
          10000#32 9999#32 (constant (F := Ideal) S_ .f32 0x7FC00000#32)
          (get (TRef.of main_arg1 : TRef sig ⟨S4x10000x4, .f32⟩) V') (get (TRef.of main_v7 : TRef sig ⟨S4x100352x1, .i32⟩) V')
  simp (disch := decide) only [get_after_cons, get_after_nil, get_nullary, get_unary, get_binary, get_ternary,
    get_nullary_ne, get_unary_ne, get_binary_ne, get_ternary_ne]
  rfl

theorem sourceVecs (V' : Valuation τ sig (Elt Ideal)) :
    (after (hostOps0_7 (F := Ideal)) V' (Proc.devRef .tc main_v10) : S4x100352x128.Idx → Ideal .f32)
      = takeAlong gather_S4x10000x128_S4x100352x1_S4x100352x128_2_1_0_0_1_2_11128 bcast_S_S4x100352x1 bcast_S1_S1x1x1_2
          bcast_S1x1x1_S4x100352x1_0_1_2 reducesTo_S4x100352x1_S4x100352_d2 h_S_ bcast_S4x100352_S4x100352x128_0_1 bcast_S_S4x100352x128
          10000#32 9999#32 (constant (F := Ideal) S_ .f32 0x7FC00000#32)
          (V' (Proc.devRef .tc main_arg0) : S4x10000x128.Idx → Ideal .f32) (V' (Proc.devRef .tc main_v9) : S4x100352x1.Idx → BitVec 32) := by
  show get (TRef.of main_v10 : TRef sig ⟨S4x100352x128, .f32⟩) (after (hostOps0_7 (F := Ideal)) V')
      = takeAlong gather_S4x10000x128_S4x100352x1_S4x100352x128_2_1_0_0_1_2_11128 bcast_S_S4x100352x1 bcast_S1_S1x1x1_2
          bcast_S1x1x1_S4x100352x1_0_1_2 reducesTo_S4x100352x1_S4x100352_d2 h_S_ bcast_S4x100352_S4x100352x128_0_1 bcast_S_S4x100352x128
          10000#32 9999#32 (constant (F := Ideal) S_ .f32 0x7FC00000#32)
          (get (TRef.of main_arg0 : TRef sig ⟨S4x10000x128, .f32⟩) V') (get (TRef.of main_v9 : TRef sig ⟨S4x100352x1, .i32⟩) V')
  simp (disch := decide) only [get_after_cons, get_after_nil, get_nullary, get_unary, get_binary, get_ternary,
    get_nullary_ne, get_unary_ne, get_binary_ne, get_ternary_ne]
  rfl

theorem targetVecs (V' : Valuation τ sig (Elt Ideal)) :
    (after (hostOps0_9 (F := Ideal)) V' (Proc.devRef .tc main_v12) : S4x100352x128.Idx → Ideal .f32)
      = takeAlong gather_S4x10000x128_S4x100352x1_S4x100352x128_2_1_0_0_1_2_11128 bcast_S_S4x100352x1 bcast_S1_S1x1x1_2
          bcast_S1x1x1_S4x100352x1_0_1_2 reducesTo_S4x100352x1_S4x100352_d2 h_S_ bcast_S4x100352_S4x100352x128_0_1 bcast_S_S4x100352x128
          10000#32 9999#32 (constant (F := Ideal) S_ .f32 0x7FC00000#32)
          (V' (Proc.devRef .tc main_arg0) : S4x10000x128.Idx → Ideal .f32) (V' (Proc.devRef .tc main_v11) : S4x100352x1.Idx → BitVec 32) := by
  show get (TRef.of main_v12 : TRef sig ⟨S4x100352x128, .f32⟩) (after (hostOps0_9 (F := Ideal)) V')
      = takeAlong gather_S4x10000x128_S4x100352x1_S4x100352x128_2_1_0_0_1_2_11128 bcast_S_S4x100352x1 bcast_S1_S1x1x1_2
          bcast_S1x1x1_S4x100352x1_0_1_2 reducesTo_S4x100352x1_S4x100352_d2 h_S_ bcast_S4x100352_S4x100352x128_0_1 bcast_S_S4x100352x128
          10000#32 9999#32 (constant (F := Ideal) S_ .f32 0x7FC00000#32)
          (get (TRef.of main_arg0 : TRef sig ⟨S4x10000x128, .f32⟩) V') (get (TRef.of main_v11 : TRef sig ⟨S4x100352x1, .i32⟩) V')
  simp (disch := decide) only [get_after_cons, get_after_nil, get_nullary, get_unary, get_binary, get_ternary,
    get_nullary_ne, get_unary_ne, get_binary_ne, get_ternary_ne]
  rfl

/-- The padded list of edges. -/
theorem paddedEdges (V' : Valuation τ sig (Elt Ideal)) :
    (after (hostOps0_1 (F := Ideal)) V' (Proc.devRef .tc main_v0) : S4x100352x2.Idx → BitVec 32)
      = pad S4x100352x2 ![0, 0, 0] ![0, 352, 0] ![0, 0, 0] (V' (Proc.devRef .tc main_arg2) : S4x100000x2.Idx → BitVec 32)
          (u := S_) (id (V' (Proc.devRef .tc main_c) : S_.Idx → BitVec 32)) pads_S4x100000x2_S4x100352x2_000_03520_000 h_S_ := by
  show get (TRef.of main_v0 : TRef sig ⟨S4x100352x2, .i32⟩) (after (hostOps0_1 (F := Ideal)) V')
      = pad S4x100352x2 ![0, 0, 0] ![0, 352, 0] ![0, 0, 0]
          (get (TRef.of main_arg2 : TRef sig ⟨S4x100000x2, .i32⟩) V' : S4x100000x2.Idx → BitVec 32)
          (u := S_) (id (get (TRef.of main_c : TRef sig ⟨S_, .i32⟩) V') : S_.Idx → BitVec 32)
          pads_S4x100000x2_S4x100352x2_000_03520_000 h_S_
  simp (disch := decide) only [get_after_cons, get_after_nil, get_nullary, get_unary, get_binary, get_ternary,
    get_nullary_ne, get_unary_ne, get_binary_ne, get_ternary_ne]
  try rfl

/-- The source node numbers, the target node numbers, and the source numbers as a column. -/
theorem splitEdges (V' : Valuation τ sig (Elt Ideal)) :
    (after (hostOps0_2 (F := Ideal)) V' (Proc.devRef .tc main_v2) : S4x100352.Idx → BitVec 32)
        = shapeCast S4x100352 (extractStridedSlice S4x100352x1 ![0, 0, 0] (V' (Proc.devRef .tc main_v0) : S4x100352x2.Idx → BitVec 32)
            slices_S4x100352x2_S4x100352x1_0_0_0) shapeCasts_S4x100352x1_S4x100352
    ∧ (after (hostOps0_2 (F := Ideal)) V' (Proc.devRef .tc main_v4) : S4x100352.Idx → BitVec 32)
        = shapeCast S4x100352 (extractStridedSlice S4x100352x1 ![0, 0, 1] (V' (Proc.devRef .tc main_v0) : S4x100352x2.Idx → BitVec 32)
            slices_S4x100352x2_S4x100352x1_0_0_1) shapeCasts_S4x100352x1_S4x100352
    ∧ (after (hostOps0_2 (F := Ideal)) V' (Proc.devRef .tc main_v5) : S4x100352x1.Idx → BitVec 32)
        = broadcastInDim S4x100352x1 ![0, 1] bcast_S4x100352_S4x100352x1_0_1
            (shapeCast S4x100352 (extractStridedSlice S4x100352x1 ![0, 0, 0] (V' (Proc.devRef .tc main_v0) : S4x100352x2.Idx → BitVec 32)
              slices_S4x100352x2_S4x100352x1_0_0_0) shapeCasts_S4x100352x1_S4x100352) := by
  refine ⟨?_, ?_, ?_⟩ <;> (after_results <;> rfl)

/-- A list of node numbers as a column (three times, for the three later lookups). -/
theorem column4 (V' : Valuation τ sig (Elt Ideal)) :
    (after (hostOps0_4 (F := Ideal)) V' (Proc.devRef .tc main_v7) : S4x100352x1.Idx → BitVec 32)
      = broadcastInDim S4x100352x1 ![0, 1] bcast_S4x100352_S4x100352x1_0_1 (V' (Proc.devRef .tc main_v4) : S4x100352.Idx → BitVec 32) := by
  after_results <;> rfl
theorem column6 (V' : Valuation τ sig (Elt Ideal)) :
    (after (hostOps0_6 (F := Ideal)) V' (Proc.devRef .tc main_v9) : S4x100352x1.Idx → BitVec 32)
      = broadcastInDim S4x100352x1 ![0, 1] bcast_S4x100352_S4x100352x1_0_1 (V' (Proc.devRef .tc main_v2) : S4x100352.Idx → BitVec 32) := by
  after_results <;> rfl
theorem column8 (V' : Valuation τ sig (Elt Ideal)) :
    (after (hostOps0_8 (F := Ideal)) V' (Proc.devRef .tc main_v11) : S4x100352x1.Idx → BitVec 32)
      = broadcastInDim S4x100352x1 ![0, 1] bcast_S4x100352_S4x100352x1_0_1 (V' (Proc.devRef .tc main_v4) : S4x100352.Idx → BitVec 32) := by
  after_results <;> rfl

/-- The three arrays the kernel is launched on: the joined boxes, the source vectors, the target vectors, each with the
    batch and edge axes flattened into one. -/
theorem flattened (V' : Valuation τ sig (Elt Ideal)) :
    (after (hostOps0_10 (F := Ideal)) V' (Proc.devRef .tc main_v14) : S401408x8.Idx → Ideal .f32)
        = shapeCast S401408x8 (concatenate S4x100352x8 2 [⟨S4x100352x4, (V' (Proc.devRef .tc main_v6) : S4x100352x4.Idx → Ideal .f32)⟩,
            ⟨S4x100352x4, (V' (Proc.devRef .tc main_v8) : S4x100352x4.Idx → Ideal .f32)⟩] concatenates_S4x100352x4_S4x100352x4_S4x100352x8_d2)
            shapeCasts_S4x100352x8_S401408x8
    ∧ (after (hostOps0_10 (F := Ideal)) V' (Proc.devRef .tc main_v15) : S401408x128.Idx → Ideal .f32)
        = shapeCast S401408x128 (V' (Proc.devRef .tc main_v10) : S4x100352x128.Idx → Ideal .f32) shapeCasts_S4x100352x128_S401408x128
    ∧ (after (hostOps0_10 (F := Ideal)) V' (Proc.devRef .tc main_v16) : S401408x128.Idx → Ideal .f32)
        = shapeCast S401408x128 (V' (Proc.devRef .tc main_v12) : S4x100352x128.Idx → Ideal .f32) shapeCasts_S4x100352x128_S401408x128 := by
  refine ⟨?_, ?_, ?_⟩ <;> (after_results <;> rfl)

/-! ## The contents before the kernel, stretch by stretch -/

variable (m : (ℓ : Loc nD τ sig) → Buf (Elt Ideal) ℓ) (c : Dev nD)

/-- The launch contents of core `c`. -/
def W0 : Valuation τ sig (Elt Ideal) := fun b => m (c, b)
def W1 : Valuation τ sig (Elt Ideal) := after (hostOps0 (F := Ideal)) (W0 m c)
def W2 : Valuation τ sig (Elt Ideal) := after (hostOps0_1 (F := Ideal)) (W1 m c)
def W3 : Valuation τ sig (Elt Ideal) := after (hostOps0_2 (F := Ideal)) (W2 m c)
def W4 : Valuation τ sig (Elt Ideal) := after (hostOps0_3 (F := Ideal)) (W3 m c)
def W5 : Valuation τ sig (Elt Ideal) := after (hostOps0_4 (F := Ideal)) (W4 m c)
def W6 : Valuation τ sig (Elt Ideal) := after (hostOps0_5 (F := Ideal)) (W5 m c)
def W7 : Valuation τ sig (Elt Ideal) := after (hostOps0_6 (F := Ideal)) (W6 m c)
def W8 : Valuation τ sig (Elt Ideal) := after (hostOps0_7 (F := Ideal)) (W7 m c)
def W9 : Valuation τ sig (Elt Ideal) := after (hostOps0_8 (F := Ideal)) (W8 m c)
def W10 : Valuation τ sig (Elt Ideal) := after (hostOps0_9 (F := Ideal)) (W9 m c)
def W11 : Valuation τ sig (Elt Ideal) := after (hostOps0_10 (F := Ideal)) (W10 m c)

/-- The contents the kernel is launched on are the last of these. -/
theorem V0_eq : V0 m c = W11 m c := by
  show after (List.flatten [hostOps0, hostOps0_1, hostOps0_2, hostOps0_3, hostOps0_4, hostOps0_5, hostOps0_6, hostOps0_7, hostOps0_8,
    hostOps0_9, hostOps0_10]) (fun b => m (c, b)) = _
  simp only [List.flatten_cons, List.flatten_nil, List.append_nil, after_append]
  rfl

/-! ## What a stretch does not write it keeps -/

theorem edges_W1 : W1 m c (Proc.devRef .tc main_arg2) = W0 m c (Proc.devRef .tc main_arg2) :=
  (show after (hostOps0 (F := Ideal)) (W0 m c) (Proc.devRef .tc main_arg2) = W0 m c (Proc.devRef .tc main_arg2) from
      after_of_forall_not_mem _ _ (by decide))

theorem box_W3 : W3 m c (Proc.devRef .tc main_arg1) = W0 m c (Proc.devRef .tc main_arg1) :=
  (show after (hostOps0_2 (F := Ideal)) (W2 m c) (Proc.devRef .tc main_arg1) = W2 m c (Proc.devRef .tc main_arg1) from
      after_of_forall_not_mem _ _ (by decide)).trans <|
  (show after (hostOps0_1 (F := Ideal)) (W1 m c) (Proc.devRef .tc main_arg1) = W1 m c (Proc.devRef .tc main_arg1) from
      after_of_forall_not_mem _ _ (by decide)).trans <|
  (show after (hostOps0 (F := Ideal)) (W0 m c) (Proc.devRef .tc main_arg1) = W0 m c (Proc.devRef .tc main_arg1) from
      after_of_forall_not_mem _ _ (by decide))

theorem box_W5 : W5 m c (Proc.devRef .tc main_arg1) = W0 m c (Proc.devRef .tc main_arg1) :=
  (show after (hostOps0_4 (F := Ideal)) (W4 m c) (Proc.devRef .tc main_arg1) = W4 m c (Proc.devRef .tc main_arg1) from
      after_of_forall_not_mem _ _ (by decide)).trans <|
  (show after (hostOps0_3 (F := Ideal)) (W3 m c) (Proc.devRef .tc main_arg1) = W3 m c (Proc.devRef .tc main_arg1) from
      after_of_forall_not_mem _ _ (by decide)).trans <|
  (show after (hostOps0_2 (F := Ideal)) (W2 m c) (Proc.devRef .tc main_arg1) = W2 m c (Proc.devRef .tc main_arg1) from
      after_of_forall_not_mem _ _ (by decide)).trans <|
  (show after (hostOps0_1 (F := Ideal)) (W1 m c) (Proc.devRef .tc main_arg1) = W1 m c (Proc.devRef .tc main_arg1) from
      after_of_forall_not_mem _ _ (by decide)).trans <|
  (show after (hostOps0 (F := Ideal)) (W0 m c) (Proc.devRef .tc main_arg1) = W0 m c (Proc.devRef .tc main_arg1) from
      after_of_forall_not_mem _ _ (by decide))

theorem obj_W7 : W7 m c (Proc.devRef .tc main_arg0) = W0 m c (Proc.devRef .tc main_arg0) :=
  (show after (hostOps0_6 (F := Ideal)) (W6 m c) (Proc.devRef .tc main_arg0) = W6 m c (Proc.devRef .tc main_arg0) from
      after_of_forall_not_mem _ _ (by decide)).trans <|
  (show after (hostOps0_5 (F := Ideal)) (W5 m c) (Proc.devRef .tc main_arg0) = W5 m c (Proc.devRef .tc main_arg0) from
      after_of_forall_not_mem _ _ (by decide)).trans <|
  (show after (hostOps0_4 (F := Ideal)) (W4 m c) (Proc.devRef .tc main_arg0) = W4 m c (Proc.devRef .tc main_arg0) from
      after_of_forall_not_mem _ _ (by decide)).trans <|
  (show after (hostOps0_3 (F := Ideal)) (W3 m c) (Proc.devRef .tc main_arg0) = W3 m c (Proc.devRef .tc main_arg0) from
      after_of_forall_not_mem _ _ (by decide)).trans <|
  (show after (hostOps0_2 (F := Ideal)) (W2 m c) (Proc.devRef .tc main_arg0) = W2 m c (Proc.devRef .tc main_arg0) from
      after_of_forall_not_mem _ _ (by decide)).trans <|
  (show after (hostOps0_1 (F := Ideal)) (W1 m c) (Proc.devRef .tc main_arg0) = W1 m c (Proc.devRef .tc main_arg0) from
      after_of_forall_not_mem _ _ (by decide)).trans <|
  (show after (hostOps0 (F := Ideal)) (W0 m c) (Proc.devRef .tc main_arg0) = W0 m c (Proc.devRef .tc main_arg0) from
      after_of_forall_not_mem _ _ (by decide))

theorem obj_W9 : W9 m c (Proc.devRef .tc main_arg0) = W0 m c (Proc.devRef .tc main_arg0) :=
  (show after (hostOps0_8 (F := Ideal)) (W8 m c) (Proc.devRef .tc main_arg0) = W8 m c (Proc.devRef .tc main_arg0) from
      after_of_forall_not_mem _ _ (by decide)).trans <|
  (show after (hostOps0_7 (F := Ideal)) (W7 m c) (Proc.devRef .tc main_arg0) = W7 m c (Proc.devRef .tc main_arg0) from
      after_of_forall_not_mem _ _ (by decide)).trans <|
  (show after (hostOps0_6 (F := Ideal)) (W6 m c) (Proc.devRef .tc main_arg0) = W6 m c (Proc.devRef .tc main_arg0) from
      after_of_forall_not_mem _ _ (by decide)).trans <|
  (show after (hostOps0_5 (F := Ideal)) (W5 m c) (Proc.devRef .tc main_arg0) = W5 m c (Proc.devRef .tc main_arg0) from
      after_of_forall_not_mem _ _ (by decide)).trans <|
  (show after (hostOps0_4 (F := Ideal)) (W4 m c) (Proc.devRef .tc main_arg0) = W4 m c (Proc.devRef .tc main_arg0) from
      after_of_forall_not_mem _ _ (by decide)).trans <|
  (show after (hostOps0_3 (F := Ideal)) (W3 m c) (Proc.devRef .tc main_arg0) = W3 m c (Proc.devRef .tc main_arg0) from
      after_of_forall_not_mem _ _ (by decide)).trans <|
  (show after (hostOps0_2 (F := Ideal)) (W2 m c) (Proc.devRef .tc main_arg0) = W2 m c (Proc.devRef .tc main_arg0) from
      after_of_forall_not_mem _ _ (by decide)).trans <|
  (show after (hostOps0_1 (F := Ideal)) (W1 m c) (Proc.devRef .tc main_arg0) = W1 m c (Proc.devRef .tc main_arg0) from
      after_of_forall_not_mem _ _ (by decide)).trans <|
  (show after (hostOps0 (F := Ideal)) (W0 m c) (Proc.devRef .tc main_arg0) = W0 m c (Proc.devRef .tc main_arg0) from
      after_of_forall_not_mem _ _ (by decide))

theorem src_W6 : W6 m c (Proc.devRef .tc main_v2) = W3 m c (Proc.devRef .tc main_v2) :=
  (show after (hostOps0_5 (F := Ideal)) (W5 m c) (Proc.devRef .tc main_v2) = W5 m c (Proc.devRef .tc main_v2) from
      after_of_forall_not_mem _ _ (by decide)).trans <|
  (show after (hostOps0_4 (F := Ideal)) (W4 m c) (Proc.devRef .tc main_v2) = W4 m c (Proc.devRef .tc main_v2) from
      after_of_forall_not_mem _ _ (by decide)).trans <|
  (show after (hostOps0_3 (F := Ideal)) (W3 m c) (Proc.devRef .tc main_v2) = W3 m c (Proc.devRef .tc main_v2) from
      after_of_forall_not_mem _ _ (by decide))

theorem dst_W4 : W4 m c (Proc.devRef .tc main_v4) = W3 m c (Proc.devRef .tc main_v4) :=
  (show after (hostOps0_3 (F := Ideal)) (W3 m c) (Proc.devRef .tc main_v4) = W3 m c (Proc.devRef .tc main_v4) from
      after_of_forall_not_mem _ _ (by decide))

theorem dst_W8 : W8 m c (Proc.devRef .tc main_v4) = W3 m c (Proc.devRef .tc main_v4) :=
  (show after (hostOps0_7 (F := Ideal)) (W7 m c) (Proc.devRef .tc main_v4) = W7 m c (Proc.devRef .tc main_v4) from
      after_of_forall_not_mem _ _ (by decide)).trans <|
  (show after (hostOps0_6 (F := Ideal)) (W6 m c) (Proc.devRef .tc main_v4) = W6 m c (Proc.devRef .tc main_v4) from
      after_of_forall_not_mem _ _ (by decide)).trans <|
  (show after (hostOps0_5 (F := Ideal)) (W5 m c) (Proc.devRef .tc main_v4) = W5 m c (Proc.devRef .tc main_v4) from
      after_of_forall_not_mem _ _ (by decide)).trans <|
  (show after (hostOps0_4 (F := Ideal)) (W4 m c) (Proc.devRef .tc main_v4) = W4 m c (Proc.devRef .tc main_v4) from
      after_of_forall_not_mem _ _ (by decide)).trans <|
  (show after (hostOps0_3 (F := Ideal)) (W3 m c) (Proc.devRef .tc main_v4) = W3 m c (Proc.devRef .tc main_v4) from
      after_of_forall_not_mem _ _ (by decide))

theorem sboxes_W10 : W10 m c (Proc.devRef .tc main_v6) = W4 m c (Proc.devRef .tc main_v6) :=
  (show after (hostOps0_9 (F := Ideal)) (W9 m c) (Proc.devRef .tc main_v6) = W9 m c (Proc.devRef .tc main_v6) from
      after_of_forall_not_mem _ _ (by decide)).trans <|
  (show after (hostOps0_8 (F := Ideal)) (W8 m c) (Proc.devRef .tc main_v6) = W8 m c (Proc.devRef .tc main_v6) from
      after_of_forall_not_mem _ _ (by decide)).trans <|
  (show after (hostOps0_7 (F := Ideal)) (W7 m c) (Proc.devRef .tc main_v6) = W7 m c (Proc.devRef .tc main_v6) from
      after_of_forall_not_mem _ _ (by decide)).trans <|
  (show after (hostOps0_6 (F := Ideal)) (W6 m c) (Proc.devRef .tc main_v6) = W6 m c (Proc.devRef .tc main_v6) from
      after_of_forall_not_mem _ _ (by decide)).trans <|
  (show after (hostOps0_5 (F := Ideal)) (W5 m c) (Proc.devRef .tc main_v6) = W5 m c (Proc.devRef .tc main_v6) from
      after_of_forall_not_mem _ _ (by decide)).trans <|
  (show after (hostOps0_4 (F := Ideal)) (W4 m c) (Proc.devRef .tc main_v6) = W4 m c (Proc.devRef .tc main_v6) from
      after_of_forall_not_mem _ _ (by decide))

theorem tboxes_W10 : W10 m c (Proc.devRef .tc main_v8) = W6 m c (Proc.devRef .tc main_v8) :=
  (show after (hostOps0_9 (F := Ideal)) (W9 m c) (Proc.devRef .tc main_v8) = W9 m c (Proc.devRef .tc main_v8) from
      after_of_forall_not_mem _ _ (by decide)).trans <|
  (show after (hostOps0_8 (F := Ideal)) (W8 m c) (Proc.devRef .tc main_v8) = W8 m c (Proc.devRef .tc main_v8) from
      after_of_forall_not_mem _ _ (by decide)).trans <|
  (show after (hostOps0_7 (F := Ideal)) (W7 m c) (Proc.devRef .tc main_v8) = W7 m c (Proc.devRef .tc main_v8) from
      after_of_forall_not_mem _ _ (by decide)).trans <|
  (show after (hostOps0_6 (F := Ideal)) (W6 m c) (Proc.devRef .tc main_v8) = W6 m c (Proc.devRef .tc main_v8) from
      after_of_forall_not_mem _ _ (by decide))

theorem svecs_W10 : W10 m c (Proc.devRef .tc main_v10) = W8 m c (Proc.devRef .tc main_v10) :=
  (show after (hostOps0_9 (F := Ideal)) (W9 m c) (Proc.devRef .tc main_v10) = W9 m c (Proc.devRef .tc main_v10) from
      after_of_forall_not_mem _ _ (by decide)).trans <|
  (show after (hostOps0_8 (F := Ideal)) (W8 m c) (Proc.devRef .tc main_v10) = W8 m c (Proc.devRef .tc main_v10) from
      after_of_forall_not_mem _ _ (by decide))

end Cert.KernelIdeal.HostValue

end
-- ==== Proof.LibBatched3.lean ====
/-
  Batches of matrices on the host, read at an index by coordinates, at the exact instance and for any extents.

  A batch of matrices is a rank-3 array `[a, b, n]`: batch element, row, position in the row. This file reads, at an
  index written by its three coordinates,

  * the four layouts a per-row (or per-column) quantity of each batch element goes through to be combined with the
    matrices themselves: `[a, b] → [a, b, 1]` and `[a, b, 1] → [a, b, n]` (a per-row value kept as a last unit axis,
    then repeated along the row), `[a, b] → [a, 1, b]` and `[a, 1, b] → [a, n, b]` (a per-column value laid as one
    row, then repeated down the rows);
  * the host's sum over the last axis, at (batch element, row): the initial value plus the sum of the row's entries;
  * the host's batched product of rows by rows — batch on the first axis of both operands, the last axis of both
    contracted — at (batch element, i, j): the sum over the position of row i of the left operand times row j of the
    right one, both in that batch element.
-/
import Idealize.ShloMosaic.Lib.ValueLayout
import Idealize.ShloMosaic.Lib.IdealHost
import Idealize.ShloMosaic.PureOps.Ideal.Laws

noncomputable section

namespace Cert.LibBatched3

open Idealize.ShloMosaic Idealize.ShloMosaic.ValueIdx
open scoped BigOperators

variable {α : Type}

/-! ## Layouts -/

/-- `[a, b] → [a, b, 1]` (`dims = [0, 1]`) reads, at `(p, q, u)`, the operand at `(p, q)`. -/
theorem broadcastInDim_ab_ab1_apply {a b : ℕ} (x : (⟨2, ![a, b]⟩ : Shape).Idx → α)
    (h : (⟨2, ![a, b]⟩ : Shape).BroadcastsInDim ⟨3, ![a, b, 1]⟩ (![0, 1] : Fin 2 → Fin (⟨3, ![a, b, 1]⟩ : Shape).rank))
    (p : Fin a) (q : Fin b) (u : Fin 1) :
    broadcastInDim ⟨3, ![a, b, 1]⟩ ![0, 1] h x (ix3 p q u) = x (ix2 p q) := by
  refine broadcastInDim_apply _ h x (ix3 p q u) (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- `[a, b, 1] → [a, b, n]` (`dims = [0, 1, 2]`) reads, at `(p, q, k)`, the operand at `(p, q, 0)`. -/
theorem broadcastInDim_ab1_abn_apply {a b n : ℕ} (x : (⟨3, ![a, b, 1]⟩ : Shape).Idx → α)
    (h : (⟨3, ![a, b, 1]⟩ : Shape).BroadcastsInDim ⟨3, ![a, b, n]⟩ (![0, 1, 2] : Fin 3 → Fin (⟨3, ![a, b, n]⟩ : Shape).rank))
    (p : Fin a) (q : Fin b) (k : Fin n) :
    broadcastInDim ⟨3, ![a, b, n]⟩ ![0, 1, 2] h x (ix3 p q k) = x (ix3 p q (0 : Fin 1)) := by
  refine broadcastInDim_apply _ h x (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => exact (if_pos rfl).symm

/-- `[a, b] → [a, 1, b]` (`dims = [0, 2]`) reads, at `(p, u, q)`, the operand at `(p, q)`. -/
theorem broadcastInDim_ab_a1b_apply {a b : ℕ} (x : (⟨2, ![a, b]⟩ : Shape).Idx → α)
    (h : (⟨2, ![a, b]⟩ : Shape).BroadcastsInDim ⟨3, ![a, 1, b]⟩ (![0, 2] : Fin 2 → Fin (⟨3, ![a, 1, b]⟩ : Shape).rank))
    (p : Fin a) (u : Fin 1) (q : Fin b) :
    broadcastInDim ⟨3, ![a, 1, b]⟩ ![0, 2] h x (ix3 p u q) = x (ix2 p q) := by
  refine broadcastInDim_apply _ h x (ix3 p u q) (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- `[a, 1, b] → [a, n, b]` (`dims = [0, 1, 2]`) reads, at `(p, k, q)`, the operand at `(p, 0, q)`. -/
theorem broadcastInDim_a1b_anb_apply {a b n : ℕ} (x : (⟨3, ![a, 1, b]⟩ : Shape).Idx → α)
    (h : (⟨3, ![a, 1, b]⟩ : Shape).BroadcastsInDim ⟨3, ![a, n, b]⟩ (![0, 1, 2] : Fin 3 → Fin (⟨3, ![a, n, b]⟩ : Shape).rank))
    (p : Fin a) (k : Fin n) (q : Fin b) :
    broadcastInDim ⟨3, ![a, n, b]⟩ ![0, 1, 2] h x (ix3 p k q) = x (ix3 p (0 : Fin 1) q) := by
  refine broadcastInDim_apply _ h x (ix3 p k q) (ix3 p (0 : Fin 1) q) fun ax => ?_
  match ax with
  | ⟨0, _⟩ =>
    show p.val = if a = 1 then 0 else p.val
    split
    · have := p.isLt; omega
    · rfl
  | ⟨1, _⟩ => exact (if_pos rfl).symm
  | ⟨2, _⟩ =>
    show q.val = if b = 1 then 0 else q.val
    split
    · have := q.isLt; omega
    · rfl

/-! ## The sum over the last axis -/

/-- (batch element, row) with the coordinate `k` put back on the dropped last axis is the index `(p, q, k)`. -/
theorem lift_lastAxis3 {a b n : ℕ} (h : (⟨3, ![a, b, n]⟩ : Shape).Reduces [2] ⟨2, ![a, b]⟩) (p : Fin a) (q : Fin b)
    (k : Fin n) : h.lift (ix2 p q) k = ix3 p q k := by
  funext c
  apply Fin.ext
  show h.liftVal (ix2 p q) k.val c = _
  unfold Shape.Reduces.liftVal
  match c with
  | ⟨0, _⟩ => exact (dif_neg (show ¬((0 : ℕ) = 2) by omega)).trans (dif_pos (show (0 : ℕ) < 2 by omega))
  | ⟨1, _⟩ => exact (dif_neg (show ¬((1 : ℕ) = 2) by omega)).trans (dif_pos (show (1 : ℕ) < 2 by omega))
  | ⟨2, _⟩ => exact dif_pos (show (2 : ℕ) = 2 from rfl)

/-- The host's sum of a batch of matrices over the last axis, at (batch element `p`, row `q`): the initial value plus the
    sum of that row's entries. -/
theorem hostLastAxisSum3_apply {φ : FTy} {a b n : ℕ} {u : Shape} (x : FVec Ideal ⟨3, ![a, b, n]⟩ φ) (init : u.Idx → Ideal φ)
    (h' : (⟨3, ![a, b, n]⟩ : Shape).ReducesTo [2] ⟨2, ![a, b]⟩) (h : (⟨3, ![a, b, n]⟩ : Shape).Reduces [2] ⟨2, ![a, b]⟩)
    (hu : 0 < u.numel) (p : Fin a) (q : Fin b) :
    Host.reduceAdd x init h' hu (ix2 p q) = init (Shape.Idx.first hu) + ∑ k : Fin n, x (ix3 p q k) :=
  (hostReduceAdd_apply x init h' hu (ix2 p q)).trans
    ((Ideal.hostReduceAdd_single h' h x _ (ix2 p q)).trans
      (congrArg (init (Shape.Idx.first hu) + ·) (Finset.sum_congr rfl fun k _ => congrArg x (lift_lastAxis3 h p q k))))

/-! ## Rows by rows, batch element by batch element -/

/-- The dimension record of a batched product of rows by rows: batch on axis 0 of both operands, axis 2 of both
    contracted, the result `[B, M, N]`. A printed program's own record with these six lists is this one by `rfl`. -/
def rowsByRows (B M N K : ℕ)
    (wf : DotDims.WF ⟨3, ![B, M, K]⟩ ⟨3, ![B, N, K]⟩ ⟨3, ![B, M, N]⟩ [2] [2] [1] [1] [0] [0]) :
    DotDims ⟨3, ![B, M, K]⟩ ⟨3, ![B, N, K]⟩ ⟨3, ![B, M, N]⟩ where
  lhsContracting := [2]
  rhsContracting := [2]
  lhsNonContracting := [1]
  rhsNonContracting := [1]
  lhsBatch := [0]
  rhsBatch := [0]
  wf := wf

section RowsByRows

variable {B M N K : ℕ} (wf : DotDims.WF ⟨3, ![B, M, K]⟩ ⟨3, ![B, N, K]⟩ ⟨3, ![B, M, N]⟩ [2] [2] [1] [1] [0] [0])

theorem rbr_rank : (rowsByRows B M N K wf).contr.rank = 1 := rfl
theorem rbr_size : (rowsByRows B M N K wf).contr.size ⟨0, by rw [rbr_rank]; exact Nat.one_pos⟩ = K := rfl

/-- The left operand is read in the output's batch element and at the output's row. -/
theorem rbr_lhs_batch (b : Fin B) (i : Fin M) (j : Fin N) (k : (rowsByRows B M N K wf).contr.Idx) :
    ((rowsByRows B M N K wf).lhsIdx (ix3 b i j) k (0 : Fin 3)).val = b.val := rfl
theorem rbr_lhs_row (b : Fin B) (i : Fin M) (j : Fin N) (k : (rowsByRows B M N K wf).contr.Idx) :
    ((rowsByRows B M N K wf).lhsIdx (ix3 b i j) k (1 : Fin 3)).val = i.val := rfl
/-- The right operand is read in the output's batch element and at the row the output's column names. -/
theorem rbr_rhs_batch (b : Fin B) (i : Fin M) (j : Fin N) (k : (rowsByRows B M N K wf).contr.Idx) :
    ((rowsByRows B M N K wf).rhsIdx (ix3 b i j) k (0 : Fin 3)).val = b.val := rfl
theorem rbr_rhs_row (b : Fin B) (i : Fin M) (j : Fin N) (k : (rowsByRows B M N K wf).contr.Idx) :
    ((rowsByRows B M N K wf).rhsIdx (ix3 b i j) k (1 : Fin 3)).val = j.val := rfl

/-- The host's batched product of rows by rows at `(b, i, j)`: the sum over the position `k` of the left operand at
    `(b, i, k)` times the right operand at `(b, j, k)`. -/
theorem dotGeneral_rowsByRows_apply {φ₁ φ₂ : FTy} (prec : Option ContractPrecision)
    (l : FVec Ideal ⟨3, ![B, M, K]⟩ φ₁) (r : FVec Ideal ⟨3, ![B, N, K]⟩ φ₂) (b : Fin B) (i : Fin M) (j : Fin N) :
    Host.dotGeneral (rowsByRows B M N K wf) prec l r (ix3 b i j) = ∑ k : Fin K, l (ix3 b i k) * r (ix3 b j k) := by
  show FloatOps.dotGeneral (rowsByRows B M N K wf) prec .single l r (ix3 b i j) = _
  rw [Ideal.dotGeneral_apply, ← Equiv.sum_comp (contrEquiv1 (rowsByRows B M N K wf) K (rbr_rank wf) (rbr_size wf)).symm]
  refine Finset.sum_congr rfl fun k _ => ?_
  have hl : (rowsByRows B M N K wf).lhsIdx (ix3 b i j) ((contrEquiv1 (rowsByRows B M N K wf) K (rbr_rank wf) (rbr_size wf)).symm k)
      = ix3 b i k := by
    funext ax
    refine Fin.ext ?_
    match ax with
    | ⟨0, _⟩ => exact rbr_lhs_batch wf b i j _
    | ⟨1, _⟩ => exact rbr_lhs_row wf b i j _
    | ⟨2, _⟩ =>
      rw [show (⟨2, by decide⟩ : Fin 3) = (2 : Fin 3) from rfl,
        DotDims.lhsIdx_val_of_single (rowsByRows B M N K wf) (cl := (2 : Fin 3)) rfl]
      exact contrEquiv1_symm_val (rowsByRows B M N K wf) K (rbr_rank wf) (rbr_size wf) k
  have hr : (rowsByRows B M N K wf).rhsIdx (ix3 b i j) ((contrEquiv1 (rowsByRows B M N K wf) K (rbr_rank wf) (rbr_size wf)).symm k)
      = ix3 b j k := by
    funext ax
    refine Fin.ext ?_
    match ax with
    | ⟨0, _⟩ => exact rbr_rhs_batch wf b i j _
    | ⟨1, _⟩ => exact rbr_rhs_row wf b i j _
    | ⟨2, _⟩ =>
      rw [show (⟨2, by decide⟩ : Fin 3) = (2 : Fin 3) from rfl,
        DotDims.rhsIdx_val_of_single (rowsByRows B M N K wf) (cr := (2 : Fin 3)) rfl]
      exact contrEquiv1_symm_val (rowsByRows B M N K wf) K (rbr_rank wf) (rbr_size wf) k
  rw [hl, hr]

end RowsByRows

end Cert.LibBatched3

end
-- ==== Proof.LibReshapeRows.lean ====
/-
  A flattened leading axis split into rows and columns by a shape cast, read at an index.

  An array of shape [n, c] with n = a · b is the array of shape [a, b, c] with the same row-major order: position
  (i, j) of the split axes is position i · b + j of the flat axis, and position p of the flat axis is position
  (p / b, p % b) of the split axes. These are the two directions a kernel takes when it computes on pixels as a flat
  axis (a matrix product over all pixels) and on pixels as rows and columns (a stencil).
-/
import Idealize.ShloMosaic.Lib.ValueIdx
import Idealize.ShloMosaic.Lib.Pipeline.Value

noncomputable section

namespace Cert.LibReshapeRows

open Idealize.ShloMosaic Idealize.ShloMosaic.ValueIdx

variable {α : Type} {n a b c : ℕ}

theorem flat_lt (hn : n = a * b) (i : Fin a) (j : Fin b) : i.val * b + j.val < n := by
  subst hn
  calc i.val * b + j.val < i.val * b + b := Nat.add_lt_add_left j.isLt _
    _ = (i.val + 1) * b := (Nat.succ_mul _ _).symm
    _ ≤ a * b := Nat.mul_le_mul_right _ i.isLt

/-- [n, c] cast to [a, b, c]: at (i, j, l) it reads the flat array at (i · b + j, l). -/
theorem shapeCast_flat_to_rows (hn : n = a * b) (x : (⟨2, ![n, c]⟩ : Shape).Idx → α)
    (h : (⟨2, ![n, c]⟩ : Shape).ShapeCasts ⟨3, ![a, b, c]⟩) (i : Fin a) (j : Fin b) (l : Fin c) :
    shapeCast ⟨3, ![a, b, c]⟩ x h (ix3 i j l) = x (ix2 ⟨i.val * b + j.val, flat_lt hn i j⟩ l) :=
  shapeCast_apply x h _ _ (by
    rw [Shape.rowMajor_val_three, Shape.rowMajor_val_two]
    rfl)

theorem div_lt (hn : n = a * b) (p : Fin n) : p.val / b < a := by
  have hp := p.isLt
  subst hn
  exact Nat.div_lt_of_lt_mul (Nat.mul_comm a b ▸ hp)

theorem mod_lt (hn : n = a * b) (p : Fin n) : p.val % b < b := by
  have hp := p.isLt
  subst hn
  refine Nat.mod_lt _ (Nat.pos_of_ne_zero fun hb => ?_)
  subst hb
  simp at hp

/-- [a, b, c] cast to [n, c]: at (p, l) it reads the split array at (p / b, p % b, l). -/
theorem shapeCast_rows_to_flat (hn : n = a * b) (x : (⟨3, ![a, b, c]⟩ : Shape).Idx → α)
    (h : (⟨3, ![a, b, c]⟩ : Shape).ShapeCasts ⟨2, ![n, c]⟩) (p : Fin n) (l : Fin c) :
    shapeCast ⟨2, ![n, c]⟩ x h (ix2 p l) = x (ix3 ⟨p.val / b, div_lt hn p⟩ ⟨p.val % b, mod_lt hn p⟩ l) :=
  shapeCast_apply x h _ _ (by
    rw [Shape.rowMajor_val_three, Shape.rowMajor_val_two]
    show (p.val / b * b + p.val % b) * c + l.val = p.val * c + l.val
    rw [Nat.div_add_mod' p.val b])

/-! ## Two leading and two trailing axes flattened pairwise: [a, b, c, d] ↔ [a·b, c·d] -/

variable {d k : ℕ}

/-- [a, b, c, d] cast to [a·b, c·d]: at (r, p) it reads the four-axis array at (r / b, r % b, p / d, p % d). -/
theorem shapeCast_4d_to_2d (hn : n = a * b) (hk : k = c * d) (x : (⟨4, ![a, b, c, d]⟩ : Shape).Idx → α)
    (h : (⟨4, ![a, b, c, d]⟩ : Shape).ShapeCasts ⟨2, ![n, k]⟩) (r : Fin n) (p : Fin k) :
    shapeCast ⟨2, ![n, k]⟩ x h (ix2 r p)
      = x (ix4 ⟨r.val / b, div_lt hn r⟩ ⟨r.val % b, mod_lt hn r⟩ ⟨p.val / d, div_lt hk p⟩ ⟨p.val % d, mod_lt hk p⟩) :=
  shapeCast_apply x h _ _ (by
    rw [Shape.rowMajor_val_four, Shape.rowMajor_val_two]
    show ((r.val / b * b + r.val % b) * c + p.val / d) * d + p.val % d = r.val * k + p.val
    rw [Nat.div_add_mod' r.val b, Nat.add_mul, Nat.add_assoc, Nat.div_add_mod' p.val d, Nat.mul_assoc, ← hk])

/-- [a·b, c·d] cast to [a, b, c, d]: at (i, j, u, v) it reads the two-axis array at (i · b + j, u · d + v). -/
theorem shapeCast_2d_to_4d (hn : n = a * b) (hk : k = c * d) (x : (⟨2, ![n, k]⟩ : Shape).Idx → α)
    (h : (⟨2, ![n, k]⟩ : Shape).ShapeCasts ⟨4, ![a, b, c, d]⟩) (i : Fin a) (j : Fin b) (u : Fin c) (v : Fin d) :
    shapeCast ⟨4, ![a, b, c, d]⟩ x h (ix4 i j u v)
      = x (ix2 ⟨i.val * b + j.val, flat_lt hn i j⟩ ⟨u.val * d + v.val, flat_lt hk u v⟩) :=
  shapeCast_apply x h _ _ (by
    rw [Shape.rowMajor_val_four, Shape.rowMajor_val_two]
    show (i.val * b + j.val) * k + (u.val * d + v.val) = ((i.val * b + j.val) * c + u.val) * d + v.val
    rw [hk, Nat.add_mul ((i.val * b + j.val) * c), Nat.mul_assoc, Nat.add_assoc])

end Cert.LibReshapeRows

end
-- ==== Proof.KernelHostAt.lean ====
/-
  The arrays the kernel is launched on, read at a row.

  Row b · 100352 + t of the three launched arrays belongs to edge t of graph b (for t below 100000; the remaining rows
  belong to padding and are cut off after the kernel). Reading the entry point's line of operations backwards from the
  flattened arrays — the flattening, the join of the two boxes, a lookup, the column of node numbers it is driven by,
  the split of the edge list, the padding — gives each entry as a lookup in a table of the launch contents by a node
  number of the launch contents' edge list: exactly the pieces of the edge's feature row.
-/
import proofs.«165707_j13941463842948_1_alg».proof.Proof.KernelHost
import proofs.«165707_j13941463842948_1_alg».proof.Proof.Spec
import proofs.«165707_j13941463842948_1_alg».proof.Proof.LibBatched3
import proofs.«165707_j13941463842948_1_alg».proof.Proof.LibReshapeRows
import Idealize.ShloMosaic.Lib.KernelVsHost

noncomputable section

namespace Cert.KernelIdeal.HostValue

open Cert.KernelIdeal Cert.KernelIdeal.Gen Cert.KernelIdeal.GenP Idealize.ShloMosaic Idealize.ShloMosaic.StableHlo
open Idealize.ShloMosaic.TcCoe Idealize.SL.Sem Idealize.ShloMosaic.ValueIdx
open Cert.LibTakeAlong Cert.LibBatchedRowGather Cert.LibBatched3 Cert.LibReshapeRows Cert.EdgeScore

variable (m : (ℓ : Loc nD τ sig) → Buf (Elt Ideal) ℓ) (c : Dev nD)

/-- The source node number of edge (b, t), for an edge that is not padding. -/
theorem srcNum (b : Fin 4) (t : Fin 100352) (ht : t.val < 100000) :
    (W3 m c (Proc.devRef .tc main_v2) : S4x100352.Idx → BitVec 32) (ix2 b t)
      = (W0 m c (Proc.devRef .tc main_arg2) : S4x100000x2.Idx → BitVec 32) (ix3 b (⟨t.val, ht⟩ : Fin 100000) (0 : Fin 2)) := by
  refine (congrFun (show (W3 m c (Proc.devRef .tc main_v2) : S4x100352.Idx → BitVec 32) = _ from (splitEdges (W2 m c)).1) _).trans ?_
  refine (shapeCast_apply _ _ (ix2 b t) (ix3 b t (0 : Fin 1)) (by
    rw [Shape.rowMajor_val_three, Shape.rowMajor_val_two]
    show (b.val * 100352 + t.val) * 1 + 0 = b.val * 100352 + t.val
    omega)).trans ?_
  refine (extractStridedSlice_apply _ _ _ (ix3 b t (0 : Fin 1)) (ix3 b t (0 : Fin 2)) (fun a => by
    match a with
    | ⟨0, _⟩ => show b.val = 0 + b.val; omega
    | ⟨1, _⟩ => show t.val = 0 + t.val; omega
    | ⟨2, _⟩ => show 0 = 0 + 0; rfl)).trans ?_
  refine (congrFun (show (W2 m c (Proc.devRef .tc main_v0) : S4x100352x2.Idx → BitVec 32) = _ from paddedEdges (W1 m c)) _).trans ?_
  refine (pad_apply_of_inside _ _ _ _ _ _ _ (ix3 b t (0 : Fin 2)) (ix3 b (⟨t.val, ht⟩ : Fin 100000) (0 : Fin 2)) (fun a => by
    match a with
    | ⟨0, _⟩ => show b.val = 0 + b.val * (0 + 1); omega
    | ⟨1, _⟩ => show t.val = 0 + t.val * (0 + 1); omega
    | ⟨2, _⟩ => show 0 = 0 + 0 * (0 + 1); rfl)).trans ?_
  exact congrFun (edges_W1 m c) _

/-- The target node number of edge (b, t), for an edge that is not padding. -/
theorem dstNum (b : Fin 4) (t : Fin 100352) (ht : t.val < 100000) :
    (W3 m c (Proc.devRef .tc main_v4) : S4x100352.Idx → BitVec 32) (ix2 b t)
      = (W0 m c (Proc.devRef .tc main_arg2) : S4x100000x2.Idx → BitVec 32) (ix3 b (⟨t.val, ht⟩ : Fin 100000) (1 : Fin 2)) := by
  refine (congrFun (show (W3 m c (Proc.devRef .tc main_v4) : S4x100352.Idx → BitVec 32) = _ from (splitEdges (W2 m c)).2.1) _).trans ?_
  refine (shapeCast_apply _ _ (ix2 b t) (ix3 b t (0 : Fin 1)) (by
    rw [Shape.rowMajor_val_three, Shape.rowMajor_val_two]
    show (b.val * 100352 + t.val) * 1 + 0 = b.val * 100352 + t.val
    omega)).trans ?_
  refine (extractStridedSlice_apply _ _ _ (ix3 b t (0 : Fin 1)) (ix3 b t (1 : Fin 2)) (fun a => by
    match a with
    | ⟨0, _⟩ => show b.val = 0 + b.val; omega
    | ⟨1, _⟩ => show t.val = 0 + t.val; omega
    | ⟨2, _⟩ => show 1 = 1 + 0; rfl)).trans ?_
  refine (congrFun (show (W2 m c (Proc.devRef .tc main_v0) : S4x100352x2.Idx → BitVec 32) = _ from paddedEdges (W1 m c)) _).trans ?_
  refine (pad_apply_of_inside _ _ _ _ _ _ _ (ix3 b t (1 : Fin 2)) (ix3 b (⟨t.val, ht⟩ : Fin 100000) (1 : Fin 2)) (fun a => by
    match a with
    | ⟨0, _⟩ => show b.val = 0 + b.val * (0 + 1); omega
    | ⟨1, _⟩ => show t.val = 0 + t.val * (0 + 1); omega
    | ⟨2, _⟩ => show 1 = 0 + 1 * (0 + 1); rfl)).trans ?_
  exact congrFun (edges_W1 m c) _

/-- The column of source numbers the first lookup is driven by, at (b, t, 0). -/
theorem srcColumn (b : Fin 4) (t : Fin 100352) :
    (W3 m c (Proc.devRef .tc main_v5) : S4x100352x1.Idx → BitVec 32) (ix3 b t (0 : Fin 1))
      = (W3 m c (Proc.devRef .tc main_v2) : S4x100352.Idx → BitVec 32) (ix2 b t) := by
  have h5 := (splitEdges (W2 m c)).2.2
  have h2 := (splitEdges (W2 m c)).1
  rw [← h2] at h5
  refine (congrFun (show (W3 m c (Proc.devRef .tc main_v5) : S4x100352x1.Idx → BitVec 32) = _ from h5) _).trans ?_
  exact broadcastInDim_ab_ab1_apply _ _ b t (0 : Fin 1)

/-- The source node's box of edge (b, t). -/
theorem sboxAt (b : Fin 4) (t : Fin 100352) (k : Fin 4) :
    (W4 m c (Proc.devRef .tc main_v6) : S4x100352x4.Idx → Ideal .f32) (ix3 b t k)
      = lookup (N := 10000) (by decide) 10000#32 9999#32 fillWord (W0 m c (Proc.devRef .tc main_arg1) : S4x10000x4.Idx → Ideal .f32)
          ((W3 m c (Proc.devRef .tc main_v2) : S4x100352.Idx → BitVec 32) (ix2 b t)) b k := by
  refine (congrFun (show (W4 m c (Proc.devRef .tc main_v6) : S4x100352x4.Idx → Ideal .f32) = _ from sourceBoxes (W3 m c)) _).trans ?_
  rw [show gather_S4x10000x4_S4x100352x1_S4x100352x4_2_1_0_0_1_2_114 = rowsDims 4 10000 100352 4 gather_S4x10000x4_S4x100352x1_S4x100352x4_2_1_0_0_1_2_114.wf from rfl]
  refine (takeAlong_apply (N := 10000) (by decide) _ _ _ _ _ (by decide) _ _ _ _ _ _ _ _ b t k).trans ?_
  rw [show (W3 m c (Proc.devRef .tc main_arg1) : S4x10000x4.Idx → Ideal .f32) = W0 m c (Proc.devRef .tc main_arg1) from box_W3 m c]
  rw [srcColumn m c b t]
  rfl

/-- The target node's box of edge (b, t). -/
theorem tboxAt (b : Fin 4) (t : Fin 100352) (k : Fin 4) :
    (W6 m c (Proc.devRef .tc main_v8) : S4x100352x4.Idx → Ideal .f32) (ix3 b t k)
      = lookup (N := 10000) (by decide) 10000#32 9999#32 fillWord (W0 m c (Proc.devRef .tc main_arg1) : S4x10000x4.Idx → Ideal .f32)
          ((W3 m c (Proc.devRef .tc main_v4) : S4x100352.Idx → BitVec 32) (ix2 b t)) b k := by
  refine (congrFun (show (W6 m c (Proc.devRef .tc main_v8) : S4x100352x4.Idx → Ideal .f32) = _ from targetBoxes (W5 m c)) _).trans ?_
  rw [show gather_S4x10000x4_S4x100352x1_S4x100352x4_2_1_0_0_1_2_114 = rowsDims 4 10000 100352 4 gather_S4x10000x4_S4x100352x1_S4x100352x4_2_1_0_0_1_2_114.wf from rfl]
  refine (takeAlong_apply (N := 10000) (by decide) _ _ _ _ _ (by decide) _ _ _ _ _ _ _ _ b t k).trans ?_
  rw [show (W5 m c (Proc.devRef .tc main_arg1) : S4x10000x4.Idx → Ideal .f32) = W0 m c (Proc.devRef .tc main_arg1) from box_W5 m c]
  rw [show (W5 m c (Proc.devRef .tc main_v7) : S4x100352x1.Idx → BitVec 32) (ix3 b t (0 : Fin 1))
      = (W3 m c (Proc.devRef .tc main_v4) : S4x100352.Idx → BitVec 32) (ix2 b t) from
    (congrFun (show (W5 m c (Proc.devRef .tc main_v7) : S4x100352x1.Idx → BitVec 32) = _ from column4 (W4 m c)) _).trans
      ((broadcastInDim_ab_ab1_apply _ _ b t (0 : Fin 1)).trans (congrFun (dst_W4 m c) _))]
  rfl

/-- The source node's vector of edge (b, t). -/
theorem svecAt (b : Fin 4) (t : Fin 100352) (k : Fin 128) :
    (W8 m c (Proc.devRef .tc main_v10) : S4x100352x128.Idx → Ideal .f32) (ix3 b t k)
      = lookup (N := 10000) (by decide) 10000#32 9999#32 fillWord (W0 m c (Proc.devRef .tc main_arg0) : S4x10000x128.Idx → Ideal .f32)
          ((W3 m c (Proc.devRef .tc main_v2) : S4x100352.Idx → BitVec 32) (ix2 b t)) b k := by
  refine (congrFun (show (W8 m c (Proc.devRef .tc main_v10) : S4x100352x128.Idx → Ideal .f32) = _ from sourceVecs (W7 m c)) _).trans ?_
  rw [show gather_S4x10000x128_S4x100352x1_S4x100352x128_2_1_0_0_1_2_11128 = rowsDims 4 10000 100352 128 gather_S4x10000x128_S4x100352x1_S4x100352x128_2_1_0_0_1_2_11128.wf from rfl]
  refine (takeAlong_apply (N := 10000) (by decide) _ _ _ _ _ (by decide) _ _ _ _ _ _ _ _ b t k).trans ?_
  rw [show (W7 m c (Proc.devRef .tc main_arg0) : S4x10000x128.Idx → Ideal .f32) = W0 m c (Proc.devRef .tc main_arg0) from obj_W7 m c]
  rw [show (W7 m c (Proc.devRef .tc main_v9) : S4x100352x1.Idx → BitVec 32) (ix3 b t (0 : Fin 1))
      = (W3 m c (Proc.devRef .tc main_v2) : S4x100352.Idx → BitVec 32) (ix2 b t) from
    (congrFun (show (W7 m c (Proc.devRef .tc main_v9) : S4x100352x1.Idx → BitVec 32) = _ from column6 (W6 m c)) _).trans
      ((broadcastInDim_ab_ab1_apply _ _ b t (0 : Fin 1)).trans (congrFun (src_W6 m c) _))]
  rfl

/-- The target node's vector of edge (b, t). -/
theorem tvecAt (b : Fin 4) (t : Fin 100352) (k : Fin 128) :
    (W10 m c (Proc.devRef .tc main_v12) : S4x100352x128.Idx → Ideal .f32) (ix3 b t k)
      = lookup (N := 10000) (by decide) 10000#32 9999#32 fillWord (W0 m c (Proc.devRef .tc main_arg0) : S4x10000x128.Idx → Ideal .f32)
          ((W3 m c (Proc.devRef .tc main_v4) : S4x100352.Idx → BitVec 32) (ix2 b t)) b k := by
  refine (congrFun (show (W10 m c (Proc.devRef .tc main_v12) : S4x100352x128.Idx → Ideal .f32) = _ from targetVecs (W9 m c)) _).trans ?_
  rw [show gather_S4x10000x128_S4x100352x1_S4x100352x128_2_1_0_0_1_2_11128 = rowsDims 4 10000 100352 128 gather_S4x10000x128_S4x100352x1_S4x100352x128_2_1_0_0_1_2_11128.wf from rfl]
  refine (takeAlong_apply (N := 10000) (by decide) _ _ _ _ _ (by decide) _ _ _ _ _ _ _ _ b t k).trans ?_
  rw [show (W9 m c (Proc.devRef .tc main_arg0) : S4x10000x128.Idx → Ideal .f32) = W0 m c (Proc.devRef .tc main_arg0) from obj_W9 m c]
  rw [show (W9 m c (Proc.devRef .tc main_v11) : S4x100352x1.Idx → BitVec 32) (ix3 b t (0 : Fin 1))
      = (W3 m c (Proc.devRef .tc main_v4) : S4x100352.Idx → BitVec 32) (ix2 b t) from
    (congrFun (show (W9 m c (Proc.devRef .tc main_v11) : S4x100352x1.Idx → BitVec 32) = _ from column8 (W8 m c)) _).trans
      ((broadcastInDim_ab_ab1_apply _ _ b t (0 : Fin 1)).trans (congrFun (dst_W8 m c) _))]
  rfl

end Cert.KernelIdeal.HostValue

end
-- ==== Proof.KernelLaunched.lean ====
/-
  The arrays the kernel is launched on, at the row of an edge, in the specification's words.

  Row b · 100352 + t of the flattened arrays is position (b, t) of the batched ones (the quotient and the remainder of
  the row number by 100352). There the joined boxes hold the source node's box in columns 0–3 and the target node's in
  columns 4–7, and the two vector arrays hold the endpoint vectors: the three pieces of edge (b, t)'s feature row.
-/
import proofs.«165707_j13941463842948_1_alg».proof.Proof.KernelHostAt

noncomputable section

namespace Cert.KernelIdeal.HostValue

open Cert.KernelIdeal Cert.KernelIdeal.Gen Cert.KernelIdeal.GenP Idealize.ShloMosaic Idealize.ShloMosaic.StableHlo
open Idealize.ShloMosaic.TcCoe Idealize.SL.Sem Idealize.ShloMosaic.ValueIdx
open Cert.LibTakeAlong Cert.LibBatchedRowGather Cert.LibBatched3 Cert.LibReshapeRows Cert.EdgeScore

variable (m : (ℓ : Loc nD τ sig) → Buf (Elt Ideal) ℓ) (c : Dev nD)

/-- The source vector of edge (b, t) is row b · 100352 + t of the second launched array. -/
theorem svecRow (b : Fin 4) (t : Fin 100000) (k : Fin 128) :
    (V m c main_v15 : S401408x128.Idx → Ideal .f32) (ix2 (⟨b.val * 100352 + t.val, by have := b.isLt; have := t.isLt; omega⟩ : Fin 401408) k)
      = nodeRow (W0 m c (Proc.devRef .tc main_arg0) : S4x10000x128.Idx → Ideal .f32)
          ((W0 m c (Proc.devRef .tc main_arg2) : S4x100000x2.Idx → BitVec 32) (ix3 b t (0 : Fin 2))) b k := by
  show (V0 m c (Proc.devRef .tc main_v15) : S401408x128.Idx → Ideal .f32) _ = _
  rw [V0_eq]
  refine (congrFun (show (W11 m c (Proc.devRef .tc main_v15) : S401408x128.Idx → Ideal .f32) = _ from (flattened (W10 m c)).2.1) _).trans ?_
  refine (shapeCast_rows_to_flat (a := 4) (b := 100352) (c := 128) (n := 401408) rfl _ _ (⟨b.val * 100352 + t.val, by have := b.isLt; have := t.isLt; omega⟩ : Fin 401408) k).trans ?_
  rw [show (⟨(b.val * 100352 + t.val) / 100352, div_lt (a := 4) (b := 100352) (n := 401408) rfl (⟨b.val * 100352 + t.val, by have := b.isLt; have := t.isLt; omega⟩ : Fin 401408)⟩ : Fin 4) = b from
      Fin.ext (by have := t.isLt; show (b.val * 100352 + t.val) / 100352 = b.val; omega),
    show (⟨(b.val * 100352 + t.val) % 100352, mod_lt (a := 4) (b := 100352) (n := 401408) rfl (⟨b.val * 100352 + t.val, by have := b.isLt; have := t.isLt; omega⟩ : Fin 401408)⟩ : Fin 100352) = (⟨t.val, by have := t.isLt; omega⟩ : Fin 100352) from
      Fin.ext (by have := t.isLt; show (b.val * 100352 + t.val) % 100352 = t.val; omega)]
  rw [show (W10 m c (Proc.devRef .tc main_v10) : S4x100352x128.Idx → Ideal .f32) = W8 m c (Proc.devRef .tc main_v10) from svecs_W10 m c]
  refine (svecAt m c b (⟨t.val, by have := t.isLt; omega⟩ : Fin 100352) k).trans ?_
  rw [srcNum m c b (⟨t.val, by have := t.isLt; omega⟩ : Fin 100352) t.isLt]
  rfl

/-- The target vector of edge (b, t) is row b · 100352 + t of the third launched array. -/
theorem tvecRow (b : Fin 4) (t : Fin 100000) (k : Fin 128) :
    (V m c main_v16 : S401408x128.Idx → Ideal .f32) (ix2 (⟨b.val * 100352 + t.val, by have := b.isLt; have := t.isLt; omega⟩ : Fin 401408) k)
      = nodeRow (W0 m c (Proc.devRef .tc main_arg0) : S4x10000x128.Idx → Ideal .f32)
          ((W0 m c (Proc.devRef .tc main_arg2) : S4x100000x2.Idx → BitVec 32) (ix3 b t (1 : Fin 2))) b k := by
  show (V0 m c (Proc.devRef .tc main_v16) : S401408x128.Idx → Ideal .f32) _ = _
  rw [V0_eq]
  refine (congrFun (show (W11 m c (Proc.devRef .tc main_v16) : S401408x128.Idx → Ideal .f32) = _ from (flattened (W10 m c)).2.2) _).trans ?_
  refine (shapeCast_rows_to_flat (a := 4) (b := 100352) (c := 128) (n := 401408) rfl _ _ (⟨b.val * 100352 + t.val, by have := b.isLt; have := t.isLt; omega⟩ : Fin 401408) k).trans ?_
  rw [show (⟨(b.val * 100352 + t.val) / 100352, div_lt (a := 4) (b := 100352) (n := 401408) rfl (⟨b.val * 100352 + t.val, by have := b.isLt; have := t.isLt; omega⟩ : Fin 401408)⟩ : Fin 4) = b from
      Fin.ext (by have := t.isLt; show (b.val * 100352 + t.val) / 100352 = b.val; omega),
    show (⟨(b.val * 100352 + t.val) % 100352, mod_lt (a := 4) (b := 100352) (n := 401408) rfl (⟨b.val * 100352 + t.val, by have := b.isLt; have := t.isLt; omega⟩ : Fin 401408)⟩ : Fin 100352) = (⟨t.val, by have := t.isLt; omega⟩ : Fin 100352) from
      Fin.ext (by have := t.isLt; show (b.val * 100352 + t.val) % 100352 = t.val; omega)]

  refine (tvecAt m c b (⟨t.val, by have := t.isLt; omega⟩ : Fin 100352) k).trans ?_
  rw [dstNum m c b (⟨t.val, by have := t.isLt; omega⟩ : Fin 100352) t.isLt]
  rfl

/-- The eight box numbers of edge (b, t) are row b · 100352 + t of the first launched array. -/
theorem boxesRow (b : Fin 4) (t : Fin 100000) (k : Fin 8) :
    (V m c main_v14 : S401408x8.Idx → Ideal .f32) (ix2 (⟨b.val * 100352 + t.val, by have := b.isLt; have := t.isLt; omega⟩ : Fin 401408) k)
      = boxes (W0 m c (Proc.devRef .tc main_arg1) : S4x10000x4.Idx → Ideal .f32)
          ((W0 m c (Proc.devRef .tc main_arg2) : S4x100000x2.Idx → BitVec 32) (ix3 b t (0 : Fin 2)))
          ((W0 m c (Proc.devRef .tc main_arg2) : S4x100000x2.Idx → BitVec 32) (ix3 b t (1 : Fin 2))) b k := by
  show (V0 m c (Proc.devRef .tc main_v14) : S401408x8.Idx → Ideal .f32) _ = _
  rw [V0_eq]
  refine (congrFun (show (W11 m c (Proc.devRef .tc main_v14) : S401408x8.Idx → Ideal .f32) = _ from (flattened (W10 m c)).1) _).trans ?_
  refine (shapeCast_rows_to_flat (a := 4) (b := 100352) (c := 8) (n := 401408) rfl _ _ (⟨b.val * 100352 + t.val, by have := b.isLt; have := t.isLt; omega⟩ : Fin 401408) k).trans ?_
  rw [show (⟨(b.val * 100352 + t.val) / 100352, div_lt (a := 4) (b := 100352) (n := 401408) rfl (⟨b.val * 100352 + t.val, by have := b.isLt; have := t.isLt; omega⟩ : Fin 401408)⟩ : Fin 4) = b from
      Fin.ext (by have := t.isLt; show (b.val * 100352 + t.val) / 100352 = b.val; omega),
    show (⟨(b.val * 100352 + t.val) % 100352, mod_lt (a := 4) (b := 100352) (n := 401408) rfl (⟨b.val * 100352 + t.val, by have := b.isLt; have := t.isLt; omega⟩ : Fin 401408)⟩ : Fin 100352) = (⟨t.val, by have := t.isLt; omega⟩ : Fin 100352) from
      Fin.ext (by have := t.isLt; show (b.val * 100352 + t.val) % 100352 = t.val; omega)]
  unfold boxes
  by_cases hk : k.val < 4
  · rw [dif_pos hk]
    refine (concatenate_pair_apply_left (t := S4x100352x8) (s₁ := S4x100352x4) (s₂ := S4x100352x4) (2 : Fin 3) _ _ _ (ix3 b (⟨t.val, by have := t.isLt; omega⟩ : Fin 100352) k) rfl (ix3 b (⟨t.val, by have := t.isLt; omega⟩ : Fin 100352) (⟨k.val, hk⟩ : Fin 4)) (fun a => by
      match a with
      | ⟨0, _⟩ => rfl
      | ⟨1, _⟩ => rfl
      | ⟨2, _⟩ => rfl)).trans ?_
    rw [show (W10 m c (Proc.devRef .tc main_v6) : S4x100352x4.Idx → Ideal .f32) = W4 m c (Proc.devRef .tc main_v6) from sboxes_W10 m c]
    refine (sboxAt m c b (⟨t.val, by have := t.isLt; omega⟩ : Fin 100352) (⟨k.val, hk⟩ : Fin 4)).trans ?_
    rw [srcNum m c b (⟨t.val, by have := t.isLt; omega⟩ : Fin 100352) t.isLt]
    rfl
  · rw [dif_neg hk]
    have hk8 : k.val < 8 := k.isLt
    refine (concatenate_pair_apply_right (t := S4x100352x8) (s₁ := S4x100352x4) (s₂ := S4x100352x4) (2 : Fin 3) _ _ _ (ix3 b (⟨t.val, by have := t.isLt; omega⟩ : Fin 100352) k) rfl rfl (ix3 b (⟨t.val, by have := t.isLt; omega⟩ : Fin 100352) (⟨k.val - 4, by omega⟩ : Fin 4)) (fun a ha => by
      match a with
      | ⟨0, _⟩ => rfl
      | ⟨1, _⟩ => rfl
      | ⟨2, _⟩ => exact absurd rfl ha) (by show (k.val - 4) + 4 = k.val; omega)).trans ?_
    rw [show (W10 m c (Proc.devRef .tc main_v8) : S4x100352x4.Idx → Ideal .f32) = W6 m c (Proc.devRef .tc main_v8) from tboxes_W10 m c]
    refine (tboxAt m c b (⟨t.val, by have := t.isLt; omega⟩ : Fin 100352) (⟨k.val - 4, by omega⟩ : Fin 4)).trans ?_
    rw [dstNum m c b (⟨t.val, by have := t.isLt; omega⟩ : Fin 100352) t.isLt]
    rfl

end Cert.KernelIdeal.HostValue

end
-- ==== Proof.KernelValue.lean ====
/-
  The kernel program's run and its result.

  After the kernel the entry point reshapes the output column of 4 · 100352 rows to [4, 100352] and cuts off the 352
  padding positions of each graph. Position (b, t) of the result is therefore row b · 100352 + t of the kernel's output
  array, which is the score of the row joined from the three launched arrays at that row — the three pieces of edge
  (b, t)'s feature row: the result is `edgeScore` of the argument arrays.
-/
import proofs.«165707_j13941463842948_1_alg».proof.Proof.KernelArray
import proofs.«165707_j13941463842948_1_alg».proof.Proof.KernelLaunched
import Idealize.ShloMosaic.Lib.Pipeline.FrameSuffix

set_option maxRecDepth 16384

noncomputable section

namespace Cert.KernelIdeal.ProgramValue

open Cert.KernelIdeal Cert.KernelIdeal.Gen Cert.KernelIdeal.GenP Cert.KernelIdeal.ArrayValue Cert.KernelIdeal.HostValue Cert.EdgeScore
open Idealize.ShloMosaic Idealize.ShloMosaic.StableHlo Idealize.ShloMosaic.ValueIdx Idealize.ShloMosaic.TcCoe Idealize.SL.Sem
open Idealize.ShloMosaic.Pipeline (Dat Cfg Window)

/-- The two operations after the kernel, as a function of the contents they find. -/
theorem tailOps (VA : Valuation τ sig (Elt Ideal)) :
    (after (hostOps1 (F := Ideal)) VA (Proc.devRef .tc main_v19) : S4x100000.Idx → Ideal .f32)
      = extractStridedSlice S4x100000 ![0, 0] (shapeCast S4x100352 (VA (Proc.devRef .tc main_v17) : S401408x1.Idx → Ideal .f32)
          shapeCasts_S401408x1_S4x100352) slices_S4x100352_S4x100000_0_0 := by
  after_results <;> rfl

variable (m : (ℓ : Loc nD τ sig) → Buf (Elt Ideal) ℓ) (ρ : Dev nD → PrngReg)

/-- The score of row b · 100352 + t of the launched arrays is the score of edge (b, t). -/
theorem rowScores_edge (c : Dev nD) (b : Fin 4) (t : Fin 100000) :
    rowScores (V m c main_v14) (V m c main_v15) (V m c main_v16) (V m c main_arg3) (V m c main_arg4) (V m c main_arg5)
        (V m c main_arg6) (V m c main_arg7) (V m c main_arg8) (V m c main_arg9) (V m c main_arg10) (V m c main_arg11)
        (V m c main_arg12) (V m c main_arg13) (V m c main_arg14)
        (ix2 (⟨b.val * 100352 + t.val, by have := b.isLt; have := t.isLt; omega⟩ : Fin 401408) (0 : Fin 1))
      = edgeScore (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (ix2 b t) := by
  show _ = score (featRow (m ((c.tc : Thread nD τ).loc main_arg0)) (m ((c.tc : Thread nD τ).loc main_arg1)) (m ((c.tc : Thread nD τ).loc main_arg2)) b t) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
  unfold rowScores featRow
  refine score_congr (joinRow_congr (funext fun k => ?_) (funext fun k => ?_) (funext fun k => ?_))
    (V_main_arg3 m c) (V_main_arg4 m c) (V_main_arg5 m c) (V_main_arg6 m c) (V_main_arg7 m c) (V_main_arg8 m c) (V_main_arg9 m c)
    (V_main_arg10 m c) (V_main_arg11 m c) (V_main_arg12 m c) (V_main_arg13 m c) (V_main_arg14 m c)
  · exact boxesRow m c b t k
  · exact svecRow m c b t k
  · exact tvecRow m c b t k

/-- THE RESULT of the kernel program on core c. -/
theorem tail_eq (c : Dev nD) :
    (Pipeline.afterTail₀ cfgs (dats m) 0 (V0 m) [hostOps1] c main_v19 : S4x100000.Idx → Ideal .f32)
      = edgeScore (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  funext i
  obtain ⟨b, t, rfl⟩ : ∃ (b : Fin 4) (t : Fin 100000), i = ix2 b t := ⟨i 0, i 1, eq_ix2 i⟩
  unfold Pipeline.afterTail₀
  show (after (hostOps1 (F := Ideal)) _ (Proc.devRef .tc main_v19) : S4x100000.Idx → Ideal .f32) (ix2 b t) = _
  rw [tailOps]
  refine (extractStridedSlice_apply _ _ _ (ix2 b t) (ix2 b (⟨t.val, by have := t.isLt; omega⟩ : Fin 100352)) (fun a => by
    match a with
    | ⟨0, _⟩ => show b.val = 0 + b.val; omega
    | ⟨1, _⟩ => show t.val = 0 + t.val; omega)).trans ?_
  refine (shapeCast_apply _ _ (ix2 b (⟨t.val, by have := t.isLt; omega⟩ : Fin 100352)) (ix2 (⟨b.val * 100352 + t.val, by have := b.isLt; have := t.isLt; omega⟩ : Fin 401408) (0 : Fin 1)) (by
    rw [Shape.rowMajor_val_two, Shape.rowMajor_val_two]
    show (b.val * 100352 + t.val) * 1 + 0 = b.val * 100352 + t.val
    omega)).trans ?_
  rw [show (Pipeline.withArrays (cfgs 0).spec c (V0 m c) (fun w => (dats m 0 c).arrAt w (cfgs 0).N) (Proc.devRef .tc main_v17)
      : S401408x1.Idx → Ideal .f32) = (dats m 0 c).arrAt 15 cfg0.N from
    Pipeline.withArrays_arr spec0 launch0.win.arr_inj c _ _ 15]
  rw [final m c]
  exact rowScores_edge m c b t

set_option maxHeartbeats 4000000 in
/-- Every weakly fair execution of the kernel program terminates, its result the score of every edge, its arguments
    unchanged. -/
theorem run : θ_run defs (onTc (τ := τ) (main (F := Ideal))) ⟨m, fun _ => 0, ρ⟩ (fun r => ∀ c : Dev nD,
      r.2.mem ((c.tc : Thread nD τ).loc main_v19) = edgeScore (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).2 main_v19 (Pipeline.mem_restRefs_of main_v19 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c))),
      ((h c).1 12).trans (((dats m 0 c).arrAt_in 12 rfl _).trans ((A_eq m c 12).trans (V_main_arg12 m c))),
      ((h c).1 13).trans (((dats m 0 c).arrAt_in 13 rfl _).trans ((A_eq m c 13).trans (V_main_arg13 m c))),
      ((h c).1 14).trans (((dats m 0 c).arrAt_in 14 rfl _).trans ((A_eq m c 14).trans (V_main_arg14 m c)))⟩) (run_main m ρ)

end Cert.KernelIdeal.ProgramValue

end
-- ==== Proof.RefRun.lean ====
/-
  The reference program's run.

  The reference is a straight line of host operations, so every weakly fair execution of it terminates, and each buffer
  ends holding the fold of the operations' results over the launch contents: the operations applied one after the other,
  each writing its own result buffer from the buffers written before it. Nothing is computed here; what a buffer holds is
  read later, a stretch of operations at a time.
-/
import proofs.«165707_j13941463842948_1_alg».proof.Proof.ReferenceRunP

noncomputable section

namespace Cert.ReferenceIdeal.RefRun

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-- Every weakly fair execution of the reference terminates with each buffer at the fold of the operations over the
    launch contents. -/
theorem run_after (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after (ops (F := F)) (launchContents m c) (Proc.devRef .tc b) :=
  run_seq scopedRefs_eq scopedSems_eq defs main (fun _ => ops) main_eq (fun _ => ops_sub) m ρ

end Cert.ReferenceIdeal.RefRun

end
-- ==== Proof.RefValueA.lean ====
/-
  The reference program cut into stretches.

  The 155 operations are a straight line, so running them all is running a first stretch and then the rest from what the
  first stretch left: `after (l₁ ++ l₂) V = after l₂ (after l₁ V)`. The line is cut where its character changes: the
  operations that prepare the two endpoint columns, each of the four row lookups, the concatenation, each matrix
  product, each normalisation, each rectifier, and the softmax with its row maximum. Each stretch writes its own
  buffers and no others, so a buffer a stretch does not write is read through it unchanged (`keep_…`).
-/
import proofs.«165707_j13941463842948_1_alg».proof.Proof.ReferenceRunP

noncomputable section

namespace Cert.ReferenceIdeal.RefValue

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-- Running two lines one after the other is running their concatenation. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih _

/-- An operation that writes the one buffer `y` writes inside any list of buffers that has `y`. -/
theorem writes_sub_of_mem {τ : Topo} {sig : RefSig} {Val : EltTy → Type} {W : List (Ref sig .tc)} {op : HloOp τ sig Val}
    (y : Ref sig .tc) (h : op.writes = {Proc.devRef .tc y}) (hy : y ∈ W) :
    op.writes ⊆ (W.map (Proc.devRef (τ := τ) .tc)).toFinset := by
  rw [h, Finset.singleton_subset_iff, List.mem_toFinset]
  exact List.mem_map_of_mem hy

/-- The two endpoint columns of the edge list, as row-number vectors. -/
def s0 : List (HloOp τ sig (Elt F)) :=
  [ unary main_arg2 main_v0 ((extractStridedSlice S4x100000x1 ![0, 0, 0] · slices_S4x100000x2_S4x100000x1_0_0_0) : (⟨S4x100000x2, .i32⟩ : BufTy).Contents (Elt F) → (⟨S4x100000x1, .i32⟩ : BufTy).Contents (Elt F)),
    reshape main_v0 main_v1 rfl shapeCasts_S4x100000x1_S4x100000,
    unary main_arg2 main_v2 ((extractStridedSlice S4x100000x1 ![0, 0, 1] · slices_S4x100000x2_S4x100000x1_0_0_1) : (⟨S4x100000x2, .i32⟩ : BufTy).Contents (Elt F) → (⟨S4x100000x1, .i32⟩ : BufTy).Contents (Elt F)),
    reshape main_v2 main_v3 rfl shapeCasts_S4x100000x1_S4x100000,
    unary main_v1 main_v4 (broadcastInDim S4x100000x1 ![0, 1] bcast_S4x100000_S4x100000x1_0_1 : (⟨S4x100000, .i32⟩ : BufTy).Contents (Elt F) → (⟨S4x100000x1, .i32⟩ : BufTy).Contents (Elt F)) ]

/-- The source nodes' boxes looked up. -/
def c0 : List (HloOp τ sig (Elt F)) :=
  [ TRef.nullary (TRef.of (T := ⟨S_, .i32⟩) main_call0_c) (constantI S_ 32 0#32),
    TRef.unary (TRef.of (T := ⟨S_, .i32⟩) main_call0_c) (TRef.of (T := ⟨S4x100000x1, .i32⟩) main_call0_v0) (broadcastInDim S4x100000x1 ![] bcast_S_S4x100000x1),
    TRef.binary (TRef.of (T := ⟨S4x100000x1, .i32⟩) main_v4) (TRef.of (T := ⟨S4x100000x1, .i32⟩) main_call0_v0) (TRef.of (T := ⟨S4x100000x1, .i1⟩) main_call0_v1) (cmpi .slt),
    TRef.nullary (TRef.of (T := ⟨S_, .i32⟩) main_call0_c_0) (constantI S_ 32 10000#32),
    TRef.unary (TRef.of (T := ⟨S_, .i32⟩) main_call0_c_0) (TRef.of (T := ⟨S4x100000x1, .i32⟩) main_call0_v2) (broadcastInDim S4x100000x1 ![] bcast_S_S4x100000x1),
    TRef.binary (TRef.of (T := ⟨S4x100000x1, .i32⟩) main_v4) (TRef.of (T := ⟨S4x100000x1, .i32⟩) main_call0_v2) (TRef.of (T := ⟨S4x100000x1, .i32⟩) main_call0_v3) addi,
    TRef.ternary (TRef.of (T := ⟨S4x100000x1, .i1⟩) main_call0_v1) (TRef.of (T := ⟨S4x100000x1, .i32⟩) main_call0_v3) (TRef.of (T := ⟨S4x100000x1, .i32⟩) main_v4) (TRef.of (T := ⟨S4x100000x1, .i32⟩) main_call0_v4) select,
    TRef.nullary (TRef.of (T := ⟨S1, .i32⟩) main_call0_c_1) (constantI S1 32 9999#32),
    TRef.nullary (TRef.of (T := ⟨S_, .i32⟩) main_call0_c_2) (constantI S_ 32 0#32),
    TRef.unary (TRef.of (T := ⟨S_, .i32⟩) main_call0_c_2) (TRef.of (T := ⟨S4x100000x1, .i32⟩) main_call0_v5) (broadcastInDim S4x100000x1 ![] bcast_S_S4x100000x1),
    TRef.binary (TRef.of (T := ⟨S4x100000x1, .i32⟩) main_call0_v4) (TRef.of (T := ⟨S4x100000x1, .i32⟩) main_call0_v5) (TRef.of (T := ⟨S4x100000x1, .i1⟩) main_call0_v6) (cmpi .sge),
    TRef.unary (TRef.of (T := ⟨S1, .i32⟩) main_call0_c_1) (TRef.of (T := ⟨S1x1x1, .i32⟩) main_call0_v7) (broadcastInDim S1x1x1 ![2] bcast_S1_S1x1x1_2),
    TRef.unary (TRef.of (T := ⟨S1x1x1, .i32⟩) main_call0_v7) (TRef.of (T := ⟨S4x100000x1, .i32⟩) main_call0_v8) (broadcastInDim S4x100000x1 ![0, 1, 2] bcast_S1x1x1_S4x100000x1_0_1_2),
    TRef.binary (TRef.of (T := ⟨S4x100000x1, .i32⟩) main_call0_v4) (TRef.of (T := ⟨S4x100000x1, .i32⟩) main_call0_v8) (TRef.of (T := ⟨S4x100000x1, .i1⟩) main_call0_v9) (cmpi .sle),
    TRef.binary (TRef.of (T := ⟨S4x100000x1, .i1⟩) main_call0_v6) (TRef.of (T := ⟨S4x100000x1, .i1⟩) main_call0_v9) (TRef.of (T := ⟨S4x100000x1, .i1⟩) main_call0_v10) andi,
    TRef.nullary (TRef.of (T := ⟨S_, .i1⟩) main_call0_c_3) (constantI S_ 1 1#1),
    TRef.binary (TRef.of (T := ⟨S4x100000x1, .i1⟩) main_call0_v10) (TRef.of (T := ⟨S_, .i1⟩) main_call0_c_3) (TRef.of (T := ⟨S4x100000, .i1⟩) main_call0_v11) (fun x v => Host.reduce IntOp.andi x v reducesTo_S4x100000x1_S4x100000_d2 h_S_),
    TRef.binary (TRef.of (T := ⟨S4x10000x4, .f32⟩) main_arg1) (TRef.of (T := ⟨S4x100000x1, .i32⟩) main_call0_v4) (TRef.of (T := ⟨S4x100000x4, .f32⟩) main_call0_v12) (fun x i => Host.gather gather_S4x10000x4_S4x100000x1_S4x100000x4_2_1_0_0_1_2_114 x i),
    TRef.unary (TRef.of (T := ⟨S4x100000, .i1⟩) main_call0_v11) (TRef.of (T := ⟨S4x100000x4, .i1⟩) main_call0_v13) (broadcastInDim S4x100000x4 ![0, 1] bcast_S4x100000_S4x100000x4_0_1),
    TRef.nullary (TRef.of (T := ⟨S_, .f32⟩) main_call0_cst) (constant S_ .f32 0x7FC00000#32),
    TRef.unary (TRef.of (T := ⟨S_, .f32⟩) main_call0_cst) (TRef.of (T := ⟨S4x100000x4, .f32⟩) main_call0_v14) (broadcastInDim S4x100000x4 ![] bcast_S_S4x100000x4),
    TRef.ternary (TRef.of (T := ⟨S4x100000x4, .i1⟩) main_call0_v13) (TRef.of (T := ⟨S4x100000x4, .f32⟩) main_call0_v12) (TRef.of (T := ⟨S4x100000x4, .f32⟩) main_call0_v14) (TRef.of (T := ⟨S4x100000x4, .f32⟩) main_v5) select ]

/-- The target column as a column of row numbers. -/
def p1 : List (HloOp τ sig (Elt F)) :=
  [ unary main_v3 main_v6 (broadcastInDim S4x100000x1 ![0, 1] bcast_S4x100000_S4x100000x1_0_1 : (⟨S4x100000, .i32⟩ : BufTy).Contents (Elt F) → (⟨S4x100000x1, .i32⟩ : BufTy).Contents (Elt F)) ]

/-- The target nodes' boxes looked up. -/
def c1 : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S4x100000x1, .i32⟩) main_call1_v0) (broadcastInDim S4x100000x1 ![] bcast_S_S4x100000x1),
    TRef.binary (TRef.of (T := ⟨S4x100000x1, .i32⟩) main_v6) (TRef.of (T := ⟨S4x100000x1, .i32⟩) main_call1_v0) (TRef.of (T := ⟨S4x100000x1, .i1⟩) main_call1_v1) (cmpi .slt),
    TRef.nullary (TRef.of (T := ⟨S_, .i32⟩) main_call1_c_0) (constantI S_ 32 10000#32),
    TRef.unary (TRef.of (T := ⟨S_, .i32⟩) main_call1_c_0) (TRef.of (T := ⟨S4x100000x1, .i32⟩) main_call1_v2) (broadcastInDim S4x100000x1 ![] bcast_S_S4x100000x1),
    TRef.binary (TRef.of (T := ⟨S4x100000x1, .i32⟩) main_v6) (TRef.of (T := ⟨S4x100000x1, .i32⟩) main_call1_v2) (TRef.of (T := ⟨S4x100000x1, .i32⟩) main_call1_v3) addi,
    TRef.ternary (TRef.of (T := ⟨S4x100000x1, .i1⟩) main_call1_v1) (TRef.of (T := ⟨S4x100000x1, .i32⟩) main_call1_v3) (TRef.of (T := ⟨S4x100000x1, .i32⟩) main_v6) (TRef.of (T := ⟨S4x100000x1, .i32⟩) main_call1_v4) select,
    TRef.nullary (TRef.of (T := ⟨S1, .i32⟩) main_call1_c_1) (constantI S1 32 9999#32),
    TRef.nullary (TRef.of (T := ⟨S_, .i32⟩) main_call1_c_2) (constantI S_ 32 0#32),
    TRef.unary (TRef.of (T := ⟨S_, .i32⟩) main_call1_c_2) (TRef.of (T := ⟨S4x100000x1, .i32⟩) main_call1_v5) (broadcastInDim S4x100000x1 ![] bcast_S_S4x100000x1),
    TRef.binary (TRef.of (T := ⟨S4x100000x1, .i32⟩) main_call1_v4) (TRef.of (T := ⟨S4x100000x1, .i32⟩) main_call1_v5) (TRef.of (T := ⟨S4x100000x1, .i1⟩) main_call1_v6) (cmpi .sge),
    TRef.unary (TRef.of (T := ⟨S1, .i32⟩) main_call1_c_1) (TRef.of (T := ⟨S1x1x1, .i32⟩) main_call1_v7) (broadcastInDim S1x1x1 ![2] bcast_S1_S1x1x1_2),
    TRef.unary (TRef.of (T := ⟨S1x1x1, .i32⟩) main_call1_v7) (TRef.of (T := ⟨S4x100000x1, .i32⟩) main_call1_v8) (broadcastInDim S4x100000x1 ![0, 1, 2] bcast_S1x1x1_S4x100000x1_0_1_2),
    TRef.binary (TRef.of (T := ⟨S4x100000x1, .i32⟩) main_call1_v4) (TRef.of (T := ⟨S4x100000x1, .i32⟩) main_call1_v8) (TRef.of (T := ⟨S4x100000x1, .i1⟩) main_call1_v9) (cmpi .sle),
    TRef.binary (TRef.of (T := ⟨S4x100000x1, .i1⟩) main_call1_v6) (TRef.of (T := ⟨S4x100000x1, .i1⟩) main_call1_v9) (TRef.of (T := ⟨S4x100000x1, .i1⟩) main_call1_v10) andi,
    TRef.nullary (TRef.of (T := ⟨S_, .i1⟩) main_call1_c_3) (constantI S_ 1 1#1),
    TRef.binary (TRef.of (T := ⟨S4x100000x1, .i1⟩) main_call1_v10) (TRef.of (T := ⟨S_, .i1⟩) main_call1_c_3) (TRef.of (T := ⟨S4x100000, .i1⟩) main_call1_v11) (fun x v => Host.reduce IntOp.andi x v reducesTo_S4x100000x1_S4x100000_d2 h_S_),
    TRef.binary (TRef.of (T := ⟨S4x10000x4, .f32⟩) main_arg1) (TRef.of (T := ⟨S4x100000x1, .i32⟩) main_call1_v4) (TRef.of (T := ⟨S4x100000x4, .f32⟩) main_call1_v12) (fun x i => Host.gather gather_S4x10000x4_S4x100000x1_S4x100000x4_2_1_0_0_1_2_114 x i),
    TRef.unary (TRef.of (T := ⟨S4x100000, .i1⟩) main_call1_v11) (TRef.of (T := ⟨S4x100000x4, .i1⟩) main_call1_v13) (broadcastInDim S4x100000x4 ![0, 1] bcast_S4x100000_S4x100000x4_0_1),
    TRef.nullary (TRef.of (T := ⟨S_, .f32⟩) main_call1_cst) (constant S_ .f32 0x7FC00000#32),
    TRef.unary (TRef.of (T := ⟨S_, .f32⟩) main_call1_cst) (TRef.of (T := ⟨S4x100000x4, .f32⟩) main_call1_v14) (broadcastInDim S4x100000x4 ![] bcast_S_S4x100000x4),
    TRef.ternary (TRef.of (T := ⟨S4x100000x4, .i1⟩) main_call1_v13) (TRef.of (T := ⟨S4x100000x4, .f32⟩) main_call1_v12) (TRef.of (T := ⟨S4x100000x4, .f32⟩) main_call1_v14) (TRef.of (T := ⟨S4x100000x4, .f32⟩) main_v7) select ]

/-- The source column again, for the vectors. -/
def p2 : List (HloOp τ sig (Elt F)) :=
  [ unary main_v1 main_v8 (broadcastInDim S4x100000x1 ![0, 1] bcast_S4x100000_S4x100000x1_0_1 : (⟨S4x100000, .i32⟩ : BufTy).Contents (Elt F) → (⟨S4x100000x1, .i32⟩ : BufTy).Contents (Elt F)) ]

/-- The source nodes' vectors looked up. -/
def c2 : List (HloOp τ sig (Elt F)) :=
  [ TRef.nullary (TRef.of (T := ⟨S_, .i32⟩) main_call2_c) (constantI S_ 32 0#32),
    TRef.unary (TRef.of (T := ⟨S_, .i32⟩) main_call2_c) (TRef.of (T := ⟨S4x100000x1, .i32⟩) main_call2_v0) (broadcastInDim S4x100000x1 ![] bcast_S_S4x100000x1),
    TRef.binary (TRef.of (T := ⟨S4x100000x1, .i32⟩) main_v8) (TRef.of (T := ⟨S4x100000x1, .i32⟩) main_call2_v0) (TRef.of (T := ⟨S4x100000x1, .i1⟩) main_call2_v1) (cmpi .slt),
    TRef.nullary (TRef.of (T := ⟨S_, .i32⟩) main_call2_c_0) (constantI S_ 32 10000#32),
    TRef.unary (TRef.of (T := ⟨S_, .i32⟩) main_call2_c_0) (TRef.of (T := ⟨S4x100000x1, .i32⟩) main_call2_v2) (broadcastInDim S4x100000x1 ![] bcast_S_S4x100000x1),
    TRef.binary (TRef.of (T := ⟨S4x100000x1, .i32⟩) main_v8) (TRef.of (T := ⟨S4x100000x1, .i32⟩) main_call2_v2) (TRef.of (T := ⟨S4x100000x1, .i32⟩) main_call2_v3) addi,
    TRef.ternary (TRef.of (T := ⟨S4x100000x1, .i1⟩) main_call2_v1) (TRef.of (T := ⟨S4x100000x1, .i32⟩) main_call2_v3) (TRef.of (T := ⟨S4x100000x1, .i32⟩) main_v8) (TRef.of (T := ⟨S4x100000x1, .i32⟩) main_call2_v4) select,
    TRef.nullary (TRef.of (T := ⟨S1, .i32⟩) main_call2_c_1) (constantI S1 32 9999#32),
    TRef.nullary (TRef.of (T := ⟨S_, .i32⟩) main_call2_c_2) (constantI S_ 32 0#32),
    TRef.unary (TRef.of (T := ⟨S_, .i32⟩) main_call2_c_2) (TRef.of (T := ⟨S4x100000x1, .i32⟩) main_call2_v5) (broadcastInDim S4x100000x1 ![] bcast_S_S4x100000x1),
    TRef.binary (TRef.of (T := ⟨S4x100000x1, .i32⟩) main_call2_v4) (TRef.of (T := ⟨S4x100000x1, .i32⟩) main_call2_v5) (TRef.of (T := ⟨S4x100000x1, .i1⟩) main_call2_v6) (cmpi .sge),
    TRef.unary (TRef.of (T := ⟨S1, .i32⟩) main_call2_c_1) (TRef.of (T := ⟨S1x1x1, .i32⟩) main_call2_v7) (broadcastInDim S1x1x1 ![2] bcast_S1_S1x1x1_2),
    TRef.unary (TRef.of (T := ⟨S1x1x1, .i32⟩) main_call2_v7) (TRef.of (T := ⟨S4x100000x1, .i32⟩) main_call2_v8) (broadcastInDim S4x100000x1 ![0, 1, 2] bcast_S1x1x1_S4x100000x1_0_1_2),
    TRef.binary (TRef.of (T := ⟨S4x100000x1, .i32⟩) main_call2_v4) (TRef.of (T := ⟨S4x100000x1, .i32⟩) main_call2_v8) (TRef.of (T := ⟨S4x100000x1, .i1⟩) main_call2_v9) (cmpi .sle),
    TRef.binary (TRef.of (T := ⟨S4x100000x1, .i1⟩) main_call2_v6) (TRef.of (T := ⟨S4x100000x1, .i1⟩) main_call2_v9) (TRef.of (T := ⟨S4x100000x1, .i1⟩) main_call2_v10) andi,
    TRef.nullary (TRef.of (T := ⟨S_, .i1⟩) main_call2_c_3) (constantI S_ 1 1#1),
    TRef.binary (TRef.of (T := ⟨S4x100000x1, .i1⟩) main_call2_v10) (TRef.of (T := ⟨S_, .i1⟩) main_call2_c_3) (TRef.of (T := ⟨S4x100000, .i1⟩) main_call2_v11) (fun x v => Host.reduce IntOp.andi x v reducesTo_S4x100000x1_S4x100000_d2 h_S_),
    TRef.binary (TRef.of (T := ⟨S4x10000x128, .f32⟩) main_arg0) (TRef.of (T := ⟨S4x100000x1, .i32⟩) main_call2_v4) (TRef.of (T := ⟨S4x100000x128, .f32⟩) main_call2_v12) (fun x i => Host.gather gather_S4x10000x128_S4x100000x1_S4x100000x128_2_1_0_0_1_2_11128 x i),
    TRef.unary (TRef.of (T := ⟨S4x100000, .i1⟩) main_call2_v11) (TRef.of (T := ⟨S4x100000x128, .i1⟩) main_call2_v13) (broadcastInDim S4x100000x128 ![0, 1] bcast_S4x100000_S4x100000x128_0_1),
    TRef.nullary (TRef.of (T := ⟨S_, .f32⟩) main_call2_cst) (constant S_ .f32 0x7FC00000#32),
    TRef.unary (TRef.of (T := ⟨S_, .f32⟩) main_call2_cst) (TRef.of (T := ⟨S4x100000x128, .f32⟩) main_call2_v14) (broadcastInDim S4x100000x128 ![] bcast_S_S4x100000x128),
    TRef.ternary (TRef.of (T := ⟨S4x100000x128, .i1⟩) main_call2_v13) (TRef.of (T := ⟨S4x100000x128, .f32⟩) main_call2_v12) (TRef.of (T := ⟨S4x100000x128, .f32⟩) main_call2_v14) (TRef.of (T := ⟨S4x100000x128, .f32⟩) main_v9) select ]

/-- The target column again, for the vectors. -/
def p3 : List (HloOp τ sig (Elt F)) :=
  [ unary main_v3 main_v10 (broadcastInDim S4x100000x1 ![0, 1] bcast_S4x100000_S4x100000x1_0_1 : (⟨S4x100000, .i32⟩ : BufTy).Contents (Elt F) → (⟨S4x100000x1, .i32⟩ : BufTy).Contents (Elt F)) ]

/-- The target nodes' vectors looked up. -/
def c3 : List (HloOp τ sig (Elt F)) :=
  [ TRef.nullary (TRef.of (T := ⟨S_, .i32⟩) main_call3_c) (constantI S_ 32 0#32),
    TRef.unary (TRef.of (T := ⟨S_, .i32⟩) main_call3_c) (TRef.of (T := ⟨S4x100000x1, .i32⟩) main_call3_v0) (broadcastInDim S4x100000x1 ![] bcast_S_S4x100000x1),
    TRef.binary (TRef.of (T := ⟨S4x100000x1, .i32⟩) main_v10) (TRef.of (T := ⟨S4x100000x1, .i32⟩) main_call3_v0) (TRef.of (T := ⟨S4x100000x1, .i1⟩) main_call3_v1) (cmpi .slt),
    TRef.nullary (TRef.of (T := ⟨S_, .i32⟩) main_call3_c_0) (constantI S_ 32 10000#32),
    TRef.unary (TRef.of (T := ⟨S_, .i32⟩) main_call3_c_0) (TRef.of (T := ⟨S4x100000x1, .i32⟩) main_call3_v2) (broadcastInDim S4x100000x1 ![] bcast_S_S4x100000x1),
    TRef.binary (TRef.of (T := ⟨S4x100000x1, .i32⟩) main_v10) (TRef.of (T := ⟨S4x100000x1, .i32⟩) main_call3_v2) (TRef.of (T := ⟨S4x100000x1, .i32⟩) main_call3_v3) addi,
    TRef.ternary (TRef.of (T := ⟨S4x100000x1, .i1⟩) main_call3_v1) (TRef.of (T := ⟨S4x100000x1, .i32⟩) main_call3_v3) (TRef.of (T := ⟨S4x100000x1, .i32⟩) main_v10) (TRef.of (T := ⟨S4x100000x1, .i32⟩) main_call3_v4) select,
    TRef.nullary (TRef.of (T := ⟨S1, .i32⟩) main_call3_c_1) (constantI S1 32 9999#32),
    TRef.nullary (TRef.of (T := ⟨S_, .i32⟩) main_call3_c_2) (constantI S_ 32 0#32),
    TRef.unary (TRef.of (T := ⟨S_, .i32⟩) main_call3_c_2) (TRef.of (T := ⟨S4x100000x1, .i32⟩) main_call3_v5) (broadcastInDim S4x100000x1 ![] bcast_S_S4x100000x1),
    TRef.binary (TRef.of (T := ⟨S4x100000x1, .i32⟩) main_call3_v4) (TRef.of (T := ⟨S4x100000x1, .i32⟩) main_call3_v5) (TRef.of (T := ⟨S4x100000x1, .i1⟩) main_call3_v6) (cmpi .sge),
    TRef.unary (TRef.of (T := ⟨S1, .i32⟩) main_call3_c_1) (TRef.of (T := ⟨S1x1x1, .i32⟩) main_call3_v7) (broadcastInDim S1x1x1 ![2] bcast_S1_S1x1x1_2),
    TRef.unary (TRef.of (T := ⟨S1x1x1, .i32⟩) main_call3_v7) (TRef.of (T := ⟨S4x100000x1, .i32⟩) main_call3_v8) (broadcastInDim S4x100000x1 ![0, 1, 2] bcast_S1x1x1_S4x100000x1_0_1_2),
    TRef.binary (TRef.of (T := ⟨S4x100000x1, .i32⟩) main_call3_v4) (TRef.of (T := ⟨S4x100000x1, .i32⟩) main_call3_v8) (TRef.of (T := ⟨S4x100000x1, .i1⟩) main_call3_v9) (cmpi .sle),
    TRef.binary (TRef.of (T := ⟨S4x100000x1, .i1⟩) main_call3_v6) (TRef.of (T := ⟨S4x100000x1, .i1⟩) main_call3_v9) (TRef.of (T := ⟨S4x100000x1, .i1⟩) main_call3_v10) andi,
    TRef.nullary (TRef.of (T := ⟨S_, .i1⟩) main_call3_c_3) (constantI S_ 1 1#1),
    TRef.binary (TRef.of (T := ⟨S4x100000x1, .i1⟩) main_call3_v10) (TRef.of (T := ⟨S_, .i1⟩) main_call3_c_3) (TRef.of (T := ⟨S4x100000, .i1⟩) main_call3_v11) (fun x v => Host.reduce IntOp.andi x v reducesTo_S4x100000x1_S4x100000_d2 h_S_),
    TRef.binary (TRef.of (T := ⟨S4x10000x128, .f32⟩) main_arg0) (TRef.of (T := ⟨S4x100000x1, .i32⟩) main_call3_v4) (TRef.of (T := ⟨S4x100000x128, .f32⟩) main_call3_v12) (fun x i => Host.gather gather_S4x10000x128_S4x100000x1_S4x100000x128_2_1_0_0_1_2_11128 x i),
    TRef.unary (TRef.of (T := ⟨S4x100000, .i1⟩) main_call3_v11) (TRef.of (T := ⟨S4x100000x128, .i1⟩) main_call3_v13) (broadcastInDim S4x100000x128 ![0, 1] bcast_S4x100000_S4x100000x128_0_1),
    TRef.nullary (TRef.of (T := ⟨S_, .f32⟩) main_call3_cst) (constant S_ .f32 0x7FC00000#32),
    TRef.unary (TRef.of (T := ⟨S_, .f32⟩) main_call3_cst) (TRef.of (T := ⟨S4x100000x128, .f32⟩) main_call3_v14) (broadcastInDim S4x100000x128 ![] bcast_S_S4x100000x128),
    TRef.ternary (TRef.of (T := ⟨S4x100000x128, .i1⟩) main_call3_v13) (TRef.of (T := ⟨S4x100000x128, .f32⟩) main_call3_v12) (TRef.of (T := ⟨S4x100000x128, .f32⟩) main_call3_v14) (TRef.of (T := ⟨S4x100000x128, .f32⟩) main_v11) select ]

/-- The four looked-up pieces joined into the feature rows. -/
def cat : List (HloOp τ sig (Elt F)) :=
  [ nary ![main_v5, main_v7, main_v9, main_v11] main_v12 (fun u => concatenate S4x100000x264 2 [⟨S4x100000x4, u 0⟩, ⟨S4x100000x4, u 1⟩, ⟨S4x100000x128, u 2⟩, ⟨S4x100000x128, u 3⟩] concatenates_S4x100000x4_S4x100000x4_S4x100000x128_S4x100000x128_S4x100000x264_d2) ]

/-- The first layer's matrix product. -/
def d1 : List (HloOp τ sig (Elt F)) :=
  [ binary main_v12 main_arg3 main_v13 ((fun l r => Host.dotGeneral dot_S4x100000x264_S264x512_S4x100000x512_2_0_01_1_n_n none l r) : (⟨S4x100000x264, .f32⟩ : BufTy).Contents (Elt F) → (⟨S264x512, .f32⟩ : BufTy).Contents (Elt F) → (⟨S4x100000x512, .f32⟩ : BufTy).Contents (Elt F)) ]

/-- The first layer's bias and normalisation. -/
def n1 : List (HloOp τ sig (Elt F)) :=
  [ unary main_arg4 main_v14 (broadcastInDim S1x1x512 ![2] bcast_S512_S1x1x512_2 : (⟨S512, .f32⟩ : BufTy).Contents (Elt F) → (⟨S1x1x512, .f32⟩ : BufTy).Contents (Elt F)),
    unary main_v14 main_v15 (broadcastInDim S4x100000x512 ![0, 1, 2] bcast_S1x1x512_S4x100000x512_0_1_2 : (⟨S1x1x512, .f32⟩ : BufTy).Contents (Elt F) → (⟨S4x100000x512, .f32⟩ : BufTy).Contents (Elt F)),
    binary main_v13 main_v15 main_v16 (addf : (⟨S4x100000x512, .f32⟩ : BufTy).Contents (Elt F) → (⟨S4x100000x512, .f32⟩ : BufTy).Contents (Elt F) → (⟨S4x100000x512, .f32⟩ : BufTy).Contents (Elt F)),
    unary main_arg7 main_v17 (broadcastInDim S1x1x512 ![2] bcast_S512_S1x1x512_2 : (⟨S512, .f32⟩ : BufTy).Contents (Elt F) → (⟨S1x1x512, .f32⟩ : BufTy).Contents (Elt F)),
    unary main_v17 main_v18 (broadcastInDim S4x100000x512 ![0, 1, 2] bcast_S1x1x512_S4x100000x512_0_1_2 : (⟨S1x1x512, .f32⟩ : BufTy).Contents (Elt F) → (⟨S4x100000x512, .f32⟩ : BufTy).Contents (Elt F)),
    binary main_v16 main_v18 main_v19 (subf : (⟨S4x100000x512, .f32⟩ : BufTy).Contents (Elt F) → (⟨S4x100000x512, .f32⟩ : BufTy).Contents (Elt F) → (⟨S4x100000x512, .f32⟩ : BufTy).Contents (Elt F)),
    nullary main_cst (constant S_ .f32 0x3A83126F#32),
    unary main_cst main_v20 (broadcastInDim S512 ![] bcast_S_S512 : (⟨S_, .f32⟩ : BufTy).Contents (Elt F) → (⟨S512, .f32⟩ : BufTy).Contents (Elt F)),
    binary main_arg8 main_v20 main_v21 (addf : (⟨S512, .f32⟩ : BufTy).Contents (Elt F) → (⟨S512, .f32⟩ : BufTy).Contents (Elt F) → (⟨S512, .f32⟩ : BufTy).Contents (Elt F)),
    unary main_v21 main_v22 (Host.rsqrt : (⟨S512, .f32⟩ : BufTy).Contents (Elt F) → (⟨S512, .f32⟩ : BufTy).Contents (Elt F)),
    binary main_arg5 main_v22 main_v23 (mulf : (⟨S512, .f32⟩ : BufTy).Contents (Elt F) → (⟨S512, .f32⟩ : BufTy).Contents (Elt F) → (⟨S512, .f32⟩ : BufTy).Contents (Elt F)),
    unary main_v23 main_v24 (broadcastInDim S1x1x512 ![2] bcast_S512_S1x1x512_2 : (⟨S512, .f32⟩ : BufTy).Contents (Elt F) → (⟨S1x1x512, .f32⟩ : BufTy).Contents (Elt F)),
    unary main_v24 main_v25 (broadcastInDim S4x100000x512 ![0, 1, 2] bcast_S1x1x512_S4x100000x512_0_1_2 : (⟨S1x1x512, .f32⟩ : BufTy).Contents (Elt F) → (⟨S4x100000x512, .f32⟩ : BufTy).Contents (Elt F)),
    binary main_v19 main_v25 main_v26 (mulf : (⟨S4x100000x512, .f32⟩ : BufTy).Contents (Elt F) → (⟨S4x100000x512, .f32⟩ : BufTy).Contents (Elt F) → (⟨S4x100000x512, .f32⟩ : BufTy).Contents (Elt F)),
    unary main_arg6 main_v27 (broadcastInDim S1x1x512 ![2] bcast_S512_S1x1x512_2 : (⟨S512, .f32⟩ : BufTy).Contents (Elt F) → (⟨S1x1x512, .f32⟩ : BufTy).Contents (Elt F)),
    unary main_v27 main_v28 (broadcastInDim S4x100000x512 ![0, 1, 2] bcast_S1x1x512_S4x100000x512_0_1_2 : (⟨S1x1x512, .f32⟩ : BufTy).Contents (Elt F) → (⟨S4x100000x512, .f32⟩ : BufTy).Contents (Elt F)),
    binary main_v26 main_v28 main_v29 (addf : (⟨S4x100000x512, .f32⟩ : BufTy).Contents (Elt F) → (⟨S4x100000x512, .f32⟩ : BufTy).Contents (Elt F) → (⟨S4x100000x512, .f32⟩ : BufTy).Contents (Elt F)) ]

/-- The first layer's rectifier. -/
def c4 : List (HloOp τ sig (Elt F)) :=
  [ TRef.nullary (TRef.of (T := ⟨S_, .f32⟩) main_call4_cst) (constant S_ .f32 0x00000000#32),
    TRef.unary (TRef.of (T := ⟨S_, .f32⟩) main_call4_cst) (TRef.of (T := ⟨S4x100000x512, .f32⟩) main_call4_v0) (broadcastInDim S4x100000x512 ![] bcast_S_S4x100000x512),
    TRef.binary (TRef.of (T := ⟨S4x100000x512, .f32⟩) main_v29) (TRef.of (T := ⟨S4x100000x512, .f32⟩) main_call4_v0) (TRef.of (T := ⟨S4x100000x512, .f32⟩) main_v30) maximumf ]

/-- The second layer's matrix product. -/
def d2 : List (HloOp τ sig (Elt F)) :=
  [ binary main_v30 main_arg9 main_v31 ((fun l r => Host.dotGeneral dot_S4x100000x512_S512x64_S4x100000x64_2_0_01_1_n_n none l r) : (⟨S4x100000x512, .f32⟩ : BufTy).Contents (Elt F) → (⟨S512x64, .f32⟩ : BufTy).Contents (Elt F) → (⟨S4x100000x64, .f32⟩ : BufTy).Contents (Elt F)) ]

/-- The second layer's bias and normalisation. -/
def n2 : List (HloOp τ sig (Elt F)) :=
  [ unary main_arg10 main_v32 (broadcastInDim S1x1x64 ![2] bcast_S64_S1x1x64_2 : (⟨S64, .f32⟩ : BufTy).Contents (Elt F) → (⟨S1x1x64, .f32⟩ : BufTy).Contents (Elt F)),
    unary main_v32 main_v33 (broadcastInDim S4x100000x64 ![0, 1, 2] bcast_S1x1x64_S4x100000x64_0_1_2 : (⟨S1x1x64, .f32⟩ : BufTy).Contents (Elt F) → (⟨S4x100000x64, .f32⟩ : BufTy).Contents (Elt F)),
    binary main_v31 main_v33 main_v34 (addf : (⟨S4x100000x64, .f32⟩ : BufTy).Contents (Elt F) → (⟨S4x100000x64, .f32⟩ : BufTy).Contents (Elt F) → (⟨S4x100000x64, .f32⟩ : BufTy).Contents (Elt F)),
    unary main_arg13 main_v35 (broadcastInDim S1x1x64 ![2] bcast_S64_S1x1x64_2 : (⟨S64, .f32⟩ : BufTy).Contents (Elt F) → (⟨S1x1x64, .f32⟩ : BufTy).Contents (Elt F)),
    unary main_v35 main_v36 (broadcastInDim S4x100000x64 ![0, 1, 2] bcast_S1x1x64_S4x100000x64_0_1_2 : (⟨S1x1x64, .f32⟩ : BufTy).Contents (Elt F) → (⟨S4x100000x64, .f32⟩ : BufTy).Contents (Elt F)),
    binary main_v34 main_v36 main_v37 (subf : (⟨S4x100000x64, .f32⟩ : BufTy).Contents (Elt F) → (⟨S4x100000x64, .f32⟩ : BufTy).Contents (Elt F) → (⟨S4x100000x64, .f32⟩ : BufTy).Contents (Elt F)),
    nullary main_cst_0 (constant S_ .f32 0x3A83126F#32),
    unary main_cst_0 main_v38 (broadcastInDim S64 ![] bcast_S_S64 : (⟨S_, .f32⟩ : BufTy).Contents (Elt F) → (⟨S64, .f32⟩ : BufTy).Contents (Elt F)),
    binary main_arg14 main_v38 main_v39 (addf : (⟨S64, .f32⟩ : BufTy).Contents (Elt F) → (⟨S64, .f32⟩ : BufTy).Contents (Elt F) → (⟨S64, .f32⟩ : BufTy).Contents (Elt F)),
    unary main_v39 main_v40 (Host.rsqrt : (⟨S64, .f32⟩ : BufTy).Contents (Elt F) → (⟨S64, .f32⟩ : BufTy).Contents (Elt F)),
    binary main_arg11 main_v40 main_v41 (mulf : (⟨S64, .f32⟩ : BufTy).Contents (Elt F) → (⟨S64, .f32⟩ : BufTy).Contents (Elt F) → (⟨S64, .f32⟩ : BufTy).Contents (Elt F)),
    unary main_v41 main_v42 (broadcastInDim S1x1x64 ![2] bcast_S64_S1x1x64_2 : (⟨S64, .f32⟩ : BufTy).Contents (Elt F) → (⟨S1x1x64, .f32⟩ : BufTy).Contents (Elt F)),
    unary main_v42 main_v43 (broadcastInDim S4x100000x64 ![0, 1, 2] bcast_S1x1x64_S4x100000x64_0_1_2 : (⟨S1x1x64, .f32⟩ : BufTy).Contents (Elt F) → (⟨S4x100000x64, .f32⟩ : BufTy).Contents (Elt F)),
    binary main_v37 main_v43 main_v44 (mulf : (⟨S4x100000x64, .f32⟩ : BufTy).Contents (Elt F) → (⟨S4x100000x64, .f32⟩ : BufTy).Contents (Elt F) → (⟨S4x100000x64, .f32⟩ : BufTy).Contents (Elt F)),
    unary main_arg12 main_v45 (broadcastInDim S1x1x64 ![2] bcast_S64_S1x1x64_2 : (⟨S64, .f32⟩ : BufTy).Contents (Elt F) → (⟨S1x1x64, .f32⟩ : BufTy).Contents (Elt F)),
    unary main_v45 main_v46 (broadcastInDim S4x100000x64 ![0, 1, 2] bcast_S1x1x64_S4x100000x64_0_1_2 : (⟨S1x1x64, .f32⟩ : BufTy).Contents (Elt F) → (⟨S4x100000x64, .f32⟩ : BufTy).Contents (Elt F)),
    binary main_v44 main_v46 main_v47 (addf : (⟨S4x100000x64, .f32⟩ : BufTy).Contents (Elt F) → (⟨S4x100000x64, .f32⟩ : BufTy).Contents (Elt F) → (⟨S4x100000x64, .f32⟩ : BufTy).Contents (Elt F)) ]

/-- The second layer's rectifier. -/
def c5 : List (HloOp τ sig (Elt F)) :=
  [ TRef.nullary (TRef.of (T := ⟨S_, .f32⟩) main_call5_cst) (constant S_ .f32 0x00000000#32),
    TRef.unary (TRef.of (T := ⟨S_, .f32⟩) main_call5_cst) (TRef.of (T := ⟨S4x100000x64, .f32⟩) main_call5_v0) (broadcastInDim S4x100000x64 ![] bcast_S_S4x100000x64),
    TRef.binary (TRef.of (T := ⟨S4x100000x64, .f32⟩) main_v47) (TRef.of (T := ⟨S4x100000x64, .f32⟩) main_call5_v0) (TRef.of (T := ⟨S4x100000x64, .f32⟩) main_v48) maximumf ]

/-- The softmax of the logits and its row maximum. -/
def t3 : List (HloOp τ sig (Elt F)) :=
  [ nullary main_cst_1 (constant S_ .f32 0xFF800000#32),
    binary main_v48 main_cst_1 main_v49 ((fun x v => Host.reduce FloatOps.maximumf x v reducesTo_S4x100000x64_S4x100000_d2 h_S_) : (⟨S4x100000x64, .f32⟩ : BufTy).Contents (Elt F) → (⟨S_, .f32⟩ : BufTy).Contents (Elt F) → (⟨S4x100000, .f32⟩ : BufTy).Contents (Elt F)),
    nullary main_cst_2 (constant S_ .f32 0xFF800000#32),
    unary main_cst_2 main_v50 (broadcastInDim S4x100000 ![] bcast_S_S4x100000 : (⟨S_, .f32⟩ : BufTy).Contents (Elt F) → (⟨S4x100000, .f32⟩ : BufTy).Contents (Elt F)),
    binary main_v50 main_v49 main_v51 (maximumf : (⟨S4x100000, .f32⟩ : BufTy).Contents (Elt F) → (⟨S4x100000, .f32⟩ : BufTy).Contents (Elt F) → (⟨S4x100000, .f32⟩ : BufTy).Contents (Elt F)),
    unary main_v51 main_v52 (broadcastInDim S4x100000x1 ![0, 1] bcast_S4x100000_S4x100000x1_0_1 : (⟨S4x100000, .f32⟩ : BufTy).Contents (Elt F) → (⟨S4x100000x1, .f32⟩ : BufTy).Contents (Elt F)),
    unary main_v52 main_v53 (broadcastInDim S4x100000x64 ![0, 1, 2] bcast_S4x100000x1_S4x100000x64_0_1_2 : (⟨S4x100000x1, .f32⟩ : BufTy).Contents (Elt F) → (⟨S4x100000x64, .f32⟩ : BufTy).Contents (Elt F)),
    binary main_v48 main_v53 main_v54 (subf : (⟨S4x100000x64, .f32⟩ : BufTy).Contents (Elt F) → (⟨S4x100000x64, .f32⟩ : BufTy).Contents (Elt F) → (⟨S4x100000x64, .f32⟩ : BufTy).Contents (Elt F)),
    unary main_v54 main_v55 (Host.exp : (⟨S4x100000x64, .f32⟩ : BufTy).Contents (Elt F) → (⟨S4x100000x64, .f32⟩ : BufTy).Contents (Elt F)),
    nullary main_cst_3 (constant S_ .f32 0x00000000#32),
    binary main_v55 main_cst_3 main_v56 ((fun x v => Host.reduceAdd x v reducesTo_S4x100000x64_S4x100000_d2 h_S_) : (⟨S4x100000x64, .f32⟩ : BufTy).Contents (Elt F) → (⟨S_, .f32⟩ : BufTy).Contents (Elt F) → (⟨S4x100000, .f32⟩ : BufTy).Contents (Elt F)),
    unary main_v56 main_v57 (broadcastInDim S4x100000x1 ![0, 1] bcast_S4x100000_S4x100000x1_0_1 : (⟨S4x100000, .f32⟩ : BufTy).Contents (Elt F) → (⟨S4x100000x1, .f32⟩ : BufTy).Contents (Elt F)),
    unary main_v57 main_v58 (broadcastInDim S4x100000x64 ![0, 1, 2] bcast_S4x100000x1_S4x100000x64_0_1_2 : (⟨S4x100000x1, .f32⟩ : BufTy).Contents (Elt F) → (⟨S4x100000x64, .f32⟩ : BufTy).Contents (Elt F)),
    binary main_v55 main_v58 main_v59 (Host.divf : (⟨S4x100000x64, .f32⟩ : BufTy).Contents (Elt F) → (⟨S4x100000x64, .f32⟩ : BufTy).Contents (Elt F) → (⟨S4x100000x64, .f32⟩ : BufTy).Contents (Elt F)),
    nullary main_cst_4 (constant S_ .f32 0xFF800000#32),
    binary main_v59 main_cst_4 main_v60 ((fun x v => Host.reduce FloatOps.maximumf x v reducesTo_S4x100000x64_S4x100000_d2 h_S_) : (⟨S4x100000x64, .f32⟩ : BufTy).Contents (Elt F) → (⟨S_, .f32⟩ : BufTy).Contents (Elt F) → (⟨S4x100000, .f32⟩ : BufTy).Contents (Elt F)) ]

/-- The program is its stretches in order. -/
theorem ops_split : (ops : List (HloOp τ sig (Elt F))) =
    s0 ++ (c0 ++ (p1 ++ (c1 ++ (p2 ++ (c2 ++ (p3 ++ (c3 ++ (cat ++ (d1 ++ (n1 ++ (c4 ++ (d2 ++ (n2 ++ (c5 ++ (t3))))))))))))))) := rfl

/-- Running the program is running the stretches one after the other. -/
theorem after_ops (V : Valuation τ sig (Elt F)) :
    after (ops : List (HloOp τ sig (Elt F))) V = after t3 (after c5 (after n2 (after d2 (after c4 (after n1 (after d1 (after cat (after c3 (after p3 (after c2 (after p2 (after c1 (after p1 (after c0 (after s0 (V)))))))))))))))) := by
  rw [ops_split]
  simp only [after_append]

/-- The buffers the stretch `s0` writes. -/
def W_s0 : List (Ref sig .tc) := [main_v0, main_v1, main_v2, main_v3, main_v4]

theorem writes_s0 : (s0 : List (HloOp τ sig (Elt F))).Forall fun op => op.writes ⊆ ((W_s0).map (Proc.devRef (τ := τ) .tc)).toFinset :=
  ⟨writes_sub_of_mem main_v0 rfl (by decide),
   writes_sub_of_mem main_v1 rfl (by decide),
   writes_sub_of_mem main_v2 rfl (by decide),
   writes_sub_of_mem main_v3 rfl (by decide),
   writes_sub_of_mem main_v4 rfl (by decide)⟩

/-- A buffer the stretch `s0` does not write is read through it unchanged. -/
theorem keep_s0 (V : Valuation τ sig (Elt F)) (r : Ref sig .tc) (hr : r ∉ W_s0) :
    after (s0 : List (HloOp τ sig (Elt F))) V (no_index (Proc.devRef .tc r)) = V (Proc.devRef .tc r) :=
  after_of_writes_sub s0 V writes_s0 hr

/-- The buffers the stretch `c0` writes. -/
def W_c0 : List (Ref sig .tc) := [main_call0_c, main_call0_v0, main_call0_v1, main_call0_c_0, main_call0_v2, main_call0_v3, main_call0_v4, main_call0_c_1, main_call0_c_2, main_call0_v5, main_call0_v6, main_call0_v7, main_call0_v8, main_call0_v9, main_call0_v10, main_call0_c_3, main_call0_v11, main_call0_v12, main_call0_v13, main_call0_cst, main_call0_v14, main_v5]

theorem writes_c0 : (c0 : List (HloOp τ sig (Elt F))).Forall fun op => op.writes ⊆ ((W_c0).map (Proc.devRef (τ := τ) .tc)).toFinset :=
  ⟨writes_sub_of_mem main_call0_c rfl (by decide),
   writes_sub_of_mem main_call0_v0 rfl (by decide),
   writes_sub_of_mem main_call0_v1 rfl (by decide),
   writes_sub_of_mem main_call0_c_0 rfl (by decide),
   writes_sub_of_mem main_call0_v2 rfl (by decide),
   writes_sub_of_mem main_call0_v3 rfl (by decide),
   writes_sub_of_mem main_call0_v4 rfl (by decide),
   writes_sub_of_mem main_call0_c_1 rfl (by decide),
   writes_sub_of_mem main_call0_c_2 rfl (by decide),
   writes_sub_of_mem main_call0_v5 rfl (by decide),
   writes_sub_of_mem main_call0_v6 rfl (by decide),
   writes_sub_of_mem main_call0_v7 rfl (by decide),
   writes_sub_of_mem main_call0_v8 rfl (by decide),
   writes_sub_of_mem main_call0_v9 rfl (by decide),
   writes_sub_of_mem main_call0_v10 rfl (by decide),
   writes_sub_of_mem main_call0_c_3 rfl (by decide),
   writes_sub_of_mem main_call0_v11 rfl (by decide),
   writes_sub_of_mem main_call0_v12 rfl (by decide),
   writes_sub_of_mem main_call0_v13 rfl (by decide),
   writes_sub_of_mem main_call0_cst rfl (by decide),
   writes_sub_of_mem main_call0_v14 rfl (by decide),
   writes_sub_of_mem main_v5 rfl (by decide)⟩

/-- A buffer the stretch `c0` does not write is read through it unchanged. -/
theorem keep_c0 (V : Valuation τ sig (Elt F)) (r : Ref sig .tc) (hr : r ∉ W_c0) :
    after (c0 : List (HloOp τ sig (Elt F))) V (no_index (Proc.devRef .tc r)) = V (Proc.devRef .tc r) :=
  after_of_writes_sub c0 V writes_c0 hr

/-- The buffers the stretch `p1` writes. -/
def W_p1 : List (Ref sig .tc) := [main_v6]

theorem writes_p1 : (p1 : List (HloOp τ sig (Elt F))).Forall fun op => op.writes ⊆ ((W_p1).map (Proc.devRef (τ := τ) .tc)).toFinset :=
  writes_sub_of_mem main_v6 rfl (by decide)

/-- A buffer the stretch `p1` does not write is read through it unchanged. -/
theorem keep_p1 (V : Valuation τ sig (Elt F)) (r : Ref sig .tc) (hr : r ∉ W_p1) :
    after (p1 : List (HloOp τ sig (Elt F))) V (no_index (Proc.devRef .tc r)) = V (Proc.devRef .tc r) :=
  after_of_writes_sub p1 V writes_p1 hr

/-- The buffers the stretch `c1` writes. -/
def W_c1 : List (Ref sig .tc) := [main_call1_c, main_call1_v0, main_call1_v1, main_call1_c_0, main_call1_v2, main_call1_v3, main_call1_v4, main_call1_c_1, main_call1_c_2, main_call1_v5, main_call1_v6, main_call1_v7, main_call1_v8, main_call1_v9, main_call1_v10, main_call1_c_3, main_call1_v11, main_call1_v12, main_call1_v13, main_call1_cst, main_call1_v14, main_v7]

theorem writes_c1 : (c1 : List (HloOp τ sig (Elt F))).Forall fun op => op.writes ⊆ ((W_c1).map (Proc.devRef (τ := τ) .tc)).toFinset :=
  ⟨writes_sub_of_mem main_call1_c rfl (by decide),
   writes_sub_of_mem main_call1_v0 rfl (by decide),
   writes_sub_of_mem main_call1_v1 rfl (by decide),
   writes_sub_of_mem main_call1_c_0 rfl (by decide),
   writes_sub_of_mem main_call1_v2 rfl (by decide),
   writes_sub_of_mem main_call1_v3 rfl (by decide),
   writes_sub_of_mem main_call1_v4 rfl (by decide),
   writes_sub_of_mem main_call1_c_1 rfl (by decide),
   writes_sub_of_mem main_call1_c_2 rfl (by decide),
   writes_sub_of_mem main_call1_v5 rfl (by decide),
   writes_sub_of_mem main_call1_v6 rfl (by decide),
   writes_sub_of_mem main_call1_v7 rfl (by decide),
   writes_sub_of_mem main_call1_v8 rfl (by decide),
   writes_sub_of_mem main_call1_v9 rfl (by decide),
   writes_sub_of_mem main_call1_v10 rfl (by decide),
   writes_sub_of_mem main_call1_c_3 rfl (by decide),
   writes_sub_of_mem main_call1_v11 rfl (by decide),
   writes_sub_of_mem main_call1_v12 rfl (by decide),
   writes_sub_of_mem main_call1_v13 rfl (by decide),
   writes_sub_of_mem main_call1_cst rfl (by decide),
   writes_sub_of_mem main_call1_v14 rfl (by decide),
   writes_sub_of_mem main_v7 rfl (by decide)⟩

/-- A buffer the stretch `c1` does not write is read through it unchanged. -/
theorem keep_c1 (V : Valuation τ sig (Elt F)) (r : Ref sig .tc) (hr : r ∉ W_c1) :
    after (c1 : List (HloOp τ sig (Elt F))) V (no_index (Proc.devRef .tc r)) = V (Proc.devRef .tc r) :=
  after_of_writes_sub c1 V writes_c1 hr

/-- The buffers the stretch `p2` writes. -/
def W_p2 : List (Ref sig .tc) := [main_v8]

theorem writes_p2 : (p2 : List (HloOp τ sig (Elt F))).Forall fun op => op.writes ⊆ ((W_p2).map (Proc.devRef (τ := τ) .tc)).toFinset :=
  writes_sub_of_mem main_v8 rfl (by decide)

/-- A buffer the stretch `p2` does not write is read through it unchanged. -/
theorem keep_p2 (V : Valuation τ sig (Elt F)) (r : Ref sig .tc) (hr : r ∉ W_p2) :
    after (p2 : List (HloOp τ sig (Elt F))) V (no_index (Proc.devRef .tc r)) = V (Proc.devRef .tc r) :=
  after_of_writes_sub p2 V writes_p2 hr

/-- The buffers the stretch `c2` writes. -/
def W_c2 : List (Ref sig .tc) := [main_call2_c, main_call2_v0, main_call2_v1, main_call2_c_0, main_call2_v2, main_call2_v3, main_call2_v4, main_call2_c_1, main_call2_c_2, main_call2_v5, main_call2_v6, main_call2_v7, main_call2_v8, main_call2_v9, main_call2_v10, main_call2_c_3, main_call2_v11, main_call2_v12, main_call2_v13, main_call2_cst, main_call2_v14, main_v9]

theorem writes_c2 : (c2 : List (HloOp τ sig (Elt F))).Forall fun op => op.writes ⊆ ((W_c2).map (Proc.devRef (τ := τ) .tc)).toFinset :=
  ⟨writes_sub_of_mem main_call2_c rfl (by decide),
   writes_sub_of_mem main_call2_v0 rfl (by decide),
   writes_sub_of_mem main_call2_v1 rfl (by decide),
   writes_sub_of_mem main_call2_c_0 rfl (by decide),
   writes_sub_of_mem main_call2_v2 rfl (by decide),
   writes_sub_of_mem main_call2_v3 rfl (by decide),
   writes_sub_of_mem main_call2_v4 rfl (by decide),
   writes_sub_of_mem main_call2_c_1 rfl (by decide),
   writes_sub_of_mem main_call2_c_2 rfl (by decide),
   writes_sub_of_mem main_call2_v5 rfl (by decide),
   writes_sub_of_mem main_call2_v6 rfl (by decide),
   writes_sub_of_mem main_call2_v7 rfl (by decide),
   writes_sub_of_mem main_call2_v8 rfl (by decide),
   writes_sub_of_mem main_call2_v9 rfl (by decide),
   writes_sub_of_mem main_call2_v10 rfl (by decide),
   writes_sub_of_mem main_call2_c_3 rfl (by decide),
   writes_sub_of_mem main_call2_v11 rfl (by decide),
   writes_sub_of_mem main_call2_v12 rfl (by decide),
   writes_sub_of_mem main_call2_v13 rfl (by decide),
   writes_sub_of_mem main_call2_cst rfl (by decide),
   writes_sub_of_mem main_call2_v14 rfl (by decide),
   writes_sub_of_mem main_v9 rfl (by decide)⟩

/-- A buffer the stretch `c2` does not write is read through it unchanged. -/
theorem keep_c2 (V : Valuation τ sig (Elt F)) (r : Ref sig .tc) (hr : r ∉ W_c2) :
    after (c2 : List (HloOp τ sig (Elt F))) V (no_index (Proc.devRef .tc r)) = V (Proc.devRef .tc r) :=
  after_of_writes_sub c2 V writes_c2 hr

/-- The buffers the stretch `p3` writes. -/
def W_p3 : List (Ref sig .tc) := [main_v10]

theorem writes_p3 : (p3 : List (HloOp τ sig (Elt F))).Forall fun op => op.writes ⊆ ((W_p3).map (Proc.devRef (τ := τ) .tc)).toFinset :=
  writes_sub_of_mem main_v10 rfl (by decide)

/-- A buffer the stretch `p3` does not write is read through it unchanged. -/
theorem keep_p3 (V : Valuation τ sig (Elt F)) (r : Ref sig .tc) (hr : r ∉ W_p3) :
    after (p3 : List (HloOp τ sig (Elt F))) V (no_index (Proc.devRef .tc r)) = V (Proc.devRef .tc r) :=
  after_of_writes_sub p3 V writes_p3 hr

/-- The buffers the stretch `c3` writes. -/
def W_c3 : List (Ref sig .tc) := [main_call3_c, main_call3_v0, main_call3_v1, main_call3_c_0, main_call3_v2, main_call3_v3, main_call3_v4, main_call3_c_1, main_call3_c_2, main_call3_v5, main_call3_v6, main_call3_v7, main_call3_v8, main_call3_v9, main_call3_v10, main_call3_c_3, main_call3_v11, main_call3_v12, main_call3_v13, main_call3_cst, main_call3_v14, main_v11]

theorem writes_c3 : (c3 : List (HloOp τ sig (Elt F))).Forall fun op => op.writes ⊆ ((W_c3).map (Proc.devRef (τ := τ) .tc)).toFinset :=
  ⟨writes_sub_of_mem main_call3_c rfl (by decide),
   writes_sub_of_mem main_call3_v0 rfl (by decide),
   writes_sub_of_mem main_call3_v1 rfl (by decide),
   writes_sub_of_mem main_call3_c_0 rfl (by decide),
   writes_sub_of_mem main_call3_v2 rfl (by decide),
   writes_sub_of_mem main_call3_v3 rfl (by decide),
   writes_sub_of_mem main_call3_v4 rfl (by decide),
   writes_sub_of_mem main_call3_c_1 rfl (by decide),
   writes_sub_of_mem main_call3_c_2 rfl (by decide),
   writes_sub_of_mem main_call3_v5 rfl (by decide),
   writes_sub_of_mem main_call3_v6 rfl (by decide),
   writes_sub_of_mem main_call3_v7 rfl (by decide),
   writes_sub_of_mem main_call3_v8 rfl (by decide),
   writes_sub_of_mem main_call3_v9 rfl (by decide),
   writes_sub_of_mem main_call3_v10 rfl (by decide),
   writes_sub_of_mem main_call3_c_3 rfl (by decide),
   writes_sub_of_mem main_call3_v11 rfl (by decide),
   writes_sub_of_mem main_call3_v12 rfl (by decide),
   writes_sub_of_mem main_call3_v13 rfl (by decide),
   writes_sub_of_mem main_call3_cst rfl (by decide),
   writes_sub_of_mem main_call3_v14 rfl (by decide),
   writes_sub_of_mem main_v11 rfl (by decide)⟩

/-- A buffer the stretch `c3` does not write is read through it unchanged. -/
theorem keep_c3 (V : Valuation τ sig (Elt F)) (r : Ref sig .tc) (hr : r ∉ W_c3) :
    after (c3 : List (HloOp τ sig (Elt F))) V (no_index (Proc.devRef .tc r)) = V (Proc.devRef .tc r) :=
  after_of_writes_sub c3 V writes_c3 hr

/-- The buffers the stretch `cat` writes. -/
def W_cat : List (Ref sig .tc) := [main_v12]

theorem writes_cat : (cat : List (HloOp τ sig (Elt F))).Forall fun op => op.writes ⊆ ((W_cat).map (Proc.devRef (τ := τ) .tc)).toFinset :=
  writes_sub_of_mem main_v12 rfl (by decide)

/-- A buffer the stretch `cat` does not write is read through it unchanged. -/
theorem keep_cat (V : Valuation τ sig (Elt F)) (r : Ref sig .tc) (hr : r ∉ W_cat) :
    after (cat : List (HloOp τ sig (Elt F))) V (no_index (Proc.devRef .tc r)) = V (Proc.devRef .tc r) :=
  after_of_writes_sub cat V writes_cat hr

/-- The buffers the stretch `d1` writes. -/
def W_d1 : List (Ref sig .tc) := [main_v13]

theorem writes_d1 : (d1 : List (HloOp τ sig (Elt F))).Forall fun op => op.writes ⊆ ((W_d1).map (Proc.devRef (τ := τ) .tc)).toFinset :=
  writes_sub_of_mem main_v13 rfl (by decide)

/-- A buffer the stretch `d1` does not write is read through it unchanged. -/
theorem keep_d1 (V : Valuation τ sig (Elt F)) (r : Ref sig .tc) (hr : r ∉ W_d1) :
    after (d1 : List (HloOp τ sig (Elt F))) V (no_index (Proc.devRef .tc r)) = V (Proc.devRef .tc r) :=
  after_of_writes_sub d1 V writes_d1 hr

/-- The buffers the stretch `n1` writes. -/
def W_n1 : List (Ref sig .tc) := [main_v14, main_v15, main_v16, main_v17, main_v18, main_v19, main_cst, main_v20, main_v21, main_v22, main_v23, main_v24, main_v25, main_v26, main_v27, main_v28, main_v29]

theorem writes_n1 : (n1 : List (HloOp τ sig (Elt F))).Forall fun op => op.writes ⊆ ((W_n1).map (Proc.devRef (τ := τ) .tc)).toFinset :=
  ⟨writes_sub_of_mem main_v14 rfl (by decide),
   writes_sub_of_mem main_v15 rfl (by decide),
   writes_sub_of_mem main_v16 rfl (by decide),
   writes_sub_of_mem main_v17 rfl (by decide),
   writes_sub_of_mem main_v18 rfl (by decide),
   writes_sub_of_mem main_v19 rfl (by decide),
   writes_sub_of_mem main_cst rfl (by decide),
   writes_sub_of_mem main_v20 rfl (by decide),
   writes_sub_of_mem main_v21 rfl (by decide),
   writes_sub_of_mem main_v22 rfl (by decide),
   writes_sub_of_mem main_v23 rfl (by decide),
   writes_sub_of_mem main_v24 rfl (by decide),
   writes_sub_of_mem main_v25 rfl (by decide),
   writes_sub_of_mem main_v26 rfl (by decide),
   writes_sub_of_mem main_v27 rfl (by decide),
   writes_sub_of_mem main_v28 rfl (by decide),
   writes_sub_of_mem main_v29 rfl (by decide)⟩

/-- A buffer the stretch `n1` does not write is read through it unchanged. -/
theorem keep_n1 (V : Valuation τ sig (Elt F)) (r : Ref sig .tc) (hr : r ∉ W_n1) :
    after (n1 : List (HloOp τ sig (Elt F))) V (no_index (Proc.devRef .tc r)) = V (Proc.devRef .tc r) :=
  after_of_writes_sub n1 V writes_n1 hr

/-- The buffers the stretch `c4` writes. -/
def W_c4 : List (Ref sig .tc) := [main_call4_cst, main_call4_v0, main_v30]

theorem writes_c4 : (c4 : List (HloOp τ sig (Elt F))).Forall fun op => op.writes ⊆ ((W_c4).map (Proc.devRef (τ := τ) .tc)).toFinset :=
  ⟨writes_sub_of_mem main_call4_cst rfl (by decide),
   writes_sub_of_mem main_call4_v0 rfl (by decide),
   writes_sub_of_mem main_v30 rfl (by decide)⟩

/-- A buffer the stretch `c4` does not write is read through it unchanged. -/
theorem keep_c4 (V : Valuation τ sig (Elt F)) (r : Ref sig .tc) (hr : r ∉ W_c4) :
    after (c4 : List (HloOp τ sig (Elt F))) V (no_index (Proc.devRef .tc r)) = V (Proc.devRef .tc r) :=
  after_of_writes_sub c4 V writes_c4 hr

/-- The buffers the stretch `d2` writes. -/
def W_d2 : List (Ref sig .tc) := [main_v31]

theorem writes_d2 : (d2 : List (HloOp τ sig (Elt F))).Forall fun op => op.writes ⊆ ((W_d2).map (Proc.devRef (τ := τ) .tc)).toFinset :=
  writes_sub_of_mem main_v31 rfl (by decide)

/-- A buffer the stretch `d2` does not write is read through it unchanged. -/
theorem keep_d2 (V : Valuation τ sig (Elt F)) (r : Ref sig .tc) (hr : r ∉ W_d2) :
    after (d2 : List (HloOp τ sig (Elt F))) V (no_index (Proc.devRef .tc r)) = V (Proc.devRef .tc r) :=
  after_of_writes_sub d2 V writes_d2 hr

/-- The buffers the stretch `n2` writes. -/
def W_n2 : List (Ref sig .tc) := [main_v32, main_v33, main_v34, main_v35, main_v36, main_v37, main_cst_0, main_v38, main_v39, main_v40, main_v41, main_v42, main_v43, main_v44, main_v45, main_v46, main_v47]

theorem writes_n2 : (n2 : List (HloOp τ sig (Elt F))).Forall fun op => op.writes ⊆ ((W_n2).map (Proc.devRef (τ := τ) .tc)).toFinset :=
  ⟨writes_sub_of_mem main_v32 rfl (by decide),
   writes_sub_of_mem main_v33 rfl (by decide),
   writes_sub_of_mem main_v34 rfl (by decide),
   writes_sub_of_mem main_v35 rfl (by decide),
   writes_sub_of_mem main_v36 rfl (by decide),
   writes_sub_of_mem main_v37 rfl (by decide),
   writes_sub_of_mem main_cst_0 rfl (by decide),
   writes_sub_of_mem main_v38 rfl (by decide),
   writes_sub_of_mem main_v39 rfl (by decide),
   writes_sub_of_mem main_v40 rfl (by decide),
   writes_sub_of_mem main_v41 rfl (by decide),
   writes_sub_of_mem main_v42 rfl (by decide),
   writes_sub_of_mem main_v43 rfl (by decide),
   writes_sub_of_mem main_v44 rfl (by decide),
   writes_sub_of_mem main_v45 rfl (by decide),
   writes_sub_of_mem main_v46 rfl (by decide),
   writes_sub_of_mem main_v47 rfl (by decide)⟩

/-- A buffer the stretch `n2` does not write is read through it unchanged. -/
theorem keep_n2 (V : Valuation τ sig (Elt F)) (r : Ref sig .tc) (hr : r ∉ W_n2) :
    after (n2 : List (HloOp τ sig (Elt F))) V (no_index (Proc.devRef .tc r)) = V (Proc.devRef .tc r) :=
  after_of_writes_sub n2 V writes_n2 hr

/-- The buffers the stretch `c5` writes. -/
def W_c5 : List (Ref sig .tc) := [main_call5_cst, main_call5_v0, main_v48]

theorem writes_c5 : (c5 : List (HloOp τ sig (Elt F))).Forall fun op => op.writes ⊆ ((W_c5).map (Proc.devRef (τ := τ) .tc)).toFinset :=
  ⟨writes_sub_of_mem main_call5_cst rfl (by decide),
   writes_sub_of_mem main_call5_v0 rfl (by decide),
   writes_sub_of_mem main_v48 rfl (by decide)⟩

/-- A buffer the stretch `c5` does not write is read through it unchanged. -/
theorem keep_c5 (V : Valuation τ sig (Elt F)) (r : Ref sig .tc) (hr : r ∉ W_c5) :
    after (c5 : List (HloOp τ sig (Elt F))) V (no_index (Proc.devRef .tc r)) = V (Proc.devRef .tc r) :=
  after_of_writes_sub c5 V writes_c5 hr

/-- The buffers the stretch `t3` writes. -/
def W_t3 : List (Ref sig .tc) := [main_cst_1, main_v49, main_cst_2, main_v50, main_v51, main_v52, main_v53, main_v54, main_v55, main_cst_3, main_v56, main_v57, main_v58, main_v59, main_cst_4, main_v60]

theorem writes_t3 : (t3 : List (HloOp τ sig (Elt F))).Forall fun op => op.writes ⊆ ((W_t3).map (Proc.devRef (τ := τ) .tc)).toFinset :=
  ⟨writes_sub_of_mem main_cst_1 rfl (by decide),
   writes_sub_of_mem main_v49 rfl (by decide),
   writes_sub_of_mem main_cst_2 rfl (by decide),
   writes_sub_of_mem main_v50 rfl (by decide),
   writes_sub_of_mem main_v51 rfl (by decide),
   writes_sub_of_mem main_v52 rfl (by decide),
   writes_sub_of_mem main_v53 rfl (by decide),
   writes_sub_of_mem main_v54 rfl (by decide),
   writes_sub_of_mem main_v55 rfl (by decide),
   writes_sub_of_mem main_cst_3 rfl (by decide),
   writes_sub_of_mem main_v56 rfl (by decide),
   writes_sub_of_mem main_v57 rfl (by decide),
   writes_sub_of_mem main_v58 rfl (by decide),
   writes_sub_of_mem main_v59 rfl (by decide),
   writes_sub_of_mem main_cst_4 rfl (by decide),
   writes_sub_of_mem main_v60 rfl (by decide)⟩

/-- A buffer the stretch `t3` does not write is read through it unchanged. -/
theorem keep_t3 (V : Valuation τ sig (Elt F)) (r : Ref sig .tc) (hr : r ∉ W_t3) :
    after (t3 : List (HloOp τ sig (Elt F))) V (no_index (Proc.devRef .tc r)) = V (Proc.devRef .tc r) :=
  after_of_writes_sub t3 V writes_t3 hr

end Cert.ReferenceIdeal.RefValue

end
-- ==== Proof.RefValueB.lean ====
/-
  The lookups of the reference program, read at an entry.

  The edge list `edges : [4, 100000, 2]` is split into its two columns, each laid out as a column of row numbers
  [4, 100000, 1]; the entry (b, t, 0) of the source column is `edges (b, t, 0)` and of the target column `edges (b, t, 1)`.
  Each of the four lookups is the host's `take_along_axis` line, so its entry (b, t, k) is the row of graph b's table
  named by the ONE row number at (b, t, 0), column k: `nodeRow`.
-/
import proofs.«165707_j13941463842948_1_alg».proof.Proof.RefValueA
import proofs.«165707_j13941463842948_1_alg».proof.Proof.LibTypedRead
import proofs.«165707_j13941463842948_1_alg».proof.Proof.LibTakeAlong
import proofs.«165707_j13941463842948_1_alg».proof.Proof.LibBatched3
import proofs.«165707_j13941463842948_1_alg».proof.Proof.Spec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.ValueP
open Idealize.ShloMosaic Idealize.ShloMosaic.TcCoe Idealize.SL.Sem Idealize.ShloMosaic.StableHlo Idealize.ShloMosaic.ValueIdx
open Cert.LibTypedRead Cert.LibTakeAlong Cert.LibBatched3 Cert.EdgeScore

/-- The source column of the edge list at (b, t). -/
theorem col0_apply (x : S4x100000x2.Idx → BitVec 32) (b : Fin 4) (t : Fin 100000) :
    shapeCast S4x100000 (extractStridedSlice S4x100000x1 ![0, 0, 0] x slices_S4x100000x2_S4x100000x1_0_0_0)
      shapeCasts_S4x100000x1_S4x100000 (ix2 b t) = x (ix3 b t (0 : Fin 2)) := by
  rw [shapeCast_apply _ shapeCasts_S4x100000x1_S4x100000 (ix2 b t) (ix3 b t (0 : Fin 1))
    (by rewrite [Shape.rowMajor_val_three, Shape.rowMajor_val_two]
        show (b.val * 100000 + t.val) * 1 + 0 = b.val * 100000 + t.val; omega)]
  exact extractStridedSlice_apply ![0, 0, 0] x slices_S4x100000x2_S4x100000x1_0_0_0 (ix3 b t (0 : Fin 1)) (ix3 b t (0 : Fin 2))
    (fun a => match a with
      | ⟨0, _⟩ => by show b.val = 0 + b.val; omega
      | ⟨1, _⟩ => by show t.val = 0 + t.val; omega
      | ⟨2, _⟩ => by show 0 = 0 + 0; omega)

/-- The target column of the edge list at (b, t). -/
theorem col1_apply (x : S4x100000x2.Idx → BitVec 32) (b : Fin 4) (t : Fin 100000) :
    shapeCast S4x100000 (extractStridedSlice S4x100000x1 ![0, 0, 1] x slices_S4x100000x2_S4x100000x1_0_0_1)
      shapeCasts_S4x100000x1_S4x100000 (ix2 b t) = x (ix3 b t (1 : Fin 2)) := by
  rw [shapeCast_apply _ shapeCasts_S4x100000x1_S4x100000 (ix2 b t) (ix3 b t (0 : Fin 1))
    (by rewrite [Shape.rowMajor_val_three, Shape.rowMajor_val_two]
        show (b.val * 100000 + t.val) * 1 + 0 = b.val * 100000 + t.val; omega)]
  exact extractStridedSlice_apply ![0, 0, 1] x slices_S4x100000x2_S4x100000x1_0_0_1 (ix3 b t (0 : Fin 1)) (ix3 b t (1 : Fin 2))
    (fun a => match a with
      | ⟨0, _⟩ => by show b.val = 0 + b.val; omega
      | ⟨1, _⟩ => by show t.val = 0 + t.val; omega
      | ⟨2, _⟩ => by show 1 = 1 + 0; omega)

/-! ## The first stretch: the two columns -/

theorem s0_v1 (V : Valuation τ sig (Elt Ideal)) (b : Fin 4) (t : Fin 100000) :
    (after (s0 (F := Ideal)) V (Proc.devRef .tc main_v1) : S4x100000.Idx → BitVec 32) (ix2 b t)
      = (V (Proc.devRef .tc main_arg2) : S4x100000x2.Idx → BitVec 32) (ix3 b t (0 : Fin 2)) := by
  unfold s0
  after_results
  exact col0_apply _ b t

theorem s0_v3 (V : Valuation τ sig (Elt Ideal)) (b : Fin 4) (t : Fin 100000) :
    (after (s0 (F := Ideal)) V (Proc.devRef .tc main_v3) : S4x100000.Idx → BitVec 32) (ix2 b t)
      = (V (Proc.devRef .tc main_arg2) : S4x100000x2.Idx → BitVec 32) (ix3 b t (1 : Fin 2)) := by
  unfold s0
  after_results
  exact col1_apply _ b t

theorem s0_v4 (V : Valuation τ sig (Elt Ideal)) (b : Fin 4) (t : Fin 100000) :
    (after (s0 (F := Ideal)) V (Proc.devRef .tc main_v4) : S4x100000x1.Idx → BitVec 32) (ix3 b t (0 : Fin 1))
      = (V (Proc.devRef .tc main_arg2) : S4x100000x2.Idx → BitVec 32) (ix3 b t (0 : Fin 2)) := by
  unfold s0
  after_results
  refine (broadcastInDim_ab_ab1_apply _ bcast_S4x100000_S4x100000x1_0_1 b t (0 : Fin 1)).trans ?_
  exact col0_apply _ b t

/-! ## A column of row numbers laid out for a lookup -/

theorem p1_v6 (V : Valuation τ sig (Elt Ideal)) (b : Fin 4) (t : Fin 100000) :
    (after (p1 (F := Ideal)) V (Proc.devRef .tc main_v6) : S4x100000x1.Idx → BitVec 32) (ix3 b t (0 : Fin 1))
      = (V (Proc.devRef .tc main_v3) : S4x100000.Idx → BitVec 32) (ix2 b t) := by
  unfold p1
  after_results
  exact broadcastInDim_ab_ab1_apply _ bcast_S4x100000_S4x100000x1_0_1 b t (0 : Fin 1)

theorem p2_v8 (V : Valuation τ sig (Elt Ideal)) (b : Fin 4) (t : Fin 100000) :
    (after (p2 (F := Ideal)) V (Proc.devRef .tc main_v8) : S4x100000x1.Idx → BitVec 32) (ix3 b t (0 : Fin 1))
      = (V (Proc.devRef .tc main_v1) : S4x100000.Idx → BitVec 32) (ix2 b t) := by
  unfold p2
  after_results
  exact broadcastInDim_ab_ab1_apply _ bcast_S4x100000_S4x100000x1_0_1 b t (0 : Fin 1)

theorem p3_v10 (V : Valuation τ sig (Elt Ideal)) (b : Fin 4) (t : Fin 100000) :
    (after (p3 (F := Ideal)) V (Proc.devRef .tc main_v10) : S4x100000x1.Idx → BitVec 32) (ix3 b t (0 : Fin 1))
      = (V (Proc.devRef .tc main_v3) : S4x100000.Idx → BitVec 32) (ix2 b t) := by
  unfold p3
  after_results
  exact broadcastInDim_ab_ab1_apply _ bcast_S4x100000_S4x100000x1_0_1 b t (0 : Fin 1)

/-! ## The four lookups -/

/-- The lookup `c0` as one function of its table and its row numbers. -/
theorem c0_read (V : Valuation τ sig (Elt Ideal)) :
    get (TRef.of main_v5 : TRef sig ⟨S4x100000x4, .f32⟩) (after (c0 (F := Ideal)) V) =
      takeAlong gather_S4x10000x4_S4x100000x1_S4x100000x4_2_1_0_0_1_2_114 bcast_S_S4x100000x1 bcast_S1_S1x1x1_2
        bcast_S1x1x1_S4x100000x1_0_1_2 reducesTo_S4x100000x1_S4x100000_d2 h_S_ bcast_S4x100000_S4x100000x4_0_1 bcast_S_S4x100000x4
        10000#32 9999#32 (constant (F := Ideal) S_ .f32 0x7FC00000#32)
        (get (TRef.of main_arg1 : TRef sig ⟨S4x10000x4, .f32⟩) V) (get (TRef.of main_v4 : TRef sig ⟨S4x100000x1, .i32⟩) V) := by
  unfold c0
  simp (disch := decide) only [get_after_cons, get_after_nil, get_nullary, get_unary, get_binary, get_ternary,
    get_nullary_ne, get_unary_ne, get_binary_ne, get_ternary_ne]
  rfl

/-- The lookup `c0` at (b, t, k): the row of graph b's table that the row number at (b, t, 0) names, column k. -/
theorem c0_v5 (V : Valuation τ sig (Elt Ideal)) (b : Fin 4) (t : Fin 100000) (k : Fin 4) :
    (after (c0 (F := Ideal)) V (Proc.devRef .tc main_v5) : S4x100000x4.Idx → EReal) (ix3 b t k)
      = nodeRow (V (Proc.devRef .tc main_arg1) : S4x10000x4.Idx → EReal)
          ((V (Proc.devRef .tc main_v4) : S4x100000x1.Idx → BitVec 32) (ix3 b t (0 : Fin 1))) b k := by
  refine (congrFun (c0_read V) (ix3 b t k)).trans ?_
  exact takeAlong_apply (N := 10000) (by decide) gather_S4x10000x4_S4x100000x1_S4x100000x4_2_1_0_0_1_2_114_wf bcast_S_S4x100000x1 bcast_S1_S1x1x1_2
    bcast_S1x1x1_S4x100000x1_0_1_2 reducesTo_S4x100000x1_S4x100000_d2 (by decide) h_S_ bcast_S4x100000_S4x100000x4_0_1 bcast_S_S4x100000x4
    10000#32 9999#32 _ _ _ b t k

/-- The lookup `c1` as one function of its table and its row numbers. -/
theorem c1_read (V : Valuation τ sig (Elt Ideal)) :
    get (TRef.of main_v7 : TRef sig ⟨S4x100000x4, .f32⟩) (after (c1 (F := Ideal)) V) =
      takeAlong gather_S4x10000x4_S4x100000x1_S4x100000x4_2_1_0_0_1_2_114 bcast_S_S4x100000x1 bcast_S1_S1x1x1_2
        bcast_S1x1x1_S4x100000x1_0_1_2 reducesTo_S4x100000x1_S4x100000_d2 h_S_ bcast_S4x100000_S4x100000x4_0_1 bcast_S_S4x100000x4
        10000#32 9999#32 (constant (F := Ideal) S_ .f32 0x7FC00000#32)
        (get (TRef.of main_arg1 : TRef sig ⟨S4x10000x4, .f32⟩) V) (get (TRef.of main_v6 : TRef sig ⟨S4x100000x1, .i32⟩) V) := by
  unfold c1
  simp (disch := decide) only [get_after_cons, get_after_nil, get_nullary, get_unary, get_binary, get_ternary,
    get_nullary_ne, get_unary_ne, get_binary_ne, get_ternary_ne]
  rfl

/-- The lookup `c1` at (b, t, k): the row of graph b's table that the row number at (b, t, 0) names, column k. -/
theorem c1_v7 (V : Valuation τ sig (Elt Ideal)) (b : Fin 4) (t : Fin 100000) (k : Fin 4) :
    (after (c1 (F := Ideal)) V (Proc.devRef .tc main_v7) : S4x100000x4.Idx → EReal) (ix3 b t k)
      = nodeRow (V (Proc.devRef .tc main_arg1) : S4x10000x4.Idx → EReal)
          ((V (Proc.devRef .tc main_v6) : S4x100000x1.Idx → BitVec 32) (ix3 b t (0 : Fin 1))) b k := by
  refine (congrFun (c1_read V) (ix3 b t k)).trans ?_
  exact takeAlong_apply (N := 10000) (by decide) gather_S4x10000x4_S4x100000x1_S4x100000x4_2_1_0_0_1_2_114_wf bcast_S_S4x100000x1 bcast_S1_S1x1x1_2
    bcast_S1x1x1_S4x100000x1_0_1_2 reducesTo_S4x100000x1_S4x100000_d2 (by decide) h_S_ bcast_S4x100000_S4x100000x4_0_1 bcast_S_S4x100000x4
    10000#32 9999#32 _ _ _ b t k

/-- The lookup `c2` as one function of its table and its row numbers. -/
theorem c2_read (V : Valuation τ sig (Elt Ideal)) :
    get (TRef.of main_v9 : TRef sig ⟨S4x100000x128, .f32⟩) (after (c2 (F := Ideal)) V) =
      takeAlong gather_S4x10000x128_S4x100000x1_S4x100000x128_2_1_0_0_1_2_11128 bcast_S_S4x100000x1 bcast_S1_S1x1x1_2
        bcast_S1x1x1_S4x100000x1_0_1_2 reducesTo_S4x100000x1_S4x100000_d2 h_S_ bcast_S4x100000_S4x100000x128_0_1 bcast_S_S4x100000x128
        10000#32 9999#32 (constant (F := Ideal) S_ .f32 0x7FC00000#32)
        (get (TRef.of main_arg0 : TRef sig ⟨S4x10000x128, .f32⟩) V) (get (TRef.of main_v8 : TRef sig ⟨S4x100000x1, .i32⟩) V) := by
  unfold c2
  simp (disch := decide) only [get_after_cons, get_after_nil, get_nullary, get_unary, get_binary, get_ternary,
    get_nullary_ne, get_unary_ne, get_binary_ne, get_ternary_ne]
  rfl

/-- The lookup `c2` at (b, t, k): the row of graph b's table that the row number at (b, t, 0) names, column k. -/
theorem c2_v9 (V : Valuation τ sig (Elt Ideal)) (b : Fin 4) (t : Fin 100000) (k : Fin 128) :
    (after (c2 (F := Ideal)) V (Proc.devRef .tc main_v9) : S4x100000x128.Idx → EReal) (ix3 b t k)
      = nodeRow (V (Proc.devRef .tc main_arg0) : S4x10000x128.Idx → EReal)
          ((V (Proc.devRef .tc main_v8) : S4x100000x1.Idx → BitVec 32) (ix3 b t (0 : Fin 1))) b k := by
  refine (congrFun (c2_read V) (ix3 b t k)).trans ?_
  exact takeAlong_apply (N := 10000) (by decide) gather_S4x10000x128_S4x100000x1_S4x100000x128_2_1_0_0_1_2_11128_wf bcast_S_S4x100000x1 bcast_S1_S1x1x1_2
    bcast_S1x1x1_S4x100000x1_0_1_2 reducesTo_S4x100000x1_S4x100000_d2 (by decide) h_S_ bcast_S4x100000_S4x100000x128_0_1 bcast_S_S4x100000x128
    10000#32 9999#32 _ _ _ b t k

/-- The lookup `c3` as one function of its table and its row numbers. -/
theorem c3_read (V : Valuation τ sig (Elt Ideal)) :
    get (TRef.of main_v11 : TRef sig ⟨S4x100000x128, .f32⟩) (after (c3 (F := Ideal)) V) =
      takeAlong gather_S4x10000x128_S4x100000x1_S4x100000x128_2_1_0_0_1_2_11128 bcast_S_S4x100000x1 bcast_S1_S1x1x1_2
        bcast_S1x1x1_S4x100000x1_0_1_2 reducesTo_S4x100000x1_S4x100000_d2 h_S_ bcast_S4x100000_S4x100000x128_0_1 bcast_S_S4x100000x128
        10000#32 9999#32 (constant (F := Ideal) S_ .f32 0x7FC00000#32)
        (get (TRef.of main_arg0 : TRef sig ⟨S4x10000x128, .f32⟩) V) (get (TRef.of main_v10 : TRef sig ⟨S4x100000x1, .i32⟩) V) := by
  unfold c3
  simp (disch := decide) only [get_after_cons, get_after_nil, get_nullary, get_unary, get_binary, get_ternary,
    get_nullary_ne, get_unary_ne, get_binary_ne, get_ternary_ne]
  rfl

/-- The lookup `c3` at (b, t, k): the row of graph b's table that the row number at (b, t, 0) names, column k. -/
theorem c3_v11 (V : Valuation τ sig (Elt Ideal)) (b : Fin 4) (t : Fin 100000) (k : Fin 128) :
    (after (c3 (F := Ideal)) V (Proc.devRef .tc main_v11) : S4x100000x128.Idx → EReal) (ix3 b t k)
      = nodeRow (V (Proc.devRef .tc main_arg0) : S4x10000x128.Idx → EReal)
          ((V (Proc.devRef .tc main_v10) : S4x100000x1.Idx → BitVec 32) (ix3 b t (0 : Fin 1))) b k := by
  refine (congrFun (c3_read V) (ix3 b t k)).trans ?_
  exact takeAlong_apply (N := 10000) (by decide) gather_S4x10000x128_S4x100000x1_S4x100000x128_2_1_0_0_1_2_11128_wf bcast_S_S4x100000x1 bcast_S1_S1x1x1_2
    bcast_S1x1x1_S4x100000x1_0_1_2 reducesTo_S4x100000x1_S4x100000_d2 (by decide) h_S_ bcast_S4x100000_S4x100000x128_0_1 bcast_S_S4x100000x128
    10000#32 9999#32 _ _ _ b t k

end Cert.ReferenceIdeal.RefValue

end
-- ==== Proof.RefValueC.lean ====
/-
  The feature rows and the two layers of the reference program, read at an entry.

  The concatenation along the last axis joins, at every edge (b, t), the four looked-up pieces into one row of 264
  numbers: positions 0–3 and 4–7 the two boxes, 8–135 and 136–263 the two vectors. A matrix product with the weights
  [K, N] contracts the last axis: entry (b, t, j) is the sum over k of row (b, t) at k times the weights at (k, j). The
  bias, the running mean, the scale γ · rsqrt(σ² + ε) and the shift are per-column vectors repeated over all edges, so a
  layer's entry (b, t, j) is the unit of Spec at column j of that edge's pre-activation sum.
-/
import proofs.«165707_j13941463842948_1_alg».proof.Proof.RefValueA
import proofs.«165707_j13941463842948_1_alg».proof.Proof.LibTypedRead
import proofs.«165707_j13941463842948_1_alg».proof.Proof.ReferenceReadP
import proofs.«165707_j13941463842948_1_alg».proof.Proof.Spec
import Idealize.ShloMosaic.Lib.Pipeline.Value
import Idealize.ShloMosaic.Lib.IdealHost
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ValueP
open Idealize.ShloMosaic Idealize.ShloMosaic.TcCoe Idealize.SL.Sem Idealize.ShloMosaic.StableHlo Idealize.ShloMosaic.ValueIdx
open Cert.LibTypedRead Cert.EdgeScore
open scoped BigOperators

/-- Row (b, t) of a stack of matrices against column j of a weight matrix. -/
def rowDot {K N : ℕ} (l : (⟨3, ![4, 100000, K]⟩ : Shape).Idx → EReal) (W : (⟨2, ![K, N]⟩ : Shape).Idx → EReal)
    (b : Fin 4) (t : Fin 100000) (j : Fin N) : EReal :=
  ∑ k : Fin K, l (ix3 b t k) * W (ix2 k j)

/-- The normalisation of Spec's `unit`, before its rectifier, at (b, t, j): pre-activation sums `s`, bias `bb`, running mean
    `mu`, scale `g`, running variance `var`, shift `be`. -/
def normAt {N : ℕ} (s : (⟨3, ![4, 100000, N]⟩ : Shape).Idx → EReal) (bb mu g var be : (⟨1, ![N]⟩ : Shape).Idx → EReal)
    (b : Fin 4) (t : Fin 100000) (j : Fin N) : EReal :=
  ((s (ix3 b t j) + bb (ix1 j)) - mu (ix1 j)) * (g (ix1 j) * Ideal.rsqrt (var (ix1 j) + eps)) + be (ix1 j)

/-- The rectifier at an entry. -/
def rectAt {S : Shape} (x : S.Idx → EReal) (i : S.Idx) : EReal := max (x i) zero32

/-- The feature row of edge (b, t) joined from the four looked-up arrays. -/
def catRow (x5 x7 : S4x100000x4.Idx → EReal) (x9 x11 : S4x100000x128.Idx → EReal) (b : Fin 4) (t : Fin 100000) :
    Fin 264 → EReal :=
  joinRow (fun k' : Fin 8 => if h : k'.val < 4 then x5 (ix3 b t ⟨k'.val, h⟩) else x7 (ix3 b t ⟨k'.val - 4, by omega⟩))
    (fun k' => x9 (ix3 b t k')) (fun k' => x11 (ix3 b t k'))

/-- A per-column vector repeated over the graphs and the edges, read at (p, q, j): its entry j. -/
theorem perColumn3_apply {α : Type} {A B n : ℕ} (x : (⟨1, ![n]⟩ : Shape).Idx → α)
    (h1 : (⟨1, ![n]⟩ : Shape).BroadcastsInDim ⟨3, ![1, 1, n]⟩ (![2] : Fin 1 → Fin (⟨3, ![1, 1, n]⟩ : Shape).rank))
    (h2 : (⟨3, ![1, 1, n]⟩ : Shape).BroadcastsInDim ⟨3, ![A, B, n]⟩ (![0, 1, 2] : Fin 3 → Fin (⟨3, ![A, B, n]⟩ : Shape).rank))
    (p : Fin A) (q : Fin B) (j : Fin n) :
    broadcastInDim ⟨3, ![A, B, n]⟩ ![0, 1, 2] h2 (broadcastInDim ⟨3, ![1, 1, n]⟩ ![2] h1 x) (ix3 p q j) = x (ix1 j) := by
  rw [broadcastInDim_apply (![0, 1, 2] : Fin 3 → Fin (⟨3, ![A, B, n]⟩ : Shape).rank) h2 _ (ix3 p q j)
    (ix3 (0 : Fin 1) (0 : Fin 1) j) (fun a => by
      match a with
      | ⟨0, _⟩ => show (0 : ℕ) = if (1 : ℕ) = 1 then 0 else p.val; rw [if_pos rfl]
      | ⟨1, _⟩ => show (0 : ℕ) = if (1 : ℕ) = 1 then 0 else q.val; rw [if_pos rfl]
      | ⟨2, _⟩ =>
        show j.val = if n = 1 then 0 else j.val
        have := j.isLt; split <;> omega)]
  exact broadcastInDim_apply (![2] : Fin 1 → Fin (⟨3, ![1, 1, n]⟩ : Shape).rank) h1 x (ix3 (0 : Fin 1) (0 : Fin 1) j) (ix1 j)
    (fun a => by
      match a with
      | ⟨0, _⟩ =>
        show j.val = if n = 1 then 0 else j.val
        have := j.isLt; split <;> omega)

/-- The four pieces joined along the last axis, at (b, t, k): the row of Spec's `joinRow` over the two boxes and the
    two vectors of edge (b, t). -/
theorem cat_apply (x5 x7 : S4x100000x4.Idx → EReal) (x9 x11 : S4x100000x128.Idx → EReal) (b : Fin 4) (t : Fin 100000)
    (k : Fin 264) :
    (concatenate S4x100000x264 2 [⟨S4x100000x4, x5⟩, ⟨S4x100000x4, x7⟩, ⟨S4x100000x128, x9⟩, ⟨S4x100000x128, x11⟩]
        concatenates_S4x100000x4_S4x100000x4_S4x100000x128_S4x100000x128_S4x100000x264_d2 : S4x100000x264.Idx → EReal) (ix3 b t k)
      = catRow x5 x7 x9 x11 b t k := by
  have hk := k.isLt
  unfold catRow joinRow
  by_cases h8 : k.val < 8
  · rw [dif_pos h8]
    by_cases h4 : k.val < 4
    · simp only [dif_pos h4]
      exact concatenate_apply_piece _ _ _ (ix3 b t k) 0 (by show (0 : ℕ) < 4; decide) S4x100000x4 x5 rfl rfl 0 rfl (ix3 b t ⟨k.val, h4⟩)
        (fun a ha => by
          match a with
          | ⟨0, _⟩ => rfl
          | ⟨1, _⟩ => rfl
          | ⟨2, _⟩ => exact absurd (Fin.ext rfl) ha)
        (by show 0 + k.val = k.val; omega)
    · simp only [dif_neg h4]
      exact concatenate_apply_piece _ _ _ (ix3 b t k) 1 (by show (1 : ℕ) < 4; decide) S4x100000x4 x7 rfl rfl 4 rfl (ix3 b t ⟨k.val - 4, by omega⟩)
        (fun a ha => by
          match a with
          | ⟨0, _⟩ => rfl
          | ⟨1, _⟩ => rfl
          | ⟨2, _⟩ => exact absurd (Fin.ext rfl) ha)
        (by show 4 + (k.val - 4) = k.val; omega)
  · rw [dif_neg h8]
    by_cases h136 : k.val < 136
    · rw [dif_pos h136]
      exact concatenate_apply_piece _ _ _ (ix3 b t k) 2 (by show (2 : ℕ) < 4; decide) S4x100000x128 x9 rfl rfl 8 rfl (ix3 b t ⟨k.val - 8, by omega⟩)
        (fun a ha => by
          match a with
          | ⟨0, _⟩ => rfl
          | ⟨1, _⟩ => rfl
          | ⟨2, _⟩ => exact absurd (Fin.ext rfl) ha)
        (by show 8 + (k.val - 8) = k.val; omega)
    · rw [dif_neg h136]
      exact concatenate_apply_piece _ _ _ (ix3 b t k) 3 (by show (3 : ℕ) < 4; decide) S4x100000x128 x11 rfl rfl 136 rfl (ix3 b t ⟨k.val - 136, by omega⟩)
        (fun a ha => by
          match a with
          | ⟨0, _⟩ => rfl
          | ⟨1, _⟩ => rfl
          | ⟨2, _⟩ => exact absurd (Fin.ext rfl) ha)
        (by show 136 + (k.val - 136) = k.val; omega)

/-- The dot1 matrix product at (b, t, j): row (b, t) of the left factor against column j of the weights. -/
theorem dot1_apply (l : S4x100000x264.Idx → EReal) (r : S264x512.Idx → EReal) (b : Fin 4) (t : Fin 100000) (j : Fin 512) :
    (Host.dotGeneral (F := Ideal) (φ₁ := .f32) (φ₂ := .f32) dot_S4x100000x264_S264x512_S4x100000x512_2_0_01_1_n_n none l r : S4x100000x512.Idx → EReal) (ix3 b t j)
      = rowDot (K := 264) (N := 512) l r b t j := by
  unfold rowDot
  simp only [Host.dotGeneral]
  rw [Ideal.dotGeneral_apply, ← Equiv.sum_comp (ValueIdx.contrEquiv1 dot_S4x100000x264_S264x512_S4x100000x512_2_0_01_1_n_n 264 rfl rfl).symm]
  refine Finset.sum_congr rfl fun k _ => ?_
  have hk := ValueIdx.contrEquiv1_symm_val dot_S4x100000x264_S264x512_S4x100000x512_2_0_01_1_n_n 264 rfl rfl k
  have el : dot_S4x100000x264_S264x512_S4x100000x512_2_0_01_1_n_n.lhsIdx (ix3 b t j) ((ValueIdx.contrEquiv1 dot_S4x100000x264_S264x512_S4x100000x512_2_0_01_1_n_n 264 rfl rfl).symm k) = ix3 b t k :=
    funext fun a => Fin.ext (by
      match a with
      | ⟨0, _⟩ => exact ReadP.lhs_main_v13_0 _ _
      | ⟨1, _⟩ => exact ReadP.lhs_main_v13_1 _ _
      | ⟨2, _⟩ => exact (ReadP.lhs_main_v13_2 _ _).trans hk)
  have er : dot_S4x100000x264_S264x512_S4x100000x512_2_0_01_1_n_n.rhsIdx (ix3 b t j) ((ValueIdx.contrEquiv1 dot_S4x100000x264_S264x512_S4x100000x512_2_0_01_1_n_n 264 rfl rfl).symm k) = ix2 k j :=
    funext fun a => Fin.ext (by
      match a with
      | ⟨0, _⟩ => exact (ReadP.rhs_main_v13_0 _ _).trans hk
      | ⟨1, _⟩ => exact ReadP.rhs_main_v13_1 _ _)
  rw [el, er]

/-- The dot2 matrix product at (b, t, j): row (b, t) of the left factor against column j of the weights. -/
theorem dot2_apply (l : S4x100000x512.Idx → EReal) (r : S512x64.Idx → EReal) (b : Fin 4) (t : Fin 100000) (j : Fin 64) :
    (Host.dotGeneral (F := Ideal) (φ₁ := .f32) (φ₂ := .f32) dot_S4x100000x512_S512x64_S4x100000x64_2_0_01_1_n_n none l r : S4x100000x64.Idx → EReal) (ix3 b t j)
      = rowDot (K := 512) (N := 64) l r b t j := by
  unfold rowDot
  simp only [Host.dotGeneral]
  rw [Ideal.dotGeneral_apply, ← Equiv.sum_comp (ValueIdx.contrEquiv1 dot_S4x100000x512_S512x64_S4x100000x64_2_0_01_1_n_n 512 rfl rfl).symm]
  refine Finset.sum_congr rfl fun k _ => ?_
  have hk := ValueIdx.contrEquiv1_symm_val dot_S4x100000x512_S512x64_S4x100000x64_2_0_01_1_n_n 512 rfl rfl k
  have el : dot_S4x100000x512_S512x64_S4x100000x64_2_0_01_1_n_n.lhsIdx (ix3 b t j) ((ValueIdx.contrEquiv1 dot_S4x100000x512_S512x64_S4x100000x64_2_0_01_1_n_n 512 rfl rfl).symm k) = ix3 b t k :=
    funext fun a => Fin.ext (by
      match a with
      | ⟨0, _⟩ => exact ReadP.lhs_main_v31_0 _ _
      | ⟨1, _⟩ => exact ReadP.lhs_main_v31_1 _ _
      | ⟨2, _⟩ => exact (ReadP.lhs_main_v31_2 _ _).trans hk)
  have er : dot_S4x100000x512_S512x64_S4x100000x64_2_0_01_1_n_n.rhsIdx (ix3 b t j) ((ValueIdx.contrEquiv1 dot_S4x100000x512_S512x64_S4x100000x64_2_0_01_1_n_n 512 rfl rfl).symm k) = ix2 k j :=
    funext fun a => Fin.ext (by
      match a with
      | ⟨0, _⟩ => exact (ReadP.rhs_main_v31_0 _ _).trans hk
      | ⟨1, _⟩ => exact ReadP.rhs_main_v31_1 _ _)
  rw [el, er]

/-! ## The stretches -/

/-- The feature row of edge (b, t) as the concatenation leaves it. -/
theorem cat_v12 (V : Valuation τ sig (Elt Ideal)) (b : Fin 4) (t : Fin 100000) (k : Fin 264) :
    (after (cat (F := Ideal)) V (Proc.devRef .tc main_v12) : S4x100000x264.Idx → EReal) (ix3 b t k)
      = catRow (V (Proc.devRef .tc main_v5)) (V (Proc.devRef .tc main_v7)) (V (Proc.devRef .tc main_v9))
          (V (Proc.devRef .tc main_v11)) b t k := by
  unfold cat
  after_results
  exact cat_apply _ _ _ _ b t k

theorem d1_v13 (V : Valuation τ sig (Elt Ideal)) (b : Fin 4) (t : Fin 100000) (j : Fin 512) :
    (after (d1 (F := Ideal)) V (Proc.devRef .tc main_v13) : S4x100000x512.Idx → EReal) (ix3 b t j)
      = rowDot (K := 264) (N := 512) (V (Proc.devRef .tc main_v12)) (V (Proc.devRef .tc main_arg3)) b t j := by
  unfold d1
  after_results
  exact dot1_apply _ _ b t j

theorem d2_v31 (V : Valuation τ sig (Elt Ideal)) (b : Fin 4) (t : Fin 100000) (q : Fin 64) :
    (after (d2 (F := Ideal)) V (Proc.devRef .tc main_v31) : S4x100000x64.Idx → EReal) (ix3 b t q)
      = rowDot (K := 512) (N := 64) (V (Proc.devRef .tc main_v30)) (V (Proc.devRef .tc main_arg9)) b t q := by
  unfold d2
  after_results
  exact dot2_apply _ _ b t q

/-- The bias, the normalisation and the shift of the stretch `n1` at (b, t, j). -/
theorem n1_v29 (V : Valuation τ sig (Elt Ideal)) (b : Fin 4) (t : Fin 100000) (j : Fin 512) :
    (after (n1 (F := Ideal)) V (Proc.devRef .tc main_v29) : S4x100000x512.Idx → EReal) (ix3 b t j)
      = normAt (V (Proc.devRef .tc main_v13)) (V (Proc.devRef .tc main_arg4)) (V (Proc.devRef .tc main_arg7)) (V (Proc.devRef .tc main_arg5))
          (V (Proc.devRef .tc main_arg8)) (V (Proc.devRef .tc main_arg6)) b t j := by
  unfold n1 normAt
  after_results_simp
  simp only [addf_apply, mulf_apply, subf_apply]
  rw [perColumn3_apply, perColumn3_apply, perColumn3_apply, perColumn3_apply]
  rfl

/-- The bias, the normalisation and the shift of the stretch `n2` at (b, t, j). -/
theorem n2_v47 (V : Valuation τ sig (Elt Ideal)) (b : Fin 4) (t : Fin 100000) (j : Fin 64) :
    (after (n2 (F := Ideal)) V (Proc.devRef .tc main_v47) : S4x100000x64.Idx → EReal) (ix3 b t j)
      = normAt (V (Proc.devRef .tc main_v31)) (V (Proc.devRef .tc main_arg10)) (V (Proc.devRef .tc main_arg13)) (V (Proc.devRef .tc main_arg11))
          (V (Proc.devRef .tc main_arg14)) (V (Proc.devRef .tc main_arg12)) b t j := by
  unfold n2 normAt
  after_results
  simp only [addf_apply, mulf_apply, subf_apply]
  rw [perColumn3_apply, perColumn3_apply, perColumn3_apply, perColumn3_apply]
  rfl

/-- The rectifier `c4` as one function of its operand. -/
theorem c4_read (V : Valuation τ sig (Elt Ideal)) :
    get (TRef.of main_v30 : TRef sig ⟨S4x100000x512, .f32⟩) (after (c4 (F := Ideal)) V) =
      maximumf (get (TRef.of main_v29 : TRef sig ⟨S4x100000x512, .f32⟩) V)
        (broadcastInDim S4x100000x512 ![] bcast_S_S4x100000x512 (constant (F := Ideal) S_ .f32 0x00000000#32)) := by
  unfold c4
  simp (disch := decide) only [get_after_cons, get_after_nil, get_nullary, get_unary, get_binary, get_ternary,
    get_nullary_ne, get_unary_ne, get_binary_ne, get_ternary_ne]

/-- The rectifier `c4` at an entry. -/
theorem c4_v30 (V : Valuation τ sig (Elt Ideal)) (i : S4x100000x512.Idx) :
    (after (c4 (F := Ideal)) V (Proc.devRef .tc main_v30) : S4x100000x512.Idx → EReal) i
      = rectAt (S := S4x100000x512) (V (Proc.devRef .tc main_v29)) i :=
  congrFun (c4_read V) i

/-- The rectifier `c5` as one function of its operand. -/
theorem c5_read (V : Valuation τ sig (Elt Ideal)) :
    get (TRef.of main_v48 : TRef sig ⟨S4x100000x64, .f32⟩) (after (c5 (F := Ideal)) V) =
      maximumf (get (TRef.of main_v47 : TRef sig ⟨S4x100000x64, .f32⟩) V)
        (broadcastInDim S4x100000x64 ![] bcast_S_S4x100000x64 (constant (F := Ideal) S_ .f32 0x00000000#32)) := by
  unfold c5
  simp (disch := decide) only [get_after_cons, get_after_nil, get_nullary, get_unary, get_binary, get_ternary,
    get_nullary_ne, get_unary_ne, get_binary_ne, get_ternary_ne]

/-- The rectifier `c5` at an entry. -/
theorem c5_v48 (V : Valuation τ sig (Elt Ideal)) (i : S4x100000x64.Idx) :
    (after (c5 (F := Ideal)) V (Proc.devRef .tc main_v48) : S4x100000x64.Idx → EReal) i
      = rectAt (S := S4x100000x64) (V (Proc.devRef .tc main_v47)) i :=
  congrFun (c5_read V) i

end Cert.ReferenceIdeal.RefValue

end
-- ==== Proof.RefValueD.lean ====
/-
  The softmax of the logits and its largest entry, as the reference program spells them, read at an edge.

  For the logits x : [4, 100000, 64] the program takes the maximum M of each row (a fold of max from −∞, then once more
  the maximum with −∞, which changes nothing), lays it out along the row, subtracts, exponentiates; sums each row of the
  exponentials from zero, lays the sum out along the row and divides; and takes each row's maximum again. At edge
  (b, t) that is Spec's `topProb` of the row q ↦ x (b, t, q).
-/
import proofs.«165707_j13941463842948_1_alg».proof.Proof.RefValueA
import proofs.«165707_j13941463842948_1_alg».proof.Proof.Spec
import proofs.«165707_j13941463842948_1_alg».proof.Proof.LibLastAxis3
import proofs.«165707_j13941463842948_1_alg».proof.Proof.LibBatched3
import proofs.«165707_j13941463842948_1_alg».proof.Proof.LibMaxAxes
import Idealize.ShloMosaic.Lib.Pipeline.Value
import Idealize.ShloMosaic.Lib.IdealHost
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ValueP
open Idealize.ShloMosaic Idealize.ShloMosaic.TcCoe Idealize.SL.Sem Idealize.ShloMosaic.StableHlo Idealize.ShloMosaic.ValueIdx
open Cert.EdgeScore Cert.LibRowSoftmax Cert.LibLastAxis3 Cert.LibBatched3 Cert.LibMaxAxes
open scoped BigOperators

variable {F : FTy → Type} [FloatOps F]

/-- The last stretch up to the exponentials … -/
def t3a : List (HloOp τ sig (Elt F)) :=
  [ nullary main_cst_1 (constant S_ .f32 0xFF800000#32),
    binary main_v48 main_cst_1 main_v49 ((fun x v => Host.reduce FloatOps.maximumf x v reducesTo_S4x100000x64_S4x100000_d2 h_S_) : (⟨S4x100000x64, .f32⟩ : BufTy).Contents (Elt F) → (⟨S_, .f32⟩ : BufTy).Contents (Elt F) → (⟨S4x100000, .f32⟩ : BufTy).Contents (Elt F)),
    nullary main_cst_2 (constant S_ .f32 0xFF800000#32),
    unary main_cst_2 main_v50 (broadcastInDim S4x100000 ![] bcast_S_S4x100000 : (⟨S_, .f32⟩ : BufTy).Contents (Elt F) → (⟨S4x100000, .f32⟩ : BufTy).Contents (Elt F)),
    binary main_v50 main_v49 main_v51 (maximumf : (⟨S4x100000, .f32⟩ : BufTy).Contents (Elt F) → (⟨S4x100000, .f32⟩ : BufTy).Contents (Elt F) → (⟨S4x100000, .f32⟩ : BufTy).Contents (Elt F)),
    unary main_v51 main_v52 (broadcastInDim S4x100000x1 ![0, 1] bcast_S4x100000_S4x100000x1_0_1 : (⟨S4x100000, .f32⟩ : BufTy).Contents (Elt F) → (⟨S4x100000x1, .f32⟩ : BufTy).Contents (Elt F)),
    unary main_v52 main_v53 (broadcastInDim S4x100000x64 ![0, 1, 2] bcast_S4x100000x1_S4x100000x64_0_1_2 : (⟨S4x100000x1, .f32⟩ : BufTy).Contents (Elt F) → (⟨S4x100000x64, .f32⟩ : BufTy).Contents (Elt F)),
    binary main_v48 main_v53 main_v54 (subf : (⟨S4x100000x64, .f32⟩ : BufTy).Contents (Elt F) → (⟨S4x100000x64, .f32⟩ : BufTy).Contents (Elt F) → (⟨S4x100000x64, .f32⟩ : BufTy).Contents (Elt F)),
    unary main_v54 main_v55 (Host.exp : (⟨S4x100000x64, .f32⟩ : BufTy).Contents (Elt F) → (⟨S4x100000x64, .f32⟩ : BufTy).Contents (Elt F)) ]

/-- … and from the row sums on. -/
def t3b : List (HloOp τ sig (Elt F)) :=
  [ nullary main_cst_3 (constant S_ .f32 0x00000000#32),
    binary main_v55 main_cst_3 main_v56 ((fun x v => Host.reduceAdd x v reducesTo_S4x100000x64_S4x100000_d2 h_S_) : (⟨S4x100000x64, .f32⟩ : BufTy).Contents (Elt F) → (⟨S_, .f32⟩ : BufTy).Contents (Elt F) → (⟨S4x100000, .f32⟩ : BufTy).Contents (Elt F)),
    unary main_v56 main_v57 (broadcastInDim S4x100000x1 ![0, 1] bcast_S4x100000_S4x100000x1_0_1 : (⟨S4x100000, .f32⟩ : BufTy).Contents (Elt F) → (⟨S4x100000x1, .f32⟩ : BufTy).Contents (Elt F)),
    unary main_v57 main_v58 (broadcastInDim S4x100000x64 ![0, 1, 2] bcast_S4x100000x1_S4x100000x64_0_1_2 : (⟨S4x100000x1, .f32⟩ : BufTy).Contents (Elt F) → (⟨S4x100000x64, .f32⟩ : BufTy).Contents (Elt F)),
    binary main_v55 main_v58 main_v59 (Host.divf : (⟨S4x100000x64, .f32⟩ : BufTy).Contents (Elt F) → (⟨S4x100000x64, .f32⟩ : BufTy).Contents (Elt F) → (⟨S4x100000x64, .f32⟩ : BufTy).Contents (Elt F)),
    nullary main_cst_4 (constant S_ .f32 0xFF800000#32),
    binary main_v59 main_cst_4 main_v60 ((fun x v => Host.reduce FloatOps.maximumf x v reducesTo_S4x100000x64_S4x100000_d2 h_S_) : (⟨S4x100000x64, .f32⟩ : BufTy).Contents (Elt F) → (⟨S_, .f32⟩ : BufTy).Contents (Elt F) → (⟨S4x100000, .f32⟩ : BufTy).Contents (Elt F)) ]

theorem t3_split : (t3 : List (HloOp τ sig (Elt F))) = t3a ++ t3b := rfl

/-- The exponential of an entry less its row's maximum. -/
def expAt (x : S4x100000x64.Idx → EReal) (b : Fin 4) (t : Fin 100000) (q : Fin 64) : EReal :=
  Ideal.exp (x (ix3 b t q) - (Finset.univ : Finset (Fin 64)).fold max negInf (fun q' => x (ix3 b t q')))

/-- The largest entry of a row of exponentials divided by the row's sum. -/
def normTop (e : S4x100000x64.Idx → EReal) (b : Fin 4) (t : Fin 100000) : EReal :=
  (Finset.univ : Finset (Fin 64)).fold max negInf
    (fun q => Ideal.div (e (ix3 b t q)) (∑ q' : Fin 64, e (ix3 b t q')))

/-- The two together are Spec's largest softmax probability of the row. -/
theorem normTop_expAt (x : S4x100000x64.Idx → EReal) (b : Fin 4) (t : Fin 100000) :
    (Finset.univ : Finset (Fin 64)).fold max negInf
        (fun q => Ideal.div (expAt x b t q) (∑ q' : Fin 64, expAt x b t q'))
      = topProb (fun q => x (ix3 b t q)) := rfl

/-- The exponentials as the host spells them, at (b, t, q). -/
theorem expRow_apply (x : S4x100000x64.Idx → EReal) (b : Fin 4) (t : Fin 100000) (q : Fin 64) :
    (Host.exp (F := Ideal) (φ := .f32)
      (subf x (broadcastInDim S4x100000x64 ![0, 1, 2] bcast_S4x100000x1_S4x100000x64_0_1_2
        (broadcastInDim S4x100000x1 ![0, 1] bcast_S4x100000_S4x100000x1_0_1
          (maximumf (broadcastInDim S4x100000 ![] bcast_S_S4x100000 (constant (F := Ideal) S_ .f32 0xFF800000#32))
            (Host.reduce FloatOps.maximumf x (constant (F := Ideal) S_ .f32 0xFF800000#32)
              reducesTo_S4x100000x64_S4x100000_d2 h_S_))))) : S4x100000x64.Idx → EReal) (ix3 b t q)
      = expAt x b t q := by
  unfold expAt
  show Ideal.exp (x (ix3 b t q) - _) = _
  refine congrArg (fun m => Ideal.exp (x (ix3 b t q) - m)) ?_
  rw [broadcastInDim_ab1_abn_apply, broadcastInDim_ab_ab1_apply]
  refine (maximumf_apply _ _ _).trans ?_
  rw [hostMax_lastAxis3_apply _ _ reducesTo_S4x100000x64_S4x100000_d2 (by decide) h_S_ b t]
  exact max_fold_max_self _ _ _

theorem t3a_v55 (V : Valuation τ sig (Elt Ideal)) (b : Fin 4) (t : Fin 100000) (q : Fin 64) :
    (after (t3a (F := Ideal)) V (Proc.devRef .tc main_v55) : S4x100000x64.Idx → EReal) (ix3 b t q)
      = expAt (V (Proc.devRef .tc main_v48)) b t q := by
  unfold t3a
  after_results
  exact expRow_apply _ b t q

theorem t3b_v60 (V : Valuation τ sig (Elt Ideal)) (b : Fin 4) (t : Fin 100000) :
    (after (t3b (F := Ideal)) V (Proc.devRef .tc main_v60) : S4x100000.Idx → EReal) (ix2 b t)
      = normTop (V (Proc.devRef .tc main_v55)) b t := by
  unfold t3b
  after_results
  refine (hostMax_lastAxis3_apply _ _ reducesTo_S4x100000x64_S4x100000_d2 (by decide) h_S_ b t).trans ?_
  unfold normTop
  refine congrArg (fun f => Finset.fold max negInf f Finset.univ) (funext fun q => ?_)
  refine (hostDivf_apply _ _ _).trans ?_
  refine congrArg (fun d => Ideal.div ((V (Proc.devRef .tc main_v55) : S4x100000x64.Idx → EReal) (ix3 b t q)) d) ?_
  rw [broadcastInDim_ab1_abn_apply, broadcastInDim_ab_ab1_apply]
  rw [hostLastAxisSum3_apply _ _ reducesTo_S4x100000x64_S4x100000_d2 (by decide) h_S_ b t]
  rw [constant_apply, Ideal.ofBits_zero_f32, zero_add]

/-- THE LAST STRETCH at edge (b, t): the largest softmax probability of the edge's 64 logits. -/
theorem t3_v60 (V : Valuation τ sig (Elt Ideal)) (b : Fin 4) (t : Fin 100000) :
    (after (t3 (F := Ideal)) V (Proc.devRef .tc main_v60) : S4x100000.Idx → EReal) (ix2 b t)
      = topProb (fun q => (V (Proc.devRef .tc main_v48) : S4x100000x64.Idx → EReal) (ix3 b t q)) := by
  rw [t3_split, after_append]
  refine (t3b_v60 _ b t).trans ?_
  unfold normTop
  simp only [t3a_v55 V b t]
  exact normTop_expAt _ b t

end Cert.ReferenceIdeal.RefValue

end
-- ==== Proof.RefValue.lean ====
/-
  THE REFERENCE PROGRAM COMPUTES THE EDGE SCORES, and leaves its arguments as they were.

  Read stretch by stretch from the last one back: the result at edge (b, t) is the largest softmax probability of the
  edge's 64 logits; a logit is the second layer's unit of the hidden activations; a hidden activation is the first
  layer's unit of the edge's feature row; the feature row is the concatenation of the four looked-up pieces, each a
  `nodeRow` of the table at the edge's source or target node. That is Spec's `edgeScore`, term for term. No operation
  writes an argument's buffer, so each argument is read at the end as it was at the launch.
-/
import proofs.«165707_j13941463842948_1_alg».proof.Proof.RefValueB
import proofs.«165707_j13941463842948_1_alg».proof.Proof.RefValueC
import proofs.«165707_j13941463842948_1_alg».proof.Proof.RefValueD

noncomputable section

namespace Cert.ReferenceIdeal.RefValue

open Cert.ReferenceIdeal Cert.ReferenceIdeal.Gen Cert.ReferenceIdeal.ValueP
open Idealize.ShloMosaic Idealize.ShloMosaic.TcCoe Idealize.SL.Sem Idealize.ShloMosaic.StableHlo Idealize.ShloMosaic.ValueIdx
open Cert.EdgeScore Cert.LibRowSoftmax
open scoped BigOperators

/-- A buffer no stretch writes is read after the whole program as before it. -/
theorem ops_keep (V : Valuation τ sig (Elt Ideal)) (r : Ref sig .tc)
    (h_s0 : r ∉ W_s0)
    (h_c0 : r ∉ W_c0)
    (h_p1 : r ∉ W_p1)
    (h_c1 : r ∉ W_c1)
    (h_p2 : r ∉ W_p2)
    (h_c2 : r ∉ W_c2)
    (h_p3 : r ∉ W_p3)
    (h_c3 : r ∉ W_c3)
    (h_cat : r ∉ W_cat)
    (h_d1 : r ∉ W_d1)
    (h_n1 : r ∉ W_n1)
    (h_c4 : r ∉ W_c4)
    (h_d2 : r ∉ W_d2)
    (h_n2 : r ∉ W_n2)
    (h_c5 : r ∉ W_c5)
    (h_t3 : r ∉ W_t3) :
    after (ops (F := Ideal)) V (Proc.devRef .tc r) = V (Proc.devRef .tc r) :=
  (congrFun (after_ops V) (Proc.devRef .tc r)).trans
    ((keep_t3 _ r h_t3).trans ((keep_c5 _ r h_c5).trans ((keep_n2 _ r h_n2).trans ((keep_d2 _ r h_d2).trans ((keep_c4 _ r h_c4).trans ((keep_n1 _ r h_n1).trans ((keep_d1 _ r h_d1).trans ((keep_cat _ r h_cat).trans ((keep_c3 _ r h_c3).trans ((keep_p3 _ r h_p3).trans ((keep_c2 _ r h_c2).trans ((keep_p2 _ r h_p2).trans ((keep_c1 _ r h_c1).trans ((keep_p1 _ r h_p1).trans ((keep_c0 _ r h_c0).trans (keep_s0 _ r h_s0))))))))))))))))

/-- The result at edge (b, t), from any contents of the buffers: the score of the edge's feature row. -/
theorem ref_value (V0 : Valuation τ sig (Elt Ideal)) (b : Fin 4) (t : Fin 100000) :
    (after (ops (F := Ideal)) V0 (Proc.devRef .tc main_v60) : S4x100000.Idx → EReal) (ix2 b t)
      = score (featRow (V0 (Proc.devRef .tc main_arg0)) (V0 (Proc.devRef .tc main_arg1)) (V0 (Proc.devRef .tc main_arg2)) b t)
          (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) := by
  rw [after_ops]
  refine (t3_v60 _ b t).trans ?_
  unfold score
  refine congrArg topProb (funext fun q => ?_)
  have h_c5 := fun (V : Valuation τ sig (Elt Ideal)) i => c5_v48 V i
  have h_n2 := fun (V : Valuation τ sig (Elt Ideal)) j => n2_v47 V b t j
  have h_d2 := fun (V : Valuation τ sig (Elt Ideal)) j => d2_v31 V b t j
  have h_c4 := fun (V : Valuation τ sig (Elt Ideal)) i => c4_v30 V i
  have h_n1 := fun (V : Valuation τ sig (Elt Ideal)) j => n1_v29 V b t j
  have h_d1 := fun (V : Valuation τ sig (Elt Ideal)) j => d1_v13 V b t j
  have h_cat := fun (V : Valuation τ sig (Elt Ideal)) k => cat_v12 V b t k
  have h_c3 := fun (V : Valuation τ sig (Elt Ideal)) k => c3_v11 V b t k
  have h_c2 := fun (V : Valuation τ sig (Elt Ideal)) k => c2_v9 V b t k
  have h_c1 := fun (V : Valuation τ sig (Elt Ideal)) k => c1_v7 V b t k
  have h_c0 := fun (V : Valuation τ sig (Elt Ideal)) k => c0_v5 V b t k
  have h_p3 := fun (V : Valuation τ sig (Elt Ideal)) => p3_v10 V b t
  have h_p2 := fun (V : Valuation τ sig (Elt Ideal)) => p2_v8 V b t
  have h_p1 := fun (V : Valuation τ sig (Elt Ideal)) => p1_v6 V b t
  have h_s1 := fun (V : Valuation τ sig (Elt Ideal)) => s0_v1 V b t
  have h_s3 := fun (V : Valuation τ sig (Elt Ideal)) => s0_v3 V b t
  have h_s4 := fun (V : Valuation τ sig (Elt Ideal)) => s0_v4 V b t
  have k_s0 := fun (V : Valuation τ sig (Elt Ideal)) r hr => keep_s0 (F := Ideal) V r hr
  have k_c0 := fun (V : Valuation τ sig (Elt Ideal)) r hr => keep_c0 (F := Ideal) V r hr
  have k_p1 := fun (V : Valuation τ sig (Elt Ideal)) r hr => keep_p1 (F := Ideal) V r hr
  have k_c1 := fun (V : Valuation τ sig (Elt Ideal)) r hr => keep_c1 (F := Ideal) V r hr
  have k_p2 := fun (V : Valuation τ sig (Elt Ideal)) r hr => keep_p2 (F := Ideal) V r hr
  have k_c2 := fun (V : Valuation τ sig (Elt Ideal)) r hr => keep_c2 (F := Ideal) V r hr
  have k_p3 := fun (V : Valuation τ sig (Elt Ideal)) r hr => keep_p3 (F := Ideal) V r hr
  have k_c3 := fun (V : Valuation τ sig (Elt Ideal)) r hr => keep_c3 (F := Ideal) V r hr
  have k_cat := fun (V : Valuation τ sig (Elt Ideal)) r hr => keep_cat (F := Ideal) V r hr
  have k_d1 := fun (V : Valuation τ sig (Elt Ideal)) r hr => keep_d1 (F := Ideal) V r hr
  have k_n1 := fun (V : Valuation τ sig (Elt Ideal)) r hr => keep_n1 (F := Ideal) V r hr
  have k_c4 := fun (V : Valuation τ sig (Elt Ideal)) r hr => keep_c4 (F := Ideal) V r hr
  have k_d2 := fun (V : Valuation τ sig (Elt Ideal)) r hr => keep_d2 (F := Ideal) V r hr
  have k_n2 := fun (V : Valuation τ sig (Elt Ideal)) r hr => keep_n2 (F := Ideal) V r hr
  have k_c5 := fun (V : Valuation τ sig (Elt Ideal)) r hr => keep_c5 (F := Ideal) V r hr
  have k_t3 := fun (V : Valuation τ sig (Elt Ideal)) r hr => keep_t3 (F := Ideal) V r hr
  simp (disch := decide) only [h_c5, h_n2, h_d2, h_c4, h_n1, h_d1, h_cat, h_c3, h_c2, h_c1, h_c0, h_p3, h_p2, h_p1, h_s1, h_s3, h_s4,
    k_s0, k_c0, k_p1, k_c1, k_p2, k_c2, k_p3, k_c3, k_cat, k_d1, k_n1, k_c4, k_d2, k_n2, k_c5, k_t3,
    rectAt, normAt, rowDot, catRow, logits, hiddenAct, unit, featRow]
  rfl

/-- THE REFERENCE'S RESULT: after the run the result buffer holds the edge scores of the launch arguments. -/
theorem ref_result (m : (ℓ : Loc nD τ sig) → Buf (Elt Ideal) ℓ) (c : Dev nD) :
    (StableHlo.after (ops (F := Ideal)) (launchContents m c) (Proc.devRef .tc main_v60) : S4x100000.Idx → EReal)
      = edgeScore (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14)) := by
  funext i
  obtain ⟨b, t, rfl⟩ : ∃ b t, i = ix2 b t := ⟨i 0, i 1, eq_ix2 i⟩
  exact ref_value (launchContents m c) b t

/-- THE ARGUMENTS ARE KEPT: after the run each argument buffer holds what it held at the launch. -/
theorem ref_kept (m : (ℓ : Loc nD τ sig) → Buf (Elt Ideal) ℓ) (c : Dev nD) :
    StableHlo.after (ops (F := Ideal)) (launchContents m c) (Proc.devRef .tc main_arg0) = m ((c.tc : Thread nD τ).loc main_arg0)
    ∧ StableHlo.after (ops (F := Ideal)) (launchContents m c) (Proc.devRef .tc main_arg1) = m ((c.tc : Thread nD τ).loc main_arg1)
    ∧ StableHlo.after (ops (F := Ideal)) (launchContents m c) (Proc.devRef .tc main_arg2) = m ((c.tc : Thread nD τ).loc main_arg2)
    ∧ StableHlo.after (ops (F := Ideal)) (launchContents m c) (Proc.devRef .tc main_arg3) = m ((c.tc : Thread nD τ).loc main_arg3)
    ∧ StableHlo.after (ops (F := Ideal)) (launchContents m c) (Proc.devRef .tc main_arg4) = m ((c.tc : Thread nD τ).loc main_arg4)
    ∧ StableHlo.after (ops (F := Ideal)) (launchContents m c) (Proc.devRef .tc main_arg5) = m ((c.tc : Thread nD τ).loc main_arg5)
    ∧ StableHlo.after (ops (F := Ideal)) (launchContents m c) (Proc.devRef .tc main_arg6) = m ((c.tc : Thread nD τ).loc main_arg6)
    ∧ StableHlo.after (ops (F := Ideal)) (launchContents m c) (Proc.devRef .tc main_arg7) = m ((c.tc : Thread nD τ).loc main_arg7)
    ∧ StableHlo.after (ops (F := Ideal)) (launchContents m c) (Proc.devRef .tc main_arg8) = m ((c.tc : Thread nD τ).loc main_arg8)
    ∧ StableHlo.after (ops (F := Ideal)) (launchContents m c) (Proc.devRef .tc main_arg9) = m ((c.tc : Thread nD τ).loc main_arg9)
    ∧ StableHlo.after (ops (F := Ideal)) (launchContents m c) (Proc.devRef .tc main_arg10) = m ((c.tc : Thread nD τ).loc main_arg10)
    ∧ StableHlo.after (ops (F := Ideal)) (launchContents m c) (Proc.devRef .tc main_arg11) = m ((c.tc : Thread nD τ).loc main_arg11)
    ∧ StableHlo.after (ops (F := Ideal)) (launchContents m c) (Proc.devRef .tc main_arg12) = m ((c.tc : Thread nD τ).loc main_arg12)
    ∧ StableHlo.after (ops (F := Ideal)) (launchContents m c) (Proc.devRef .tc main_arg13) = m ((c.tc : Thread nD τ).loc main_arg13)
    ∧ StableHlo.after (ops (F := Ideal)) (launchContents m c) (Proc.devRef .tc main_arg14) = m ((c.tc : Thread nD τ).loc main_arg14) :=
  ⟨ops_keep _ main_arg0 (by decide) (by decide) (by decide) (by decide) (by decide) (by decide) (by decide) (by decide) (by decide) (by decide) (by decide) (by decide) (by decide) (by decide) (by decide) (by decide),
   ops_keep _ main_arg1 (by decide) (by decide) (by decide) (by decide) (by decide) (by decide) (by decide) (by decide) (by decide) (by decide) (by decide) (by decide) (by decide) (by decide) (by decide) (by decide),
   ops_keep _ main_arg2 (by decide) (by decide) (by decide) (by decide) (by decide) (by decide) (by decide) (by decide) (by decide) (by decide) (by decide) (by decide) (by decide) (by decide) (by decide) (by decide),
   ops_keep _ main_arg3 (by decide) (by decide) (by decide) (by decide) (by decide) (by decide) (by decide) (by decide) (by decide) (by decide) (by decide) (by decide) (by decide) (by decide) (by decide) (by decide),
   ops_keep _ main_arg4 (by decide) (by decide) (by decide) (by decide) (by decide) (by decide) (by decide) (by decide) (by decide) (by decide) (by decide) (by decide) (by decide) (by decide) (by decide) (by decide),
   ops_keep _ main_arg5 (by decide) (by decide) (by decide) (by decide) (by decide) (by decide) (by decide) (by decide) (by decide) (by decide) (by decide) (by decide) (by decide) (by decide) (by decide) (by decide),
   ops_keep _ main_arg6 (by decide) (by decide) (by decide) (by decide) (by decide) (by decide) (by decide) (by decide) (by decide) (by decide) (by decide) (by decide) (by decide) (by decide) (by decide) (by decide),
   ops_keep _ main_arg7 (by decide) (by decide) (by decide) (by decide) (by decide) (by decide) (by decide) (by decide) (by decide) (by decide) (by decide) (by decide) (by decide) (by decide) (by decide) (by decide),
   ops_keep _ main_arg8 (by decide) (by decide) (by decide) (by decide) (by decide) (by decide) (by decide) (by decide) (by decide) (by decide) (by decide) (by decide) (by decide) (by decide) (by decide) (by decide),
   ops_keep _ main_arg9 (by decide) (by decide) (by decide) (by decide) (by decide) (by decide) (by decide) (by decide) (by decide) (by decide) (by decide) (by decide) (by decide) (by decide) (by decide) (by decide),
   ops_keep _ main_arg10 (by decide) (by decide) (by decide) (by decide) (by decide) (by decide) (by decide) (by decide) (by decide) (by decide) (by decide) (by decide) (by decide) (by decide) (by decide) (by decide),
   ops_keep _ main_arg11 (by decide) (by decide) (by decide) (by decide) (by decide) (by decide) (by decide) (by decide) (by decide) (by decide) (by decide) (by decide) (by decide) (by decide) (by decide) (by decide),
   ops_keep _ main_arg12 (by decide) (by decide) (by decide) (by decide) (by decide) (by decide) (by decide) (by decide) (by decide) (by decide) (by decide) (by decide) (by decide) (by decide) (by decide) (by decide),
   ops_keep _ main_arg13 (by decide) (by decide) (by decide) (by decide) (by decide) (by decide) (by decide) (by decide) (by decide) (by decide) (by decide) (by decide) (by decide) (by decide) (by decide) (by decide),
   ops_keep _ main_arg14 (by decide) (by decide) (by decide) (by decide) (by decide) (by decide) (by decide) (by decide) (by decide) (by decide) (by decide) (by decide) (by decide) (by decide) (by decide) (by decide)⟩

end Cert.ReferenceIdeal.RefValue

end
-- ==== Proof.lean ====
/-
  The certificate: a fused edge-scoring kernel against its jnp reference.

  Both programs score every edge of a batch of four graphs: the edge's feature row (the boxes and the vectors of its two
  endpoint nodes, looked up by node number) goes through two dense layers, each followed by an inference-mode batch
  normalisation and a rectifier, and the score is the largest softmax probability of the 64 logits (Proof/Spec.lean,
  `edgeScore`). The reference does this on whole arrays. The kernel program pads each graph's edge list to a multiple of
  the block length, looks the endpoint rows up on the host, flattens graphs and edges into one axis of rows, runs the
  two layers, the softmax and the maximum on blocks of 2048 rows in one kernel — the first layer as three partial
  products against the three bands of its weight matrix — and cuts the padding off again.

  At the exact instance every step of either program acts on one edge's row at a time, so both results are the same
  function of the argument arrays, edge by edge: the kernel side is Proof/KernelValue.lean (its body read a row at a
  time, its blocks assembled into the whole array, its host operations read a stretch at a time), the reference side
  Proof/RefValue*.lean; the one law between them is the regrouping of the first layer's sum over 264 = 8 + 128 + 128
  positions, which holds on the extended reals with no finiteness assumption, so the precondition is never opened.
  The three frames are the programs' runs with the result dropped, and the idealization rewrote nothing.
-/
import proofs.«165707_j13941463842948_1_alg».proof.Defs
import proofs.«165707_j13941463842948_1_alg».proof.Proof.Gen.Kernel
import proofs.«165707_j13941463842948_1_alg».proof.Proof.Gen.KernelIdeal
import proofs.«165707_j13941463842948_1_alg».proof.Proof.Gen.ReferenceIdeal
import proofs.«165707_j13941463842948_1_alg».proof.Proof.Gen.Pre_finite_inputs
import proofs.«165707_j13941463842948_1_alg».proof.Proof.KernelFrameP
import proofs.«165707_j13941463842948_1_alg».proof.Proof.KernelIdealFrameP
import proofs.«165707_j13941463842948_1_alg».proof.Proof.KernelValue
import proofs.«165707_j13941463842948_1_alg».proof.Proof.RefRun
import proofs.«165707_j13941463842948_1_alg».proof.Proof.RefValue
import Idealize.ShloMosaic.Adequacy
import Idealize.ShloMosaic.Init

noncomputable section

namespace Cert.Proof

open Idealize.ShloMosaic Idealize.ShloMosaic.TcCoe Idealize.SL.Sem Cert.EdgeScore

theorem frame_kernel : Cert.frame_Kernel := fun m ρ _ => Cert.Kernel.GenP.frame m ρ

theorem frame_kernelIdeal : Cert.frame_KernelIdeal := fun m ρ _ => Cert.KernelIdeal.GenP.frame m ρ

/-- The reference's frame: its run, each argument buffer read back unchanged. -/
theorem frame_referenceIdeal : Cert.frame_ReferenceIdeal := fun m ρ _ =>
  (θ_run Cert.ReferenceIdeal.defs _ _).mono (fun _ h c =>
    ⟨(h c Cert.ReferenceIdeal.main_arg0).trans ((Cert.ReferenceIdeal.RefValue.ref_kept m c).1),
      (h c Cert.ReferenceIdeal.main_arg1).trans ((Cert.ReferenceIdeal.RefValue.ref_kept m c).2.1),
      (h c Cert.ReferenceIdeal.main_arg2).trans ((Cert.ReferenceIdeal.RefValue.ref_kept m c).2.2.1),
      (h c Cert.ReferenceIdeal.main_arg3).trans ((Cert.ReferenceIdeal.RefValue.ref_kept m c).2.2.2.1),
      (h c Cert.ReferenceIdeal.main_arg4).trans ((Cert.ReferenceIdeal.RefValue.ref_kept m c).2.2.2.2.1),
      (h c Cert.ReferenceIdeal.main_arg5).trans ((Cert.ReferenceIdeal.RefValue.ref_kept m c).2.2.2.2.2.1),
      (h c Cert.ReferenceIdeal.main_arg6).trans ((Cert.ReferenceIdeal.RefValue.ref_kept m c).2.2.2.2.2.2.1),
      (h c Cert.ReferenceIdeal.main_arg7).trans ((Cert.ReferenceIdeal.RefValue.ref_kept m c).2.2.2.2.2.2.2.1),
      (h c Cert.ReferenceIdeal.main_arg8).trans ((Cert.ReferenceIdeal.RefValue.ref_kept m c).2.2.2.2.2.2.2.2.1),
      (h c Cert.ReferenceIdeal.main_arg9).trans ((Cert.ReferenceIdeal.RefValue.ref_kept m c).2.2.2.2.2.2.2.2.2.1),
      (h c Cert.ReferenceIdeal.main_arg10).trans ((Cert.ReferenceIdeal.RefValue.ref_kept m c).2.2.2.2.2.2.2.2.2.2.1),
      (h c Cert.ReferenceIdeal.main_arg11).trans ((Cert.ReferenceIdeal.RefValue.ref_kept m c).2.2.2.2.2.2.2.2.2.2.2.1),
      (h c Cert.ReferenceIdeal.main_arg12).trans ((Cert.ReferenceIdeal.RefValue.ref_kept m c).2.2.2.2.2.2.2.2.2.2.2.2.1),
      (h c Cert.ReferenceIdeal.main_arg13).trans ((Cert.ReferenceIdeal.RefValue.ref_kept m c).2.2.2.2.2.2.2.2.2.2.2.2.2.1),
      (h c Cert.ReferenceIdeal.main_arg14).trans ((Cert.ReferenceIdeal.RefValue.ref_kept m c).2.2.2.2.2.2.2.2.2.2.2.2.2.2)⟩)
    (Cert.ReferenceIdeal.RefRun.run_after (F := Ideal) m ρ)

/-- The ideal pass rewrote no operation of the kernel. -/
theorem preserves : Cert.preserves_Kernel_KernelIdeal := trivial

/-- From memories that agree on the arguments both programs end with `edgeScore` of the arguments. -/
theorem algebraic : Cert.algebraic_KernelIdeal_ReferenceIdeal := by
  intro m ρ m' ρ' _ hagree
  refine ⟨_, Cert.KernelIdeal.ProgramValue.run m ρ, ?_⟩
  refine (θ_run Cert.ReferenceIdeal.defs _ _).mono (fun _ h c => ⟨?_,
      (h c Cert.ReferenceIdeal.main_arg0).trans ((Cert.ReferenceIdeal.RefValue.ref_kept m' c).1),
      (h c Cert.ReferenceIdeal.main_arg1).trans ((Cert.ReferenceIdeal.RefValue.ref_kept m' c).2.1),
      (h c Cert.ReferenceIdeal.main_arg2).trans ((Cert.ReferenceIdeal.RefValue.ref_kept m' c).2.2.1),
      (h c Cert.ReferenceIdeal.main_arg3).trans ((Cert.ReferenceIdeal.RefValue.ref_kept m' c).2.2.2.1),
      (h c Cert.ReferenceIdeal.main_arg4).trans ((Cert.ReferenceIdeal.RefValue.ref_kept m' c).2.2.2.2.1),
      (h c Cert.ReferenceIdeal.main_arg5).trans ((Cert.ReferenceIdeal.RefValue.ref_kept m' c).2.2.2.2.2.1),
      (h c Cert.ReferenceIdeal.main_arg6).trans ((Cert.ReferenceIdeal.RefValue.ref_kept m' c).2.2.2.2.2.2.1),
      (h c Cert.ReferenceIdeal.main_arg7).trans ((Cert.ReferenceIdeal.RefValue.ref_kept m' c).2.2.2.2.2.2.2.1),
      (h c Cert.ReferenceIdeal.main_arg8).trans ((Cert.ReferenceIdeal.RefValue.ref_kept m' c).2.2.2.2.2.2.2.2.1),
      (h c Cert.ReferenceIdeal.main_arg9).trans ((Cert.ReferenceIdeal.RefValue.ref_kept m' c).2.2.2.2.2.2.2.2.2.1),
      (h c Cert.ReferenceIdeal.main_arg10).trans ((Cert.ReferenceIdeal.RefValue.ref_kept m' c).2.2.2.2.2.2.2.2.2.2.1),
      (h c Cert.ReferenceIdeal.main_arg11).trans ((Cert.ReferenceIdeal.RefValue.ref_kept m' c).2.2.2.2.2.2.2.2.2.2.2.1),
      (h c Cert.ReferenceIdeal.main_arg12).trans ((Cert.ReferenceIdeal.RefValue.ref_kept m' c).2.2.2.2.2.2.2.2.2.2.2.2.1),
      (h c Cert.ReferenceIdeal.main_arg13).trans ((Cert.ReferenceIdeal.RefValue.ref_kept m' c).2.2.2.2.2.2.2.2.2.2.2.2.2.1),
      (h c Cert.ReferenceIdeal.main_arg14).trans ((Cert.ReferenceIdeal.RefValue.ref_kept m' c).2.2.2.2.2.2.2.2.2.2.2.2.2.2)⟩)
    (Cert.ReferenceIdeal.RefRun.run_after (F := Ideal) m' ρ')
  rw [h c Cert.ReferenceIdeal.main_v60, Cert.ReferenceIdeal.RefValue.ref_result m' c,
    (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
